-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S128 .f32) (main_arg10 : FVec F S64x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x128 .f32) (main_arg9 : FVec F S128 .f32) (main_arg10 : FVec F S64x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x128 .f32) (main_arg9 : FVec F S128 .f32) (main_arg10 : FVec F S64x64 .f32) (main_arg11 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S10000x64 : Shape := ⟨2, ![10000, 64]⟩
abbrev S200x10000 : Shape := ⟨2, ![200, 10000]⟩
abbrev S200x64 : Shape := ⟨2, ![200, 64]⟩
abbrev S1000x10000 : Shape := ⟨2, ![1000, 10000]⟩
abbrev S1000x64 : Shape := ⟨2, ![1000, 64]⟩
abbrev S1000x128 : Shape := ⟨2, ![1000, 128]⟩
abbrev S200x128 : Shape := ⟨2, ![200, 128]⟩

abbrev nBuf : Space → Nat
  | .hbm => 25
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S64x64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S64x128, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S10000x64, .f32⟩
  | .hbm, ⟨19, _⟩ => ⟨S10000x10000, .bf16⟩
  | .hbm, ⟨20, _⟩ => ⟨S10000x64, .f32⟩
  | .hbm, ⟨21, _⟩ => ⟨S10000x64, .f32⟩
  | .hbm, ⟨22, _⟩ => ⟨S10000x64, .f32⟩
  | .hbm, ⟨23, _⟩ => ⟨S10000x128, .f32⟩
  | .hbm, ⟨24, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S200x64, .f32⟩
  | .local _ .vmem, ⟨6, _⟩ => ⟨S200x64, .f32⟩
  | .local _ .vmem, ⟨7, _⟩ => ⟨S200x10000, .bf16⟩
  | .local _ .vmem, ⟨8, _⟩ => ⟨S200x10000, .bf16⟩
  | .local _ .vmem, ⟨9, _⟩ => ⟨S10000x64, .bf16⟩
  | .local _ .vmem, ⟨10, _⟩ => ⟨S1000x10000, .bf16⟩
  | .local _ .vmem, ⟨11, _⟩ => ⟨S1000x10000, .bf16⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S1000x64, .f32⟩
  | .local _ .vmem, ⟨16, _⟩ => ⟨S1000x64, .f32⟩
  | .local _ .vmem, ⟨17, _⟩ => ⟨S10000x64, .bf16⟩
  | .local _ .vmem, ⟨18, _⟩ => ⟨S1000x10000, .bf16⟩
  | .local _ .vmem, ⟨19, _⟩ => ⟨S1000x10000, .bf16⟩
  | .local _ .vmem, ⟨20, _⟩ => ⟨S10000x64, .f32⟩
  | .local _ .vmem, ⟨21, _⟩ => ⟨S64x128, .f32⟩
  | .local _ .vmem, ⟨22, _⟩ => ⟨S1x128, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | .local _ .vmem, ⟨26, _⟩ => ⟨S1000x64, .f32⟩
  | .local _ .vmem, ⟨27, _⟩ => ⟨S10000x128, .bf16⟩
  | .local _ .vmem, ⟨28, _⟩ => ⟨S200x10000, .bf16⟩
  | .local _ .vmem, ⟨29, _⟩ => ⟨S200x10000, .bf16⟩
  | .local _ .vmem, ⟨30, _⟩ => ⟨S10000x64, .f32⟩
  | .local _ .vmem, ⟨31, _⟩ => ⟨S10000x64, .f32⟩
  | .local _ .vmem, ⟨32, _⟩ => ⟨S64x128, .f32⟩
  | .local _ .vmem, ⟨33, _⟩ => ⟨S1x128, .f32⟩
  | .local _ .vmem, ⟨34, _⟩ => ⟨S200x128, .f32⟩
  | .local _ .vmem, ⟨35, _⟩ => ⟨S200x128, .f32⟩
  | .local _ .vmem, ⟨36, _⟩ => ⟨S200x10000, .f32⟩
  | .local _ .vmem, ⟨37, _⟩ => ⟨S200x10000, .f32⟩
  | .local _ .vmem, ⟨38, _⟩ => ⟨S10000x128, .bf16⟩
  | .local _ .vmem, ⟨39, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_scratch0 : Ref sig .tc := ⟨.vmem, 38, rfl⟩
abbrev cc3_scratch1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc3_sem6_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def k3_off1 (i : grid3.Coords) : Fin 2 → Nat :=
  let arg0 : BitVec 32 := BitVec.ofNat 32 (i 0).val
  let c200_i32 : BitVec 32 := 200#32
  let v12 : BitVec 32 := Scalar.muli arg0 c200_i32
  let v13 : Index := Scalar.indexCast v12
  let c0_8 : Index := 0#32
  ![v13.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10000x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S200x10000 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S64_S1x64 : S64.ShapeCasts S1x64
  concatenates_S64x64_S64x64_S64x128_d1 : Shape.Concatenates [S64x64, S64x64] S64x128 1
  concatenates_S64_S64_S128_d0 : Shape.Concatenates [S64, S64] S128 0
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  inb_S64x64_S64x64_0_0 : ∀ a, (![0, 0] : Fin 2 → Nat) a + S64x64.size a ≤ S64x64.size a
  h_S64x64 : 0 < S64x64.numel
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  slices_S1000x128_o0_0_S1000x64 : S1000x128.Slices ![0, 0] S1000x64
  slices_S1000x128_o0_64_S1000x64 : S1000x128.Slices ![0, 64] S1000x64
  shapeCasts_S200x10000_S200x10000 : S200x10000.ShapeCasts S200x10000
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S10000x64_S64x64_S10000x64_1_0_0_1_n_n_wf : DotDims.WF S10000x64 S64x64 S10000x64 [1] [0] [0] [1] [] []
  dot_S1000x10000_S10000x64_S1000x64_1_0_0_1_n_n_wf : DotDims.WF S1000x10000 S10000x64 S1000x64 [1] [0] [0] [1] [] []
  dot_S10000x64_S64x128_S10000x128_1_0_0_1_n_n_wf : DotDims.WF S10000x64 S64x128 S10000x128 [1] [0] [0] [1] [] []
  dot_S1000x10000_S10000x128_S1000x128_1_0_0_1_n_n_wf : DotDims.WF S1000x10000 S10000x128 S1000x128 [1] [0] [0] [1] [] []
  dot_S200x10000_S10000x128_S200x128_1_0_0_1_n_n_wf : DotDims.WF S200x10000 S10000x128 S200x128 [1] [0] [0] [1] [] []
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x64.size a ≤ S10000x64.size a
  hwx0_4 : ∀ i : grid0.Coords, EltTy.bits .f32 = 32 ∨ (Rect.block (s := S10000x64) S200x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .bf16 = 32 ∨ (Rect.block (s := S10000x10000) S200x10000.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x64.size a ≤ S10000x64.size a
  hwx1_4 : ∀ i : grid1.Coords, EltTy.bits .f32 = 32 ∨ (Rect.block (s := S10000x64) S1000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x64.size a ≤ S10000x64.size a
  hwx2_4 : ∀ i : grid2.Coords, EltTy.bits .f32 = 32 ∨ (Rect.block (s := S10000x64) S1000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S10000x64.size a
  hwx2_5 : ∀ i : grid2.Coords, EltTy.bits .f32 = 32 ∨ (Rect.block (s := S10000x64) S1000x64.size (cc2_transform_5 i) (hinb2_5 i)).WholeWords (EltTy.packing .f32)
  hrank3 : 0 < grid3.rank
  k3_off1_inb : ∀ i : grid3.Coords, ∀ a, (k3_off1 i) a + S200x64.size a ≤ S10000x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S10000x64.size a
  hwx3_2 : ∀ i : grid3.Coords, EltTy.bits .f32 = 32 ∨ (Rect.block (s := S10000x64) S10000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S200x128.size a ≤ S10000x128.size a
  hwx3_5 : ∀ i : grid3.Coords, EltTy.bits .f32 = 32 ∨ (Rect.block (s := S10000x128) S200x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S200x10000.size a ≤ S10000x10000.size a
  hwx3_6 : ∀ i : grid3.Coords, EltTy.bits .f32 = 32 ∨ (Rect.block (s := S10000x10000) S200x10000.size (cc3_transform_6 i) (hinb3_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S200x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S200x10000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8_0) S1000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8_1) S1000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v6_1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8_0) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8_1) S10000x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v5) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9_0) S200x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v9_1) S200x10000.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S1x128 : Shape := ⟨2, ![1, 128]⟩
abbrev S64x10000 : Shape := ⟨2, ![64, 10000]⟩

abbrev nBuf : Space → Nat
  | .hbm => 56
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S64x64, .f32⟩
  | .hbm, ⟨11, _⟩ => ⟨S64, .f32⟩
  | .hbm, ⟨12, _⟩ => ⟨S10000x64, .f32⟩
  | .hbm, ⟨13, _⟩ => ⟨S10000x64, .f32⟩
  | .hbm, ⟨14, _⟩ => ⟨S1x64, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S10000x64, .f32⟩
  | .hbm, ⟨21, _⟩ => ⟨S10000x64, .f32⟩
  | .hbm, ⟨22, _⟩ => ⟨S1x64, .f32⟩
  | .hbm, ⟨23, _⟩ => ⟨S10000x64, .f32⟩
  | .hbm, ⟨24, _⟩ => ⟨S10000x64, .f32⟩
  | .hbm, ⟨25, _⟩ => ⟨S10000x64, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S_, .f32⟩
  | .hbm, ⟨31, _⟩ => ⟨S10000x64, .f32⟩
  | .hbm, ⟨32, _⟩ => ⟨S10000x64, .f32⟩
  | .hbm, ⟨33, _⟩ => ⟨S10000x128, .f32⟩
  | .hbm, ⟨34, _⟩ => ⟨S10000x128, .f32⟩
  | .hbm, ⟨35, _⟩ => ⟨S1x128, .f32⟩
  | .hbm, ⟨36, _⟩ => ⟨S10000x128, .f32⟩
  | .hbm, ⟨37, _⟩ => ⟨S10000x128, .f32⟩
  | .hbm, ⟨38, _⟩ => ⟨S10000x64, .f32⟩
  | .hbm, ⟨39, _⟩ => ⟨S10000x64, .f32⟩
  | .hbm, ⟨40, _⟩ => ⟨S1x64, .f32⟩
  | .hbm, ⟨41, _⟩ => ⟨S10000x64, .f32⟩
  | .hbm, ⟨42, _⟩ => ⟨S10000x64, .f32⟩
  | .hbm, ⟨43, _⟩ => ⟨S_, .f32⟩
  | .hbm, ⟨44, _⟩ => ⟨S10000x64, .f32⟩
  | .hbm, ⟨45, _⟩ => ⟨S10000x64, .f32⟩
  | .hbm, ⟨46, _⟩ => ⟨S64x10000, .f32⟩
  | .hbm, ⟨47, _⟩ => ⟨S10000x10000, .f32⟩
  | .hbm, ⟨48, _⟩ => ⟨S10000x10000, .f32⟩
  | .hbm, ⟨49, _⟩ => ⟨S10000x10000, .f32⟩
  | .hbm, ⟨50, _⟩ => ⟨S_, .f32⟩
  | .hbm, ⟨51, _⟩ => ⟨S10000x10000, .f32⟩
  | .hbm, ⟨52, _⟩ => ⟨S10000x10000, .f32⟩
  | .hbm, ⟨53, _⟩ => ⟨S_, .f32⟩
  | .hbm, ⟨54, _⟩ => ⟨S10000x10000, .f32⟩
  | .hbm, ⟨55, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_cst : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_cst_0 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x64_S64x10000_1_0 : S10000x64.Transposes [1, 0] S64x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  dot_S10000x10000_S10000x128_S10000x128_1_0_0_1_n_n_wf : DotDims.WF S10000x10000 S10000x128 S10000x128 [1] [0] [0] [1] [] []
  dot_S10000x64_S64x10000_S10000x10000_1_0_0_1_n_n_wf : DotDims.WF S10000x64 S64x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KRun0.lean ====
/-
  The first pass: one row block of  h = relu(adj · (x · W) + b)  per grid point, and beside it the same row block of the
  adjacency re-encoded in the narrow format.  The projection x · W is computed once, at the first grid point, into a
  scratch buffer that every later point only reads.
  This module runs the kernel body in its two control cases: the first point (the branch that fills the
  scratch is taken) and every later point (it is skipped, the scratch holding what the first point left).
-/
import proofs.«114016_g31997506355976_cont_9to1_2145_5_alg».proof.Proof.Gen.Kernel.Launch
import proofs.«114016_g31997506355976_cont_9to1_2145_5_alg».proof.Proof.Gen.Kernel.Skeleton
import proofs.«114016_g31997506355976_cont_9to1_2145_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond0 (i : grid0.Coords) : Prop :=
  (Scalar.cmpi .ne (Scalar.extui (Scalar.cmpi .eq (BitVec.ofNat 32 (i 0).val) 0#32)) 0#32) = 1#1

/-- It holds exactly at the first point of the grid. -/
theorem hcond0 : ∀ t : Fin cfg0.N, cond0 (grid0.coords t) ↔ t.val % 50 = 0 :=
  (by decide +kernel : ∀ t : Fin grid0.N, cond0 (grid0.coords t) ↔ t.val % 50 = 0)

/-- The grid's first point. -/
def tz0 : Fin cfg0.N := ⟨0, by rw [show cfg0.N = 50 from N_0]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun0_A (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (hc : cond0 i)
    (x0 : Vec F S200x10000 .f32) (x1 : Vec F S10000x128 .f32) (x2 : Vec F S128x64 .f32) (x3 : Vec F S1x64 .f32) :
    Σ' (L0 : List (View.Piece (Elt F) S200x64 .f32)), Σ' (L1 : List (View.Piece (Elt F) S200x10000 .bf16)), { LS0 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_body i arg1 harg1 arg2 harg2 arg3 harg3 arg4 harg4 arg5 harg5 arg6 harg6 arg7 harg7) K } := by
  refine ⟨?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; iexact HS0

set_option maxHeartbeats 4000000 in
/-- LATER POINTS.  The scratch holds what the first point left and is only read: it is handed back as it was; each
    output buffer ends with its stores written. -/
noncomputable def kernelRun0_B (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (hc : ¬cond0 i)
    (x0 : Vec F S200x10000 .f32) (x1 : Vec F S10000x128 .f32) (x2 : Vec F S128x64 .f32) (x3 : Vec F S1x64 .f32) (xs0 : Vec F S10000x64 .bf16) :
    Σ' (L0 : List (View.Piece (Elt F) S200x64 .f32)), { L1 : List (View.Piece (Elt F) S200x10000 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ owns (c : Thread nD τ) arg7 fullShare xs0) -∗ K ⟨⟩))
          ⊢ wp frame (wpE (defs₀ (F := F)) Variants.none c none) E (cc0__pass1_body i arg1 harg1 arg2 harg2 arg3 harg3 arg4 harg4 arg5 harg5 arg6 harg6 arg7 harg7) K } := by
  refine ⟨?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; isplitr; · ipureintro; exact harg7.read_unread _
    iexact HS0

end Cert.Kernel.Hand

end
-- ==== Proof.KDat0.lean ====
/-
  The first pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.KRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO0_0 : View sig .tc .vmem S200x64 .f32 := (Memref.whole cc0_stg4_0 : Memref sig .tc .vmem S200x64 .f32).view
/-- One staging buffer of output window 5, through which its contents are stated. -/
abbrev VO0_1 : View sig .tc .vmem S200x10000 .bf16 := (Memref.whole cc0_stg5_0 : Memref sig .tc .vmem S200x10000 .bf16).view
/-- Scratch operand 0: a whole scoped buffer of the kernel's own. -/
abbrev scM0_0 : Memref sig .tc .vmem S10000x64 .bf16 := Memref.whole cc0_scratch0
abbrev VS0_0 : View sig .tc .vmem S10000x64 .bf16 := scM0_0.view
/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .bf16 := win0_5.stage (cfg0.slots t 5)
abbrev hs0_5 (t : Fin cfg0.N) : (ms0_5 t).IsWhole := hstage0_5 ((cfg0.slots t 5).cast nbuf0_5)

/-- The scoped buffers of the program other than this kernel's scratch: untouched by the pass. -/
abbrev RestB0 (c : Dev nD) : sProp 𝕄 :=
  Pipeline.scopedRestBut (Ix := Unit) (Name := ℕ) (U := UR sig nD τ) (Lvl := ℕ) (Val := Elt F) spec0 c [cc0_scratch0]

/-- The scoped buffers the pipeline does not stage: the scratch at some contents, and the rest. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ RestB0 c) := by
  rw [scopedRest0_split]; simp only [scM0_0, owns_whole]; try rfl

/-! ## What the body's stores cover -/

section Runs
variable (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (x0 : Vec F S200x10000 .f32) (x1 : Vec F S10000x128 .f32) (x2 : Vec F S128x64 .f32) (x3 : Vec F S1x64 .f32) (xs0 : Vec F S10000x64 .bf16)

/-- First point: output 0's stores tile its block. -/
theorem cover0_A_0 (hc : cond0 i) (y : S200x64.Idx) : ∃ pc ∈ (kernelRun0_A c i arg1 harg1 arg2 harg2 arg3 harg3 arg4 harg4 arg5 harg5 arg6 harg6 arg7 harg7 hc x0 x1 x2 x3).1, y ∈ pc.1.set :=
  View.cover_of_tiledL (kernelRun0_A c i arg1 harg1 arg2 harg2 arg3 harg3 arg4 harg4 arg5 harg5 arg6 harg6 arg7 harg7 hc x0 x1 x2 x3).1 S200x64.size (by sl_kernel_rfl) y
/-- Later points: output 0's stores tile its block. -/
theorem cover0_B_0 (hc : ¬cond0 i) (y : S200x64.Idx) : ∃ pc ∈ (kernelRun0_B c i arg1 harg1 arg2 harg2 arg3 harg3 arg4 harg4 arg5 harg5 arg6 harg6 arg7 harg7 hc x0 x1 x2 x3 xs0).1, y ∈ pc.1.set :=
  View.cover_of_tiledL (kernelRun0_B c i arg1 harg1 arg2 harg2 arg3 harg3 arg4 harg4 arg5 harg5 arg6 harg6 arg7 harg7 hc x0 x1 x2 x3 xs0).1 S200x64.size (by sl_kernel_rfl) y
/-- What the first point leaves in output 0's buffer: its pieces read back. -/
def out0_A_0 (hc : cond0 i) : Vec F S200x64 .f32 :=
  VO0_0.read (Elt F) (VO0_0.writes (Elt F) VO0_0.junk (kernelRun0_A c i arg1 harg1 arg2 harg2 arg3 harg3 arg4 harg4 arg5 harg5 arg6 harg6 arg7 harg7 hc x0 x1 x2 x3).1)
/-- What a later point leaves in output 0's buffer, the scratch holding what it is given. -/
def out0_B_0 (hc : ¬cond0 i) : Vec F S200x64 .f32 :=
  VO0_0.read (Elt F) (VO0_0.writes (Elt F) VO0_0.junk (kernelRun0_B c i arg1 harg1 arg2 harg2 arg3 harg3 arg4 harg4 arg5 harg5 arg6 harg6 arg7 harg7 hc x0 x1 x2 x3 xs0).1)
/-- First point: output 1's stores tile its block. -/
theorem cover0_A_1 (hc : cond0 i) (y : S200x10000.Idx) : ∃ pc ∈ (kernelRun0_A c i arg1 harg1 arg2 harg2 arg3 harg3 arg4 harg4 arg5 harg5 arg6 harg6 arg7 harg7 hc x0 x1 x2 x3).2.1, y ∈ pc.1.set :=
  View.cover_of_tiledL (kernelRun0_A c i arg1 harg1 arg2 harg2 arg3 harg3 arg4 harg4 arg5 harg5 arg6 harg6 arg7 harg7 hc x0 x1 x2 x3).2.1 S200x10000.size (by sl_kernel_rfl) y
/-- Later points: output 1's stores tile its block. -/
theorem cover0_B_1 (hc : ¬cond0 i) (y : S200x10000.Idx) : ∃ pc ∈ (kernelRun0_B c i arg1 harg1 arg2 harg2 arg3 harg3 arg4 harg4 arg5 harg5 arg6 harg6 arg7 harg7 hc x0 x1 x2 x3 xs0).2.1, y ∈ pc.1.set :=
  View.cover_of_tiledL (kernelRun0_B c i arg1 harg1 arg2 harg2 arg3 harg3 arg4 harg4 arg5 harg5 arg6 harg6 arg7 harg7 hc x0 x1 x2 x3 xs0).2.1 S200x10000.size (by sl_kernel_rfl) y
/-- What the first point leaves in output 1's buffer: its pieces read back. -/
def out0_A_1 (hc : cond0 i) : Vec F S200x10000 .bf16 :=
  VO0_1.read (Elt F) (VO0_1.writes (Elt F) VO0_1.junk (kernelRun0_A c i arg1 harg1 arg2 harg2 arg3 harg3 arg4 harg4 arg5 harg5 arg6 harg6 arg7 harg7 hc x0 x1 x2 x3).2.1)
/-- What a later point leaves in output 1's buffer, the scratch holding what it is given. -/
def out0_B_1 (hc : ¬cond0 i) : Vec F S200x10000 .bf16 :=
  VO0_1.read (Elt F) (VO0_1.writes (Elt F) VO0_1.junk (kernelRun0_B c i arg1 harg1 arg2 harg2 arg3 harg3 arg4 harg4 arg5 harg5 arg6 harg6 arg7 harg7 hc x0 x1 x2 x3 xs0).2.1)
/-- First point: scratch 0's store covers it. -/
theorem scover0_A_0 (hc : cond0 i) (y : S10000x64.Idx) : ∃ pc ∈ (kernelRun0_A c i arg1 harg1 arg2 harg2 arg3 harg3 arg4 harg4 arg5 harg5 arg6 harg6 arg7 harg7 hc x0 x1 x2 x3).2.2.1, y ∈ pc.1.set :=
  View.cover_of_tiledL (kernelRun0_A c i arg1 harg1 arg2 harg2 arg3 harg3 arg4 harg4 arg5 harg5 arg6 harg6 arg7 harg7 hc x0 x1 x2 x3).2.2.1 S10000x64.size (by sl_kernel_rfl) y
/-- What the first point leaves in scratch 0: its pieces read back. -/
def sout0_A_0 (hc : cond0 i) : Vec F S10000x64 .bf16 :=
  VS0_0.read (Elt F) (VS0_0.writes (Elt F) VS0_0.junk (kernelRun0_A c i arg1 harg1 arg2 harg2 arg3 harg3 arg4 harg4 arg5 harg5 arg6 harg6 arg7 harg7 hc x0 x1 x2 x3).2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first point satisfies the branch condition. -/
theorem hc0_first : cond0 (grid0.coords tz0) := (hcond0 tz0).mpr rfl

/-- What the first point leaves in scratch 0, from the blocks it finds there. -/
def P0_0 (c : Dev nD) : Vec F S10000x64 .bf16 :=
  sout0_A_0 c (grid0.coords tz0) (ms0_0 tz0) (hs0_0 tz0) (ms0_1 tz0) (hs0_1 tz0) (ms0_2 tz0) (hs0_2 tz0) (ms0_3 tz0) (hs0_3 tz0) (ms0_4 tz0) (hs0_4 tz0) (ms0_5 tz0) (hs0_5 tz0) scM0_0 (Memref.isWhole_whole _) (iblk0 V c 0 tz0) (iblk0 V c 1 tz0) (iblk0 V c 2 tz0) (iblk0 V c 3 tz0) hc0_first

/-- What output window 4's staging buffer holds after the body at point `t`. -/
def outAt0_0 (c : Dev nD) (t : Fin cfg0.N) : Vec F S200x64 .f32 :=
  if h : t.val % 50 = 0 then
    out0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h)
  else
    out0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc))
theorem outAt0_0_A (c : Dev nD) (t : Fin cfg0.N) (h : t.val % 50 = 0) :
    outAt0_0 V c t = out0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h) := dif_pos h
theorem outAt0_0_B (c : Dev nD) (t : Fin cfg0.N) (h : ¬t.val % 50 = 0) :
    outAt0_0 V c t = out0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc)) := dif_neg h

/-- What output window 5's staging buffer holds after the body at point `t`. -/
def outAt0_1 (c : Dev nD) (t : Fin cfg0.N) : Vec F S200x10000 .bf16 :=
  if h : t.val % 50 = 0 then
    out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h)
  else
    out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc))
theorem outAt0_1_A (c : Dev nD) (t : Fin cfg0.N) (h : t.val % 50 = 0) :
    outAt0_1 V c t = out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h) := dif_pos h
theorem outAt0_1_B (c : Dev nD) (t : Fin cfg0.N) (h : ¬t.val % 50 = 0) :
    outAt0_1 V c t = out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc)) := dif_neg h

/-- The invariant before position `n`: the scratch at anything before the first point, at what the first point left
    afterwards; every other scoped buffer untouched. -/
def Phi0 (c : Dev nD) : ℕ → sProp 𝕄
  | 0 => iprop((∃ d, owns (c : Thread nD τ) scM0_0 fullShare d) ∗ RestB0 c)
  | _ + 1 => iprop(owns (c : Thread nD τ) scM0_0 fullShare (P0_0 V c) ∗ RestB0 c)

theorem Phi0_zero (c : Dev nD) (n : ℕ) (hz : n = 0) :
    Phi0 V c n = iprop((∃ d, owns (c : Thread nD τ) scM0_0 fullShare d) ∗ RestB0 c) := by subst hz; rfl
theorem Phi0_pos (c : Dev nD) (n : ℕ) (hz : n ≠ 0) :
    Phi0 V c n = iprop(owns (c : Thread nD τ) scM0_0 fullShare (P0_0 V c) ∗ RestB0 c) := by
  cases n with
  | zero => exact absurd rfl hz
  | succ n => rfl

/-- The proof data of the pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0_0 V c t
    | ⟨5, _⟩ => outAt0_1 V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0_0 V c t := by dsimp only [dat0]
theorem after0_5 (c : Dev nD) (t : Fin cfg0.N) : (dat0 V c).after 5 t = outAt0_1 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5,
    show (dat0 V c).Φ t.succ = Phi0 V c (t.val + 1) from rfl, show (dat0 V c).Φ t.castSucc = Phi0 V c t.val from rfl,
    Phi0_pos V c (t.val + 1) (Nat.succ_ne_zero _)]
  have hN : t.val < 50 := lt_of_lt_of_eq t.isLt (show cfg0.N = 50 from N_0)
  by_cases h0 : t.val % 50 = 0
  · obtain rfl : t = tz0 := Fin.ext (by show t.val = 0; omega)
    rw [Phi0_zero V c (tz0 : Fin cfg0.N).val rfl, outAt0_0_A V c tz0 h0, outAt0_1_A V c tz0 h0]
    unfold P0_0 sout0_A_0 out0_A_0 out0_A_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun0_A c (grid0.coords tz0) _ _ _ _ _ _ _ _ _ _ _ _ _ _ hc0_first (iblk0 V c 0 tz0) (iblk0 V c 1 tz0) (iblk0 V c 2 tz0) (iblk0 V c 3 tz0)).2.2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, ⟨%es0, HS0⟩⟩
    isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover0_A_0 c _ _ _ _ _ _ _ _ _ _ _ _ _ _ _ _ _ _ _ _)
    unfold owns; iexists _; isplitr
    swap; · iexact HW5
    ipureintro; exact View.read_writes_of_cover _ _ _ _ _ (cover0_A_1 c _ _ _ _ _ _ _ _ _ _ _ _ _ _ _ _ _ _ _ _)
  · rw [Phi0_pos V c t.val (fun hz => h0 (by rw [hz])), outAt0_0_B V c t h0, outAt0_1_B V c t h0]
    unfold out0_B_0 out0_B_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun0_B c (grid0.coords t) _ _ _ _ _ _ _ _ _ _ _ _ _ _ (fun hc => h0 ((hcond0 t).mp hc)) (iblk0 V c 0 t) (iblk0 V c 1 t) (iblk0 V c 2 t) (iblk0 V c 3 t) (P0_0 V c)).2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover0_B_0 c _ _ _ _ _ _ _ _ _ _ _ _ _ _ _ _ _ _ _ _ _)
    unfold owns; iexists _; isplitr
    swap; · iexact HW5
    ipureintro; exact View.read_writes_of_cover _ _ _ _ _ (cover0_B_1 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRun1.lean ====
/-
  The second pass: one row block of  z = adj · (h · W) + b  per grid point.  The projection h · W is
  computed once, at the first grid point, into a scratch buffer that every later point only reads.
  This module runs the kernel body in its two control cases: the first point (the branch that fills the
  scratch is taken) and every later point (it is skipped, the scratch holding what the first point left).
-/
import proofs.«114016_g31997506355976_cont_9to1_2145_5_alg».proof.Proof.Gen.Kernel.Launch
import proofs.«114016_g31997506355976_cont_9to1_2145_5_alg».proof.Proof.Gen.Kernel.Skeleton
import proofs.«114016_g31997506355976_cont_9to1_2145_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond1 (i : grid1.Coords) : Prop :=
  (Scalar.cmpi .ne (Scalar.extui (Scalar.cmpi .eq (BitVec.ofNat 32 (i 0).val) 0#32)) 0#32) = 1#1

/-- It holds exactly at the first point of the grid. -/
theorem hcond1 : ∀ t : Fin cfg1.N, cond1 (grid1.coords t) ↔ t.val % 10 = 0 :=
  (by decide +kernel : ∀ t : Fin grid1.N, cond1 (grid1.coords t) ↔ t.val % 10 = 0)

/-- The grid's first point. -/
def tz1 : Fin cfg1.N := ⟨0, by rw [show cfg1.N = 10 from N_1]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun1_A (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (hc : cond1 i)
    (x0 : Vec F S1000x10000 .bf16) (x1 : Vec F S10000x64 .f32) (x2 : Vec F S64x64 .f32) (x3 : Vec F S1x64 .f32) :
    Σ' (L0 : List (View.Piece (Elt F) S1000x64 .f32)), { LS0 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f LS0)) -∗ K ⟨⟩))
          ⊢ wp frame (wpE (defs₀ (F := F)) Variants.none c none) E (cc1__pass2_body i arg1 harg1 arg2 harg2 arg3 harg3 arg4 harg4 arg5 harg5 arg6 harg6) K } := by
  refine ⟨?_, ?_, fun E K => ?run⟩
  case run =>
    simp only [cc1__pass2_body_eq_skeleton]; unfold cc1__pass2_body_skel
    unfold owns
    iintro ⟨⟨%f0, %hf0, H0⟩, ⟨%f1, %hf1, H1⟩, ⟨%f2, %hf2, H2⟩, ⟨%f3, %hf3, H3⟩, ⟨%do0, %fo0, -, HO0⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    iexists _; iexact HS0

set_option maxHeartbeats 4000000 in
/-- LATER POINTS.  The scratch holds what the first point left and is only read: it is handed back as it was; each
    output buffer ends with its stores written. -/
noncomputable def kernelRun1_B (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (hc : ¬cond1 i)
    (x0 : Vec F S1000x10000 .bf16) (x1 : Vec F S10000x64 .f32) (x2 : Vec F S64x64 .f32) (x3 : Vec F S1x64 .f32) (xs0 : Vec F S10000x64 .bf16) :
    { L0 : List (View.Piece (Elt F) S1000x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ owns (c : Thread nD τ) arg6 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ owns (c : Thread nD τ) arg6 fullShare xs0) -∗ K ⟨⟩))
          ⊢ wp frame (wpE (defs₀ (F := F)) Variants.none c none) E (cc1__pass2_body i arg1 harg1 arg2 harg2 arg3 harg3 arg4 harg4 arg5 harg5 arg6 harg6) K } := by
  refine ⟨?_, fun E K => ?run⟩
  case run =>
    simp only [cc1__pass2_body_eq_skeleton]; unfold cc1__pass2_body_skel
    unfold owns
    iintro ⟨⟨%f0, %hf0, H0⟩, ⟨%f1, %hf1, H1⟩, ⟨%f2, %hf2, H2⟩, ⟨%f3, %hf3, H3⟩, ⟨%do0, %fo0, -, HO0⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    iexists _; isplitr; · ipureintro; exact harg6.read_unread _
    iexact HS0

end Cert.Kernel.Hand

end
-- ==== Proof.KDat1.lean ====
/-
  The second pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.KRun1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO1_0 : View sig .tc .vmem S1000x64 .f32 := (Memref.whole cc1_stg4_0 : Memref sig .tc .vmem S1000x64 .f32).view
/-- Scratch operand 0: a whole scoped buffer of the kernel's own. -/
abbrev scM1_0 : Memref sig .tc .vmem S10000x64 .bf16 := Memref.whole cc1_scratch0
abbrev VS1_0 : View sig .tc .vmem S10000x64 .bf16 := scM1_0.view
/-- Each window's current staging memref at point `t`, and its wholeness. -/
abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x64 .f32 := win1_4.stage (cfg1.slots t 4)
abbrev hs1_4 (t : Fin cfg1.N) : (ms1_4 t).IsWhole := hstage1_4 ((cfg1.slots t 4).cast nbuf1_4)

/-- The scoped buffers of the program other than this kernel's scratch: untouched by the pass. -/
abbrev RestB1 (c : Dev nD) : sProp 𝕄 :=
  Pipeline.scopedRestBut (Ix := Unit) (Name := ℕ) (U := UR sig nD τ) (Lvl := ℕ) (Val := Elt F) spec1 c [cc1_scratch0]

/-- The scoped buffers the pipeline does not stage: the scratch at some contents, and the rest. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ RestB1 c) := by
  rw [scopedRest1_split]; simp only [scM1_0, owns_whole]; try rfl

/-! ## What the body's stores cover -/

section Runs
variable (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x0 : Vec F S1000x10000 .bf16) (x1 : Vec F S10000x64 .f32) (x2 : Vec F S64x64 .f32) (x3 : Vec F S1x64 .f32) (xs0 : Vec F S10000x64 .bf16)

/-- First point: output 0's stores tile its block. -/
theorem cover1_A_0 (hc : cond1 i) (y : S1000x64.Idx) : ∃ pc ∈ (kernelRun1_A c i arg1 harg1 arg2 harg2 arg3 harg3 arg4 harg4 arg5 harg5 arg6 harg6 hc x0 x1 x2 x3).1, y ∈ pc.1.set :=
  View.cover_of_tiledL (kernelRun1_A c i arg1 harg1 arg2 harg2 arg3 harg3 arg4 harg4 arg5 harg5 arg6 harg6 hc x0 x1 x2 x3).1 S1000x64.size (by sl_kernel_rfl) y
/-- Later points: output 0's stores tile its block. -/
theorem cover1_B_0 (hc : ¬cond1 i) (y : S1000x64.Idx) : ∃ pc ∈ (kernelRun1_B c i arg1 harg1 arg2 harg2 arg3 harg3 arg4 harg4 arg5 harg5 arg6 harg6 hc x0 x1 x2 x3 xs0).1, y ∈ pc.1.set :=
  View.cover_of_tiledL (kernelRun1_B c i arg1 harg1 arg2 harg2 arg3 harg3 arg4 harg4 arg5 harg5 arg6 harg6 hc x0 x1 x2 x3 xs0).1 S1000x64.size (by sl_kernel_rfl) y
/-- What the first point leaves in output 0's buffer: its pieces read back. -/
def out1_A_0 (hc : cond1 i) : Vec F S1000x64 .f32 :=
  VO1_0.read (Elt F) (VO1_0.writes (Elt F) VO1_0.junk (kernelRun1_A c i arg1 harg1 arg2 harg2 arg3 harg3 arg4 harg4 arg5 harg5 arg6 harg6 hc x0 x1 x2 x3).1)
/-- What a later point leaves in output 0's buffer, the scratch holding what it is given. -/
def out1_B_0 (hc : ¬cond1 i) : Vec F S1000x64 .f32 :=
  VO1_0.read (Elt F) (VO1_0.writes (Elt F) VO1_0.junk (kernelRun1_B c i arg1 harg1 arg2 harg2 arg3 harg3 arg4 harg4 arg5 harg5 arg6 harg6 hc x0 x1 x2 x3 xs0).1)
/-- First point: scratch 0's store covers it. -/
theorem scover1_A_0 (hc : cond1 i) (y : S10000x64.Idx) : ∃ pc ∈ (kernelRun1_A c i arg1 harg1 arg2 harg2 arg3 harg3 arg4 harg4 arg5 harg5 arg6 harg6 hc x0 x1 x2 x3).2.1, y ∈ pc.1.set :=
  View.cover_of_tiledL (kernelRun1_A c i arg1 harg1 arg2 harg2 arg3 harg3 arg4 harg4 arg5 harg5 arg6 harg6 hc x0 x1 x2 x3).2.1 S10000x64.size (by sl_kernel_rfl) y
/-- What the first point leaves in scratch 0: its pieces read back. -/
def sout1_A_0 (hc : cond1 i) : Vec F S10000x64 .bf16 :=
  VS1_0.read (Elt F) (VS1_0.writes (Elt F) VS1_0.junk (kernelRun1_A c i arg1 harg1 arg2 harg2 arg3 harg3 arg4 harg4 arg5 harg5 arg6 harg6 hc x0 x1 x2 x3).2.1)
end Runs

/-! ## The pass at the entry contents `V` -/

section Region
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first point satisfies the branch condition. -/
theorem hc1_first : cond1 (grid1.coords tz1) := (hcond1 tz1).mpr rfl

/-- What the first point leaves in scratch 0, from the blocks it finds there. -/
def P1_0 (c : Dev nD) : Vec F S10000x64 .bf16 :=
  sout1_A_0 c (grid1.coords tz1) (ms1_0 tz1) (hs1_0 tz1) (ms1_1 tz1) (hs1_1 tz1) (ms1_2 tz1) (hs1_2 tz1) (ms1_3 tz1) (hs1_3 tz1) (ms1_4 tz1) (hs1_4 tz1) scM1_0 (Memref.isWhole_whole _) (iblk1 V c 0 tz1) (iblk1 V c 1 tz1) (iblk1 V c 2 tz1) (iblk1 V c 3 tz1) hc1_first

/-- What output window 4's staging buffer holds after the body at point `t`. -/
def outAt1_0 (c : Dev nD) (t : Fin cfg1.N) : Vec F S1000x64 .f32 :=
  if h : t.val % 10 = 0 then
    out1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) ((hcond1 t).mpr h)
  else
    out1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (P1_0 V c) (fun hc => h ((hcond1 t).mp hc))
theorem outAt1_0_A (c : Dev nD) (t : Fin cfg1.N) (h : t.val % 10 = 0) :
    outAt1_0 V c t = out1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) ((hcond1 t).mpr h) := dif_pos h
theorem outAt1_0_B (c : Dev nD) (t : Fin cfg1.N) (h : ¬t.val % 10 = 0) :
    outAt1_0 V c t = out1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (P1_0 V c) (fun hc => h ((hcond1 t).mp hc)) := dif_neg h

/-- The invariant before position `n`: the scratch at anything before the first point, at what the first point left
    afterwards; every other scoped buffer untouched. -/
def Phi1 (c : Dev nD) : ℕ → sProp 𝕄
  | 0 => iprop((∃ d, owns (c : Thread nD τ) scM1_0 fullShare d) ∗ RestB1 c)
  | _ + 1 => iprop(owns (c : Thread nD τ) scM1_0 fullShare (P1_0 V c) ∗ RestB1 c)

theorem Phi1_zero (c : Dev nD) (n : ℕ) (hz : n = 0) :
    Phi1 V c n = iprop((∃ d, owns (c : Thread nD τ) scM1_0 fullShare d) ∗ RestB1 c) := by subst hz; rfl
theorem Phi1_pos (c : Dev nD) (n : ℕ) (hz : n ≠ 0) :
    Phi1 V c n = iprop(owns (c : Thread nD τ) scM1_0 fullShare (P1_0 V c) ∗ RestB1 c) := by
  cases n with
  | zero => exact absurd rfl hz
  | succ n => rfl

/-- The proof data of the pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1_0 V c t
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1_0 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    show (dat1 V c).Φ t.succ = Phi1 V c (t.val + 1) from rfl, show (dat1 V c).Φ t.castSucc = Phi1 V c t.val from rfl,
    Phi1_pos V c (t.val + 1) (Nat.succ_ne_zero _)]
  have hN : t.val < 10 := lt_of_lt_of_eq t.isLt (show cfg1.N = 10 from N_1)
  by_cases h0 : t.val % 10 = 0
  · obtain rfl : t = tz1 := Fin.ext (by show t.val = 0; omega)
    rw [Phi1_zero V c (tz1 : Fin cfg1.N).val rfl, outAt1_0_A V c tz1 h0]
    unfold P1_0 sout1_A_0 out1_A_0
    iintro ⟨⟨HS0, HR⟩, Ho, ⟨%dw0, HW0⟩, ⟨%dw1, HW1⟩, ⟨%dw2, HW2⟩, ⟨%dw3, HW3⟩, ⟨%dw4, HW4⟩⟩
    iapply ((kernelRun1_A c (grid1.coords tz1) _ _ _ _ _ _ _ _ _ _ _ _ hc1_first (iblk1 V c 0 tz1) (iblk1 V c 1 tz1) (iblk1 V c 2 tz1) (iblk1 V c 3 tz1)).2.2 Set.univ _)
    isplitl [HW0]; · iexact HW0
    isplitl [HW1]; · iexact HW1
    isplitl [HW2]; · iexact HW2
    isplitl [HW3]; · iexact HW3
    isplitl [HW4]; · iexists _; iexact HW4
    isplitl [HS0]; · iexact HS0
    iintro ⟨HW0, HW1, HW2, HW3, ⟨%eo0, HW4⟩, ⟨%es0, HS0⟩⟩
    isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    unfold owns; iexists _; isplitr
    swap; · iexact HW4
    ipureintro; exact View.read_writes_of_cover _ _ _ _ _ (cover1_A_0 c _ _ _ _ _ _ _ _ _ _ _ _ _ _ _ _ _ _)
  · rw [Phi1_pos V c t.val (fun hz => h0 (by rw [hz])), outAt1_0_B V c t h0]
    unfold out1_B_0
    iintro ⟨⟨HS0, HR⟩, Ho, ⟨%dw0, HW0⟩, ⟨%dw1, HW1⟩, ⟨%dw2, HW2⟩, ⟨%dw3, HW3⟩, ⟨%dw4, HW4⟩⟩
    iapply ((kernelRun1_B c (grid1.coords t) _ _ _ _ _ _ _ _ _ _ _ _ (fun hc => h0 ((hcond1 t).mp hc)) (iblk1 V c 0 t) (iblk1 V c 1 t) (iblk1 V c 2 t) (iblk1 V c 3 t) (P1_0 V c)).2 Set.univ _)
    isplitl [HW0]; · iexact HW0
    isplitl [HW1]; · iexact HW1
    isplitl [HW2]; · iexact HW2
    isplitl [HW3]; · iexact HW3
    isplitl [HW4]; · iexists _; iexact HW4
    isplitl [HS0]; · iexact HS0
    iintro ⟨HW0, HW1, HW2, HW3, ⟨%eo0, HW4⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    unfold owns; iexists _; isplitr
    swap; · iexact HW4
    ipureintro; exact View.read_writes_of_cover _ _ _ _ _ (cover1_B_0 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun2.lean ====
/-
  The third pass: both decoder branches at once.  One row block of  relu(adj · (z · [Wₐ | Wₛ]) + [bₐ | bₛ])  per grid point,
  its left 64 columns stored as h₂ and its right 64 as s.  The projection z · [Wₐ | Wₛ] is computed once, at the first
  grid point, into a scratch buffer that every later point only reads.
  This module runs the kernel body in its two control cases: the first point (the branch that fills the
  scratch is taken) and every later point (it is skipped, the scratch holding what the first point left).
-/
import proofs.«114016_g31997506355976_cont_9to1_2145_5_alg».proof.Proof.Gen.Kernel.Launch
import proofs.«114016_g31997506355976_cont_9to1_2145_5_alg».proof.Proof.Gen.Kernel.Skeleton
import proofs.«114016_g31997506355976_cont_9to1_2145_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond2 (i : grid2.Coords) : Prop :=
  (Scalar.cmpi .ne (Scalar.extui (Scalar.cmpi .eq (BitVec.ofNat 32 (i 0).val) 0#32)) 0#32) = 1#1

/-- It holds exactly at the first point of the grid. -/
theorem hcond2 : ∀ t : Fin cfg2.N, cond2 (grid2.coords t) ↔ t.val % 10 = 0 :=
  (by decide +kernel : ∀ t : Fin grid2.N, cond2 (grid2.coords t) ↔ t.val % 10 = 0)

/-- The grid's first point. -/
def tz2 : Fin cfg2.N := ⟨0, by rw [show cfg2.N = 10 from N_2]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun2_A (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (hc : cond2 i)
    (x0 : Vec F S1000x10000 .bf16) (x1 : Vec F S10000x64 .f32) (x2 : Vec F S64x128 .f32) (x3 : Vec F S1x128 .f32) :
    Σ' (L0 : List (View.Piece (Elt F) S1000x64 .f32)), Σ' (L1 : List (View.Piece (Elt F) S1000x64 .f32)), { LS0 : List (View.Piece (Elt F) S10000x128 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ (∃ f, arg7.view.loc (c : Thread nD τ) ↦[arg7.view.set]{fullShare} arg7.view.writes (Elt F) f LS0)) -∗ K ⟨⟩))
          ⊢ wp frame (wpE (defs₀ (F := F)) Variants.none c none) E (cc2__pass3_body i arg1 harg1 arg2 harg2 arg3 harg3 arg4 harg4 arg5 harg5 arg6 harg6 arg7 harg7) K } := by
  refine ⟨?_, ?_, ?_, fun E K => ?run⟩
  case run =>
    simp only [cc2__pass3_body_eq_skeleton]; unfold cc2__pass3_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; iexact HS0

set_option maxHeartbeats 4000000 in
/-- LATER POINTS.  The scratch holds what the first point left and is only read: it is handed back as it was; each
    output buffer ends with its stores written. -/
noncomputable def kernelRun2_B (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (hc : ¬cond2 i)
    (x0 : Vec F S1000x10000 .bf16) (x1 : Vec F S10000x64 .f32) (x2 : Vec F S64x128 .f32) (x3 : Vec F S1x128 .f32) (xs0 : Vec F S10000x128 .bf16) :
    Σ' (L0 : List (View.Piece (Elt F) S1000x64 .f32)), { L1 : List (View.Piece (Elt F) S1000x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ owns (c : Thread nD τ) arg7 fullShare xs0) -∗ K ⟨⟩))
          ⊢ wp frame (wpE (defs₀ (F := F)) Variants.none c none) E (cc2__pass3_body i arg1 harg1 arg2 harg2 arg3 harg3 arg4 harg4 arg5 harg5 arg6 harg6 arg7 harg7) K } := by
  refine ⟨?_, ?_, fun E K => ?run⟩
  case run =>
    simp only [cc2__pass3_body_eq_skeleton]; unfold cc2__pass3_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; isplitr; · ipureintro; exact harg7.read_unread _
    iexact HS0

end Cert.Kernel.Hand

end
-- ==== Proof.KDat2.lean ====
/-
  The third pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.KRun2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO2_0 : View sig .tc .vmem S1000x64 .f32 := (Memref.whole cc2_stg4_0 : Memref sig .tc .vmem S1000x64 .f32).view
/-- One staging buffer of output window 5, through which its contents are stated. -/
abbrev VO2_1 : View sig .tc .vmem S1000x64 .f32 := (Memref.whole cc2_stg5_0 : Memref sig .tc .vmem S1000x64 .f32).view
/-- Scratch operand 0: a whole scoped buffer of the kernel's own. -/
abbrev scM2_0 : Memref sig .tc .vmem S10000x128 .bf16 := Memref.whole cc2_scratch0
abbrev VS2_0 : View sig .tc .vmem S10000x128 .bf16 := scM2_0.view
/-- Each window's current staging memref at point `t`, and its wholeness. -/
abbrev ms2_0 (t : Fin cfg2.N) : Memref sig .tc .vmem S1000x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x64 .f32 := win2_5.stage (cfg2.slots t 5)
abbrev hs2_5 (t : Fin cfg2.N) : (ms2_5 t).IsWhole := hstage2_5 ((cfg2.slots t 5).cast nbuf2_5)

/-- The scoped buffers of the program other than this kernel's scratch: untouched by the pass. -/
abbrev RestB2 (c : Dev nD) : sProp 𝕄 :=
  Pipeline.scopedRestBut (Ix := Unit) (Name := ℕ) (U := UR sig nD τ) (Lvl := ℕ) (Val := Elt F) spec2 c [cc2_scratch0]

/-- The scoped buffers the pipeline does not stage: the scratch at some contents, and the rest. -/
theorem scoped2_eq (c : Dev nD) :
    (Pipeline.scopedRest (Ix := Unit) (Name := ℕ) (U := UR sig nD τ) (Lvl := ℕ) (Val := Elt F) spec2 c : sProp 𝕄)
      = iprop((∃ d, owns (c : Thread nD τ) scM2_0 fullShare d) ∗ RestB2 c) := by
  rw [scopedRest2_split]; simp only [scM2_0, owns_whole]; try rfl

/-! ## What the body's stores cover -/

section Runs
variable (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (x0 : Vec F S1000x10000 .bf16) (x1 : Vec F S10000x64 .f32) (x2 : Vec F S64x128 .f32) (x3 : Vec F S1x128 .f32) (xs0 : Vec F S10000x128 .bf16)

/-- First point: output 0's stores tile its block. -/
theorem cover2_A_0 (hc : cond2 i) (y : S1000x64.Idx) : ∃ pc ∈ (kernelRun2_A c i arg1 harg1 arg2 harg2 arg3 harg3 arg4 harg4 arg5 harg5 arg6 harg6 arg7 harg7 hc x0 x1 x2 x3).1, y ∈ pc.1.set :=
  View.cover_of_tiledL (kernelRun2_A c i arg1 harg1 arg2 harg2 arg3 harg3 arg4 harg4 arg5 harg5 arg6 harg6 arg7 harg7 hc x0 x1 x2 x3).1 S1000x64.size (by sl_kernel_rfl) y
/-- Later points: output 0's stores tile its block. -/
theorem cover2_B_0 (hc : ¬cond2 i) (y : S1000x64.Idx) : ∃ pc ∈ (kernelRun2_B c i arg1 harg1 arg2 harg2 arg3 harg3 arg4 harg4 arg5 harg5 arg6 harg6 arg7 harg7 hc x0 x1 x2 x3 xs0).1, y ∈ pc.1.set :=
  View.cover_of_tiledL (kernelRun2_B c i arg1 harg1 arg2 harg2 arg3 harg3 arg4 harg4 arg5 harg5 arg6 harg6 arg7 harg7 hc x0 x1 x2 x3 xs0).1 S1000x64.size (by sl_kernel_rfl) y
/-- What the first point leaves in output 0's buffer: its pieces read back. -/
def out2_A_0 (hc : cond2 i) : Vec F S1000x64 .f32 :=
  VO2_0.read (Elt F) (VO2_0.writes (Elt F) VO2_0.junk (kernelRun2_A c i arg1 harg1 arg2 harg2 arg3 harg3 arg4 harg4 arg5 harg5 arg6 harg6 arg7 harg7 hc x0 x1 x2 x3).1)
/-- What a later point leaves in output 0's buffer, the scratch holding what it is given. -/
def out2_B_0 (hc : ¬cond2 i) : Vec F S1000x64 .f32 :=
  VO2_0.read (Elt F) (VO2_0.writes (Elt F) VO2_0.junk (kernelRun2_B c i arg1 harg1 arg2 harg2 arg3 harg3 arg4 harg4 arg5 harg5 arg6 harg6 arg7 harg7 hc x0 x1 x2 x3 xs0).1)
/-- First point: output 1's stores tile its block. -/
theorem cover2_A_1 (hc : cond2 i) (y : S1000x64.Idx) : ∃ pc ∈ (kernelRun2_A c i arg1 harg1 arg2 harg2 arg3 harg3 arg4 harg4 arg5 harg5 arg6 harg6 arg7 harg7 hc x0 x1 x2 x3).2.1, y ∈ pc.1.set :=
  View.cover_of_tiledL (kernelRun2_A c i arg1 harg1 arg2 harg2 arg3 harg3 arg4 harg4 arg5 harg5 arg6 harg6 arg7 harg7 hc x0 x1 x2 x3).2.1 S1000x64.size (by sl_kernel_rfl) y
/-- Later points: output 1's stores tile its block. -/
theorem cover2_B_1 (hc : ¬cond2 i) (y : S1000x64.Idx) : ∃ pc ∈ (kernelRun2_B c i arg1 harg1 arg2 harg2 arg3 harg3 arg4 harg4 arg5 harg5 arg6 harg6 arg7 harg7 hc x0 x1 x2 x3 xs0).2.1, y ∈ pc.1.set :=
  View.cover_of_tiledL (kernelRun2_B c i arg1 harg1 arg2 harg2 arg3 harg3 arg4 harg4 arg5 harg5 arg6 harg6 arg7 harg7 hc x0 x1 x2 x3 xs0).2.1 S1000x64.size (by sl_kernel_rfl) y
/-- What the first point leaves in output 1's buffer: its pieces read back. -/
def out2_A_1 (hc : cond2 i) : Vec F S1000x64 .f32 :=
  VO2_1.read (Elt F) (VO2_1.writes (Elt F) VO2_1.junk (kernelRun2_A c i arg1 harg1 arg2 harg2 arg3 harg3 arg4 harg4 arg5 harg5 arg6 harg6 arg7 harg7 hc x0 x1 x2 x3).2.1)
/-- What a later point leaves in output 1's buffer, the scratch holding what it is given. -/
def out2_B_1 (hc : ¬cond2 i) : Vec F S1000x64 .f32 :=
  VO2_1.read (Elt F) (VO2_1.writes (Elt F) VO2_1.junk (kernelRun2_B c i arg1 harg1 arg2 harg2 arg3 harg3 arg4 harg4 arg5 harg5 arg6 harg6 arg7 harg7 hc x0 x1 x2 x3 xs0).2.1)
/-- First point: scratch 0's store covers it. -/
theorem scover2_A_0 (hc : cond2 i) (y : S10000x128.Idx) : ∃ pc ∈ (kernelRun2_A c i arg1 harg1 arg2 harg2 arg3 harg3 arg4 harg4 arg5 harg5 arg6 harg6 arg7 harg7 hc x0 x1 x2 x3).2.2.1, y ∈ pc.1.set :=
  View.cover_of_tiledL (kernelRun2_A c i arg1 harg1 arg2 harg2 arg3 harg3 arg4 harg4 arg5 harg5 arg6 harg6 arg7 harg7 hc x0 x1 x2 x3).2.2.1 S10000x128.size (by sl_kernel_rfl) y
/-- What the first point leaves in scratch 0: its pieces read back. -/
def sout2_A_0 (hc : cond2 i) : Vec F S10000x128 .bf16 :=
  VS2_0.read (Elt F) (VS2_0.writes (Elt F) VS2_0.junk (kernelRun2_A c i arg1 harg1 arg2 harg2 arg3 harg3 arg4 harg4 arg5 harg5 arg6 harg6 arg7 harg7 hc x0 x1 x2 x3).2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first point satisfies the branch condition. -/
theorem hc2_first : cond2 (grid2.coords tz2) := (hcond2 tz2).mpr rfl

/-- What the first point leaves in scratch 0, from the blocks it finds there. -/
def P2_0 (c : Dev nD) : Vec F S10000x128 .bf16 :=
  sout2_A_0 c (grid2.coords tz2) (ms2_0 tz2) (hs2_0 tz2) (ms2_1 tz2) (hs2_1 tz2) (ms2_2 tz2) (hs2_2 tz2) (ms2_3 tz2) (hs2_3 tz2) (ms2_4 tz2) (hs2_4 tz2) (ms2_5 tz2) (hs2_5 tz2) scM2_0 (Memref.isWhole_whole _) (iblk2 V c 0 tz2) (iblk2 V c 1 tz2) (iblk2 V c 2 tz2) (iblk2 V c 3 tz2) hc2_first

/-- What output window 4's staging buffer holds after the body at point `t`. -/
def outAt2_0 (c : Dev nD) (t : Fin cfg2.N) : Vec F S1000x64 .f32 :=
  if h : t.val % 10 = 0 then
    out2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)
  else
    out2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))
theorem outAt2_0_A (c : Dev nD) (t : Fin cfg2.N) (h : t.val % 10 = 0) :
    outAt2_0 V c t = out2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h) := dif_pos h
theorem outAt2_0_B (c : Dev nD) (t : Fin cfg2.N) (h : ¬t.val % 10 = 0) :
    outAt2_0 V c t = out2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc)) := dif_neg h

/-- What output window 5's staging buffer holds after the body at point `t`. -/
def outAt2_1 (c : Dev nD) (t : Fin cfg2.N) : Vec F S1000x64 .f32 :=
  if h : t.val % 10 = 0 then
    out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)
  else
    out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))
theorem outAt2_1_A (c : Dev nD) (t : Fin cfg2.N) (h : t.val % 10 = 0) :
    outAt2_1 V c t = out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h) := dif_pos h
theorem outAt2_1_B (c : Dev nD) (t : Fin cfg2.N) (h : ¬t.val % 10 = 0) :
    outAt2_1 V c t = out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc)) := dif_neg h

/-- The invariant before position `n`: the scratch at anything before the first point, at what the first point left
    afterwards; every other scoped buffer untouched. -/
def Phi2 (c : Dev nD) : ℕ → sProp 𝕄
  | 0 => iprop((∃ d, owns (c : Thread nD τ) scM2_0 fullShare d) ∗ RestB2 c)
  | _ + 1 => iprop(owns (c : Thread nD τ) scM2_0 fullShare (P2_0 V c) ∗ RestB2 c)

theorem Phi2_zero (c : Dev nD) (n : ℕ) (hz : n = 0) :
    Phi2 V c n = iprop((∃ d, owns (c : Thread nD τ) scM2_0 fullShare d) ∗ RestB2 c) := by subst hz; rfl
theorem Phi2_pos (c : Dev nD) (n : ℕ) (hz : n ≠ 0) :
    Phi2 V c n = iprop(owns (c : Thread nD τ) scM2_0 fullShare (P2_0 V c) ∗ RestB2 c) := by
  cases n with
  | zero => exact absurd rfl hz
  | succ n => rfl

/-- The proof data of the pass on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2_0 V c t
    | ⟨5, _⟩ => outAt2_1 V c t
  Φ t := Phi2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2_0 V c t := by dsimp only [dat2]
theorem after2_5 (c : Dev nD) (t : Fin cfg2.N) : (dat2 V c).after 5 t = outAt2_1 V c t := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4, after2_5,
    show (dat2 V c).Φ t.succ = Phi2 V c (t.val + 1) from rfl, show (dat2 V c).Φ t.castSucc = Phi2 V c t.val from rfl,
    Phi2_pos V c (t.val + 1) (Nat.succ_ne_zero _)]
  have hN : t.val < 10 := lt_of_lt_of_eq t.isLt (show cfg2.N = 10 from N_2)
  by_cases h0 : t.val % 10 = 0
  · obtain rfl : t = tz2 := Fin.ext (by show t.val = 0; omega)
    rw [Phi2_zero V c (tz2 : Fin cfg2.N).val rfl, outAt2_0_A V c tz2 h0, outAt2_1_A V c tz2 h0]
    unfold P2_0 sout2_A_0 out2_A_0 out2_A_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun2_A c (grid2.coords tz2) _ _ _ _ _ _ _ _ _ _ _ _ _ _ hc2_first (iblk2 V c 0 tz2) (iblk2 V c 1 tz2) (iblk2 V c 2 tz2) (iblk2 V c 3 tz2)).2.2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, ⟨%es0, HS0⟩⟩
    isplitl [HS0 HR]
    · isplitl [HS0]
      · unfold owns; iexists _; isplitr
        swap; · iexact HS0
        ipureintro; exact View.read_writes_of_cover _ _ _ _ _ (scover2_A_0 c _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover2_A_0 c _ _ _ _ _ _ _ _ _ _ _ _ _ _ _ _ _ _ _ _)
    unfold owns; iexists _; isplitr
    swap; · iexact HW5
    ipureintro; exact View.read_writes_of_cover _ _ _ _ _ (cover2_A_1 c _ _ _ _ _ _ _ _ _ _ _ _ _ _ _ _ _ _ _ _)
  · rw [Phi2_pos V c t.val (fun hz => h0 (by rw [hz])), outAt2_0_B V c t h0, outAt2_1_B V c t h0]
    unfold out2_B_0 out2_B_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun2_B c (grid2.coords t) _ _ _ _ _ _ _ _ _ _ _ _ _ _ (fun hc => h0 ((hcond2 t).mp hc)) (iblk2 V c 0 t) (iblk2 V c 1 t) (iblk2 V c 2 t) (iblk2 V c 3 t) (P2_0 V c)).2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover2_B_0 c _ _ _ _ _ _ _ _ _ _ _ _ _ _ _ _ _ _ _ _ _)
    unfold owns; iexists _; isplitr
    swap; · iexact HW5
    ipureintro; exact View.read_writes_of_cover _ _ _ _ _ (cover2_B_1 c _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Hand

end
-- ==== Proof.KRun3.lean ====
/-
  The fourth pass: one row block of  x̂ = adj · (h₂ · W) + b  and the matching row block of  â = logistic(s · sᵀ)  per grid
  point.  The projection h₂ · W and a copy of s are written once, at the first grid point, into two scratch buffers that
  every later point only reads (the row block of s is read out of the copy at the point's row offset).
  This module runs the kernel body in its two control cases: the first point (the branch that fills the
  scratch is taken) and every later point (it is skipped, the scratch holding what the first point left).
-/
import proofs.«114016_g31997506355976_cont_9to1_2145_5_alg».proof.Proof.Gen.Kernel.Launch
import proofs.«114016_g31997506355976_cont_9to1_2145_5_alg».proof.Proof.Gen.Kernel.Skeleton
import proofs.«114016_g31997506355976_cont_9to1_2145_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond3 (i : grid3.Coords) : Prop :=
  (Scalar.cmpi .ne (Scalar.extui (Scalar.cmpi .eq (BitVec.ofNat 32 (i 0).val) 0#32)) 0#32) = 1#1

/-- It holds exactly at the first point of the grid. -/
theorem hcond3 : ∀ t : Fin cfg3.N, cond3 (grid3.coords t) ↔ t.val % 50 = 0 :=
  (by decide +kernel : ∀ t : Fin grid3.N, cond3 (grid3.coords t) ↔ t.val % 50 = 0)

/-- The grid's first point. -/
def tz3 : Fin cfg3.N := ⟨0, by rw [show cfg3.N = 50 from N_3]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun3_A (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (hc : cond3 i)
    (x0 : Vec F S200x10000 .bf16) (x1 : Vec F S10000x64 .f32) (x2 : Vec F S10000x64 .f32) (x3 : Vec F S64x128 .f32) (x4 : Vec F S1x128 .f32) :
    Σ' (L0 : List (View.Piece (Elt F) S200x128 .f32)), Σ' (L1 : List (View.Piece (Elt F) S200x10000 .f32)), Σ' (LS0 : List (View.Piece (Elt F) S10000x128 .bf16)), { LS1 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L0)
                ∗ (∃ f, arg7.view.loc (c : Thread nD τ) ↦[arg7.view.set]{fullShare} arg7.view.writes (Elt F) f L1)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc3__pass4_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__pass4_body_eq_skeleton]; unfold cc3__pass4_body_skel
    unfold owns
    iintro ⟨⟨%f0, %hf0, H0⟩, ⟨%f1, %hf1, H1⟩, ⟨%f2, %hf2, H2⟩, ⟨%f3, %hf3, H3⟩, ⟨%f4, %hf4, H4⟩, ⟨%do0, %fo0, -, HO0⟩, ⟨%do1, %fo1, -, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO0]
    · iexists _; iexact HO0
    isplitl [HO1]
    · iexists _; iexact HO1
    isplitl [HS0]
    · iexists _; iexact HS0
    iexists _; iexact HS1

set_option maxHeartbeats 4000000 in
/-- LATER POINTS.  The scratch holds what the first point left and is only read: it is handed back as it was; each
    output buffer ends with its stores written. -/
noncomputable def kernelRun3_B (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (hc : ¬cond3 i)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16) :
    Σ' (L0 : List (View.Piece (Elt F) S200x128 .f32)), { L1 : List (View.Piece (Elt F) S200x10000 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L0)
                ∗ (∃ f, arg7.view.loc (c : Thread nD τ) ↦[arg7.view.set]{fullShare} arg7.view.writes (Elt F) f L1)
                ∗ owns (c : Thread nD τ) arg8 fullShare xs0
                ∗ owns (c : Thread nD τ) arg9 fullShare xs1) -∗ K ⟨⟩))
          ⊢ wp frame (wpE (defs₀ (F := F)) Variants.none c none) E (cc3__pass4_body i arg1 harg1 arg2 harg2 arg3 harg3 arg4 harg4 arg5 harg5 arg6 harg6 arg7 harg7 arg8 harg8 arg9 harg9) K } := by
  refine ⟨?_, ?_, fun E K => ?run⟩
  case run =>
    simp only [cc3__pass4_body_eq_skeleton]; unfold cc3__pass4_body_skel
    unfold owns
    iintro ⟨⟨%f0, %hf0, H0⟩, ⟨%f1, %hf1, H1⟩, ⟨%f2, %hf2, H2⟩, ⟨%f3, %hf3, H3⟩, ⟨%f4, %hf4, H4⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO0]
    · iexists _; iexact HO0
    isplitl [HO1]
    · iexists _; iexact HO1
    isplitl [HS0]
    · iexists _; isplitr; · ipureintro; exact harg8.read_unread _
      iexact HS0
    iexists _; isplitr; · ipureintro; exact harg9.read_unread _
    iexact HS1

end Cert.Kernel.Hand

end
-- ==== Proof.KDat3.lean ====
/-
  The fourth pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.KRun3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 5, through which its contents are stated. -/
abbrev VO3_0 : View sig .tc .vmem S200x128 .f32 := (Memref.whole cc3_stg5_0 : Memref sig .tc .vmem S200x128 .f32).view
/-- One staging buffer of output window 6, through which its contents are stated. -/
abbrev VO3_1 : View sig .tc .vmem S200x10000 .f32 := (Memref.whole cc3_stg6_0 : Memref sig .tc .vmem S200x10000 .f32).view
/-- Scratch operand 0: a whole scoped buffer of the kernel's own. -/
abbrev scM3_0 : Memref sig .tc .vmem S10000x128 .bf16 := Memref.whole cc3_scratch0
abbrev VS3_0 : View sig .tc .vmem S10000x128 .bf16 := scM3_0.view
/-- Scratch operand 1: a whole scoped buffer of the kernel's own. -/
abbrev scM3_1 : Memref sig .tc .vmem S10000x64 .bf16 := Memref.whole cc3_scratch1
abbrev VS3_1 : View sig .tc .vmem S10000x64 .bf16 := scM3_1.view
/-- Each window's current staging memref at point `t`, and its wholeness. -/
abbrev ms3_0 (t : Fin cfg3.N) : Memref sig .tc .vmem S200x10000 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S200x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S200x10000 .f32 := win3_6.stage (cfg3.slots t 6)
abbrev hs3_6 (t : Fin cfg3.N) : (ms3_6 t).IsWhole := hstage3_6 ((cfg3.slots t 6).cast nbuf3_6)

/-- The scoped buffers of the program other than this kernel's scratch: untouched by the pass. -/
abbrev RestB3 (c : Dev nD) : sProp 𝕄 :=
  Pipeline.scopedRestBut (Ix := Unit) (Name := ℕ) (U := UR sig nD τ) (Lvl := ℕ) (Val := Elt F) spec3 c [cc3_scratch0, cc3_scratch1]

/-- The scoped buffers the pipeline does not stage: the scratch at some contents, and the rest. -/
theorem scoped3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d)) ∗ RestB3 c) := by
  rw [scopedRest3_split]; simp only [scM3_0, scM3_1, owns_whole]; try rfl

/-! ## What the body's stores cover -/

section Runs
variable (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16)

/-- First point: output 0's stores tile its block. -/
theorem cover3_A_0 (hc : cond3 i) (y : S200x128.Idx) : ∃ pc ∈ (kernelRun3_A c i arg1 harg1 arg2 harg2 arg3 harg3 arg4 harg4 arg5 harg5 arg6 harg6 arg7 harg7 arg8 harg8 arg9 harg9 hc x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).1 S200x128.size (by sl_kernel_rfl) y
/-- Later points: output 0's stores tile its block. -/
theorem cover3_B_0 (hc : ¬cond3 i) (y : S200x128.Idx) : ∃ pc ∈ (kernelRun3_B c i arg1 harg1 arg2 harg2 arg3 harg3 arg4 harg4 arg5 harg5 arg6 harg6 arg7 harg7 arg8 harg8 arg9 harg9 hc x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 hc x0 x1 x2 x3 x4 xs0 xs1).1 S200x128.size (by sl_kernel_rfl) y
/-- What the first point leaves in output 0's buffer: its pieces read back. -/
def out3_A_0 (hc : cond3 i) : Vec F S200x128 .f32 :=
  VO3_0.read (Elt F) (VO3_0.writes (Elt F) VO3_0.junk (kernelRun3_A c i arg1 harg1 arg2 harg2 arg3 harg3 arg4 harg4 arg5 harg5 arg6 harg6 arg7 harg7 arg8 harg8 arg9 harg9 hc x0 x1 x2 x3 x4).1)
/-- What a later point leaves in output 0's buffer, the scratch holding what it is given. -/
def out3_B_0 (hc : ¬cond3 i) : Vec F S200x128 .f32 :=
  VO3_0.read (Elt F) (VO3_0.writes (Elt F) VO3_0.junk (kernelRun3_B c i arg1 harg1 arg2 harg2 arg3 harg3 arg4 harg4 arg5 harg5 arg6 harg6 arg7 harg7 arg8 harg8 arg9 harg9 hc x0 x1 x2 x3 x4 xs0 xs1).1)
/-- First point: output 1's stores tile its block. -/
theorem cover3_A_1 (hc : cond3 i) (y : S200x10000.Idx) : ∃ pc ∈ (kernelRun3_A c i arg1 harg1 arg2 harg2 arg3 harg3 arg4 harg4 arg5 harg5 arg6 harg6 arg7 harg7 arg8 harg8 arg9 harg9 hc x0 x1 x2 x3 x4).2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.1 S200x10000.size (by sl_kernel_rfl) y
/-- Later points: output 1's stores tile its block. -/
theorem cover3_B_1 (hc : ¬cond3 i) (y : S200x10000.Idx) : ∃ pc ∈ (kernelRun3_B c i arg1 harg1 arg2 harg2 arg3 harg3 arg4 harg4 arg5 harg5 arg6 harg6 arg7 harg7 arg8 harg8 arg9 harg9 hc x0 x1 x2 x3 x4 xs0 xs1).2.1, y ∈ pc.1.set :=
  View.cover_of_tiledL (kernelRun3_B c i arg1 harg1 arg2 harg2 arg3 harg3 arg4 harg4 arg5 harg5 arg6 harg6 arg7 harg7 arg8 harg8 arg9 harg9 hc x0 x1 x2 x3 x4 xs0 xs1).2.1 S200x10000.size (by sl_kernel_rfl) y
/-- What the first point leaves in output 1's buffer: its pieces read back. -/
def out3_A_1 (hc : cond3 i) : Vec F S200x10000 .f32 :=
  VO3_1.read (Elt F) (VO3_1.writes (Elt F) VO3_1.junk (kernelRun3_A c i arg1 harg1 arg2 harg2 arg3 harg3 arg4 harg4 arg5 harg5 arg6 harg6 arg7 harg7 arg8 harg8 arg9 harg9 hc x0 x1 x2 x3 x4).2.1)
/-- What a later point leaves in output 1's buffer, the scratch holding what it is given. -/
def out3_B_1 (hc : ¬cond3 i) : Vec F S200x10000 .f32 :=
  VO3_1.read (Elt F) (VO3_1.writes (Elt F) VO3_1.junk (kernelRun3_B c i arg1 harg1 arg2 harg2 arg3 harg3 arg4 harg4 arg5 harg5 arg6 harg6 arg7 harg7 arg8 harg8 arg9 harg9 hc x0 x1 x2 x3 x4 xs0 xs1).2.1)
/-- First point: scratch 0's store covers it. -/
theorem scover3_A_0 (hc : cond3 i) (y : S10000x128.Idx) : ∃ pc ∈ (kernelRun3_A c i arg1 harg1 arg2 harg2 arg3 harg3 arg4 harg4 arg5 harg5 arg6 harg6 arg7 harg7 arg8 harg8 arg9 harg9 hc x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.2.1 S10000x128.size (by sl_kernel_rfl) y
/-- What the first point leaves in scratch 0: its pieces read back. -/
def sout3_A_0 (hc : cond3 i) : Vec F S10000x128 .bf16 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc x0 x1 x2 x3 x4).2.2.1)
/-- First point: scratch 1's store covers it. -/
theorem scover3_A_1 (hc : cond3 i) (y : S10000x64.Idx) : ∃ pc ∈ (kernelRun3_A c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.2.2.1 S10000x64.size (by sl_kernel_rfl) y
/-- What the first point leaves in scratch 1: its pieces read back. -/
def sout3_A_1 (hc : cond3 i) : Vec F S10000x64 .bf16 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc x0 x1 x2 x3 x4).2.2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The first point satisfies the branch condition. -/
theorem hc3_first : cond3 (grid3.coords tz3) := (hcond3 tz3).mpr rfl

/-- What the first point leaves in scratch 0, from the blocks it finds there. -/
def P3_0 (c : Dev nD) : Vec F S10000x128 .bf16 :=
  sout3_A_0 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first
/-- What the first point leaves in scratch 1, from the blocks it finds there. -/
def P3_1 (c : Dev nD) : Vec F S10000x64 .bf16 :=
  sout3_A_1 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first

/-- What output window 5's staging buffer holds after the body at point `t`. -/
def outAt3_0 (c : Dev nD) (t : Fin cfg3.N) : Vec F S200x128 .f32 :=
  if h : t.val % 50 = 0 then
    out3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h)
  else
    out3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc))
theorem outAt3_0_A (c : Dev nD) (t : Fin cfg3.N) (h : t.val % 50 = 0) :
    outAt3_0 V c t = out3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h) := dif_pos h
theorem outAt3_0_B (c : Dev nD) (t : Fin cfg3.N) (h : ¬t.val % 50 = 0) :
    outAt3_0 V c t = out3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc)) := dif_neg h

/-- What output window 6's staging buffer holds after the body at point `t`. -/
def outAt3_1 (c : Dev nD) (t : Fin cfg3.N) : Vec F S200x10000 .f32 :=
  if h : t.val % 50 = 0 then
    out3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h)
  else
    out3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc))
theorem outAt3_1_A (c : Dev nD) (t : Fin cfg3.N) (h : t.val % 50 = 0) :
    outAt3_1 V c t = out3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h) := dif_pos h
theorem outAt3_1_B (c : Dev nD) (t : Fin cfg3.N) (h : ¬t.val % 50 = 0) :
    outAt3_1 V c t = out3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc)) := dif_neg h

/-- The invariant before position `n`: the scratch at anything before the first point, at what the first point left
    afterwards; every other scoped buffer untouched. -/
def Phi3 (c : Dev nD) : ℕ → sProp 𝕄
  | 0 => iprop(iprop((∃ d, owns (c : Thread nD τ) scM3_0 fullShare d) ∗ (∃ d, owns (c : Thread nD τ) scM3_1 fullShare d)) ∗ RestB3 c)
  | _ + 1 => iprop(iprop(owns (c : Thread nD τ) scM3_0 fullShare (P3_0 V c) ∗ owns (c : Thread nD τ) scM3_1 fullShare (P3_1 V c)) ∗ RestB3 c)

theorem Phi3_zero (c : Dev nD) (n : ℕ) (hz : n = 0) :
    Phi3 V c n = iprop(iprop((∃ d, owns (c : Thread nD τ) scM3_0 fullShare d) ∗ (∃ d, owns (c : Thread nD τ) scM3_1 fullShare d)) ∗ RestB3 c) := by subst hz; rfl
theorem Phi3_pos (c : Dev nD) (n : ℕ) (hz : n ≠ 0) :
    Phi3 V c n = iprop(iprop(owns (c : Thread nD τ) scM3_0 fullShare (P3_0 V c) ∗ owns (c : Thread nD τ) scM3_1 fullShare (P3_1 V c)) ∗ RestB3 c) := by
  cases n with
  | zero => exact absurd rfl hz
  | succ n => rfl

/-- The proof data of the pass on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3_0 V c t
    | ⟨6, _⟩ => outAt3_1 V c t
  Φ t := Phi3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3_0 V c t := by dsimp only [dat3]
theorem after3_6 (c : Dev nD) (t : Fin cfg3.N) : (dat3 V c).after 6 t = outAt3_1 V c t := by dsimp only [dat3]
theorem before3_0 (c : Dev nD) (t : Fin cfg3.N) (d) : (dat3 V c).before 0 t d = iblk3 V c 0 t := before3_0_of V (dat3 V c) (A_eq3 V c 0) (after3_0 V c) t d
theorem before3_1 (c : Dev nD) (t : Fin cfg3.N) (d) : (dat3 V c).before 1 t d = iblk3 V c 1 t := before3_1_of V (dat3 V c) (A_eq3 V c 1) (after3_1 V c) t d
theorem before3_2 (c : Dev nD) (t : Fin cfg3.N) (d) : (dat3 V c).before 2 t d = iblk3 V c 2 t := before3_2_of V (dat3 V c) (A_eq3 V c 2) (after3_2 V c) t d
theorem before3_3 (c : Dev nD) (t : Fin cfg3.N) (d) : (dat3 V c).before 3 t d = iblk3 V c 3 t := before3_3_of V (dat3 V c) (A_eq3 V c 3) (after3_3 V c) t d
theorem before3_4 (c : Dev nD) (t : Fin cfg3.N) (d) : (dat3 V c).before 4 t d = iblk3 V c 4 t := before3_4_of V (dat3 V c) (A_eq3 V c 4) (after3_4 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6,
    show (dat3 V c).Φ t.succ = Phi3 V c (t.val + 1) from rfl, show (dat3 V c).Φ t.castSucc = Phi3 V c t.val from rfl,
    Phi3_pos V c (t.val + 1) (Nat.succ_ne_zero _)]
  have hN : t.val < 50 := lt_of_lt_of_eq t.isLt (show cfg3.N = 50 from N_3)
  by_cases h0 : t.val % 50 = 0
  · obtain rfl : t = tz3 := Fin.ext (by show t.val = 0; omega)
    rw [Phi3_zero V c (tz3 : Fin cfg3.N).val rfl, outAt3_0_A V c tz3 h0, outAt3_1_A V c tz3 h0]
    unfold P3_0 P3_1 sout3_A_0 sout3_A_1 out3_A_0 out3_A_1
    iintro ⟨⟨⟨HS0, HS1⟩, HR⟩, Ho, ⟨%dw0, HW0⟩, ⟨%dw1, HW1⟩, ⟨%dw2, HW2⟩, ⟨%dw3, HW3⟩, ⟨%dw4, HW4⟩, ⟨%dw5, HW5⟩, ⟨%dw6, HW6⟩⟩
    iapply ((kernelRun3_A c (grid3.coords tz3) _ _ _ _ _ _ _ _ _ _ _ _ _ _ _ _ _ _ hc3_first (iblk3 V c 0 tz3) (iblk3 V c 1 tz3) (iblk3 V c 2 tz3) (iblk3 V c 3 tz3) (iblk3 V c 4 tz3)).2.2.2.2 Set.univ _)
    isplitl [HW0]; · iexact HW0
    isplitl [HW1]; · iexact HW1
    isplitl [HW2]; · iexact HW2
    isplitl [HW3]; · iexact HW3
    isplitl [HW4]; · iexact HW4
    isplitl [HW5]; · iexists _; iexact HW5
    isplitl [HW6]; · iexists _; iexact HW6
    isplitl [HS0]; · iexact HS0
    isplitl [HS1]; · iexact HS1
    iintro ⟨HW0, HW1, HW2, HW3, HW4, ⟨%eo0, HW5⟩, ⟨%eo1, HW6⟩, ⟨%es0, HS0⟩, ⟨%es1, HS1⟩⟩
    isplitl [HS0 HS1 HR]
    · isplitl [HS0 HS1]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _)
        unfold owns; iexists _; isplitr
        swap; · iexact HS1
        ipureintro; exact View.read_writes_of_cover _ _ _ _ _ (scover3_A_1 c _ _ _ _ _ _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]; · iexact HW4
    isplitl [HW5]
    · unfold owns; iexists _; isplitr
      swap; · iexact HW5
      ipureintro; exact View.read_writes_of_cover _ _ _ _ _ (cover3_A_0 c _ _ _ _ _ _ _ _ _ _ _ _ _ _ _ _ _ _ _ _ _ _ _ _ _)
    unfold owns; iexists _; isplitr
    swap; · iexact HW6
    ipureintro; exact View.read_writes_of_cover _ _ _ _ _ (cover3_A_1 c _ _ _ _ _ _ _ _ _ _ _ _ _ _ _ _ _ _ _ _ _ _ _ _ _)
  · rw [Phi3_pos V c t.val (fun hz => h0 (by rw [hz])), outAt3_0_B V c t h0, outAt3_1_B V c t h0]
    unfold out3_B_0 out3_B_1
    iintro ⟨⟨⟨HS0, HS1⟩, HR⟩, Ho, ⟨%dw0, HW0⟩, ⟨%dw1, HW1⟩, ⟨%dw2, HW2⟩, ⟨%dw3, HW3⟩, ⟨%dw4, HW4⟩, ⟨%dw5, HW5⟩, ⟨%dw6, HW6⟩⟩
    iapply ((kernelRun3_B c (grid3.coords t) _ _ _ _ _ _ _ _ _ _ _ _ _ _ _ _ _ _ (fun hc => h0 ((hcond3 t).mp hc)) (iblk3 V c 0 t) (iblk3 V c 1 t) (iblk3 V c 2 t) (iblk3 V c 3 t) (iblk3 V c 4 t) (P3_0 V c) (P3_1 V c)).2.2 Set.univ _)
    isplitl [HW0]; · iexact HW0
    isplitl [HW1]; · iexact HW1
    isplitl [HW2]; · iexact HW2
    isplitl [HW3]; · iexact HW3
    isplitl [HW4]; · iexact HW4
    isplitl [HW5]; · iexists _; iexact HW5
    isplitl [HW6]; · iexists _; iexact HW6
    isplitl [HS0]; · iexact HS0
    isplitl [HS1]; · iexact HS1
    iintro ⟨HW0, HW1, HW2, HW3, HW4, ⟨%eo0, HW5⟩, ⟨%eo1, HW6⟩, HS0, HS1⟩
    isplitl [HS0 HS1 HR]
    · isplitl [HS0 HS1]
      · isplitl [HS0]
        · iexact HS0
        iexact HS1
      iexact HR
    isplitl [Ho]; · iexact Ho
    isplitl [HW0]; · iexact HW0
    isplitl [HW1]; · iexact HW1
    isplitl [HW2]; · iexact HW2
    isplitl [HW3]; · iexact HW3
    isplitl [HW4]; · iexact HW4
    isplitl [HW5]
    · unfold owns; iexists _; isplitr
      swap; · iexact HW5
      ipureintro; exact View.read_writes_of_cover _ _ _ _ _ (cover3_B_0 c _ _ _ _ _ _ _ _ _ _ _ _ _ _ _ _ _ _ _ _ _ _ _ _ _ _ _)
    unfold owns; iexists _; isplitr
    swap; · iexact HW6
    ipureintro; exact View.read_writes_of_cover _ _ _ _ _ (cover3_B_1 c _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.KRunMain.lean ====
/-
  The whole program as a run: the host stretch that lays out the biases and the side-by-side decoder weights, then
  the four passes in order.  The buffers' contents at each boundary are a fold from the launch memory: after the host
  stretch its operations' results; after a pass, that pass's output arrays at what its write-backs leave and every
  other buffer as it was.  Each pass enters with every unscoped buffer held at the boundary's contents, splits its
  windows' arrays out, runs its pipeline under its proof data, and puts the arrays back at the exit contents; its
  scratch goes into the pipeline's invariant at anything and comes back at anything.  The run ends with every unscoped
  buffer at the last boundary's contents.
-/
import proofs.«114016_g31997506355976_cont_9to1_2145_5_alg».proof.Proof.KDat0
import proofs.«114016_g31997506355976_cont_9to1_2145_5_alg».proof.Proof.KDat1
import proofs.«114016_g31997506355976_cont_9to1_2145_5_alg».proof.Proof.KDat2
import proofs.«114016_g31997506355976_cont_9to1_2145_5_alg».proof.Proof.KDat3
import proofs.«114016_g31997506355976_cont_9to1_2145_5_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pass 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A pass changes no buffer but its output windows' arrays: an input window's array ends as it was found. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    exact (W2_arr m ρ c w).trans (((dat0 (V1 m ρ) c).arrAt_in w hw _).trans (A_eq0 (V1 m ρ) c w))
  · exact W2_of_ne m ρ c b fun w e => h ⟨w, e⟩
/-- At pass 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- A pass changes no buffer but its output windows' arrays: an input window's array ends as it was found. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    exact (W3_arr m ρ c w).trans (((dat1 (V2 m ρ) c).arrAt_in w hw _).trans (A_eq1 (V2 m ρ) c w))
  · exact W3_of_ne m ρ c b fun w e => h ⟨w, e⟩
/-- At pass 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- A pass changes no buffer but its output windows' arrays: an input window's array ends as it was found. -/
theorem W4_keep (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    exact (W4_arr m ρ c w).trans (((dat2 (V3 m ρ) c).arrAt_in w hw _).trans (A_eq2 (V3 m ρ) c w))
  · exact W4_of_ne m ρ c b fun w e => h ⟨w, e⟩
/-- At pass 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- A pass changes no buffer but its output windows' arrays: an input window's array ends as it was found. -/
theorem W5_keep (c : Dev nD) (b : Ref sig .tc) (hb : ∀ w, (cfg3.win w).isOut = true → Pipeline.arrRef spec3 w ≠ b) :
    W5 m ρ c (Proc.devRef .tc b) = W4 m ρ c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    exact (W5_arr m ρ c w).trans (((dat3 (V4 m ρ) c).arrAt_in w hw _).trans (A_eq3 (V4 m ρ) c w))
  · exact W5_of_ne m ρ c b fun w e => h ⟨w, e⟩

/-! ## The proof data family and the thread state -/

/-- The prefetched tables' admissible contents: no pipeline has a table. -/
abbrev adm : (p : Fin 4) → (pcfgs (F := F) p).Adm := fun p => (cfgs p).toPCfg_adm
/-- Every pipeline's proof data, each at its pass's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m ρ c) ∗ ∃ r, prngReg c r)

/-! ## The passes as segments -/

set_option backward.isDefEq.respectTransparency.types false in
/-- PASS 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := iprop(Pipeline.unscopedRest (Ix := Unit) (Name := ℕ) (U := UR sig nD τ) (Lvl := ℕ) spec0 c (V1 m ρ c) ∗ (∃ r, prngReg c r))
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = iprop((∃ d, owns (c : Thread nD τ) scM0_0 fullShare d) ∗ RestB0 c) from rfl, ← scoped0_eq]
    iintro ⟨-, -, Hr⟩; iexact Hr
  hout c := by
    rw [Pipeline.ownSems0_none, show (pdats m ρ 0 c).Φ (Fin.last _) = Phi0 (V1 m ρ) c (Fin.last cfg0.N).val from rfl,
      Phi0_pos _ _ _ (by rw [Fin.val_last]; have : cfg0.N = 50 := N_0; omega),
      show (Pipeline.scopedRest (Ix := Unit) (Name := ℕ) (U := UR sig nD τ) (Lvl := ℕ) (Val := Elt F) (Pipeline.pin (pcfgs (F := F)) adm 0).spec c : sProp 𝕄)
        = iprop((∃ d, owns (c : Thread nD τ) scM0_0 fullShare d) ∗ RestB0 c) from scoped0_eq c]
    iintro ⟨HS0, HR⟩
    isplitr; · iempintro
    isplitr; · iempintro
    isplitl [HS0]; · iexists _; iexact HS0
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ (∃ r, prngReg c r))
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = iprop((∃ d, owns (c : Thread nD τ) scM1_0 fullShare d) ∗ RestB1 c) from rfl, ← scoped1_eq]
    iintro ⟨-, -, Hr⟩; iexact Hr
  hout c := by
    rw [Pipeline.ownSems0_none, show (pdats m ρ 1 c).Φ (Fin.last _) = Phi1 (V2 m ρ) c (Fin.last cfg1.N).val from rfl,
      Phi1_pos _ _ _ (by rw [Fin.val_last]; have : cfg1.N = 10 := N_1; omega),
      show (Pipeline.scopedRest (Ix := Unit) (Name := ℕ) (U := UR sig nD τ) (Lvl := ℕ) (Val := Elt F) (Pipeline.pin (pcfgs (F := F)) adm 1).spec c : sProp 𝕄)
        = iprop((∃ d, owns (c : Thread nD τ) scM1_0 fullShare d) ∗ RestB1 c) from scoped1_eq c]
    iintro ⟨HS0, HR⟩
    isplitr; · iempintro
    isplitr; · iempintro
    isplitl [HS0]; · iexists _; iexact HS0
    iexact HR
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 2 over the thread state: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := BI.emp
  Y _ := BI.emp
  Z c := iprop(Pipeline.unscopedRest (Ix := Unit) (Name := ℕ) (U := UR sig nD τ) (Lvl := ℕ) spec2 c (V3 m ρ c) ∗ (∃ r, prngReg c r))
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = iprop((∃ d, owns (c : Thread nD τ) scM2_0 fullShare d) ∗ RestB2 c) from rfl, ← scoped2_eq]
    iintro ⟨-, -, Hr⟩; iexact Hr
  hout c := by
    rw [Pipeline.ownSems0_none, show (pdats m ρ 2 c).Φ (Fin.last _) = Phi2 (V3 m ρ) c (Fin.last cfg2.N).val from rfl,
      Phi2_pos _ _ _ (by rw [Fin.val_last]; have : cfg2.N = 10 := N_2; omega),
      show (Pipeline.scopedRest (Ix := Unit) (Name := ℕ) (U := UR sig nD τ) (Lvl := ℕ) (Val := Elt F) (Pipeline.pin (pcfgs (F := F)) adm 2).spec c : sProp 𝕄)
        = iprop((∃ d, owns (c : Thread nD τ) scM2_0 fullShare d) ∗ RestB2 c) from scoped2_eq c]
    iintro ⟨HS0, HR⟩
    isplitr; · iempintro
    isplitr; · iempintro
    isplitl [HS0]; · iexists _; iexact HS0
    iexact HR
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 3 over the thread state: entered from every unscoped buffer at `W4`, left at `W5`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec3 c (V4 m ρ c) ∗ (∃ r, prngReg c r))
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 3 c).Φ 0 = iprop(iprop((∃ d, owns (c : Thread nD τ) scM3_0 fullShare d) ∗ (∃ d, owns (c : Thread nD τ) scM3_1 fullShare d)) ∗ RestB3 c) from rfl, ← scoped3_eq]
    iintro ⟨-, -, Hr⟩; iexact Hr
  hout c := by
    rw [Pipeline.ownSems0_none, show (pdats m ρ 3 c).Φ (Fin.last _) = Phi3 (V4 m ρ) c (Fin.last cfg3.N).val from rfl,
      Phi3_pos _ _ _ (by rw [Fin.val_last]; have : cfg3.N = 50 := N_3; omega),
      show (Pipeline.scopedRest (Ix := Unit) (Name := ℕ) (U := UR sig nD τ) (Lvl := ℕ) (Val := Elt F) (Pipeline.pin (pcfgs (F := F)) adm 3).spec c : sProp 𝕄)
        = iprop(iprop((∃ d, owns (c : Thread nD τ) scM3_0 fullShare d) ∗ (∃ d, owns (c : Thread nD τ) scM3_1 fullShare d)) ∗ RestB3 c) from scoped3_eq c]
    iintro ⟨⟨HS0, HS1⟩, HR⟩
    isplitr; · iempintro
    isplitr; · iempintro
    isplitl [HS0 HS1]
    · isplitl [HS0]; · iexists _; iexact HS0
      iexists _; iexact HS1
    iexact HR
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, -, ⟨Hrest, Hp⟩⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The program as segments, and the launch -/

/-- The program's 5 segments in order: the host stretch, then the four passes. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ) ]
/-- The program IS the run of the segments. -/
theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.KFrames.lean ====
/-
  The frame: no host operation and no pass writes an argument array (a pass reads it through an input window or
  bypasses it), so the fold of boundary contents at an argument's buffer walks back to the launch memory.
-/
import proofs.«114016_g31997506355976_cont_9to1_2145_5_alg».proof.Proof.KRunMain

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer the host stretch does not write holds its launch contents at the first pass's entry. -/
theorem W1_of (c : Dev nD) (r : Ref sig .tc) (h : r ∉ hostOps0_W) : W1 m ρ c (Proc.devRef .tc r) = m ((c : Thread nD τ).loc r) :=
  StableHlo.after_of_writes_sub hostOps0 _ hostOps0_writes h

/-- A buffer that is no pass's output array and that the host stretch does not write ends as launched. -/
theorem W5_of (c : Dev nD) (r : Ref sig .tc)
    (h0 : ∀ w, (cfg0.win w).isOut = true → Pipeline.arrRef spec0 w ≠ r) (h1 : ∀ w, (cfg1.win w).isOut = true → Pipeline.arrRef spec1 w ≠ r)
    (h2 : ∀ w, (cfg2.win w).isOut = true → Pipeline.arrRef spec2 w ≠ r) (h3 : ∀ w, (cfg3.win w).isOut = true → Pipeline.arrRef spec3 w ≠ r)
    (hh : r ∉ hostOps0_W) : W5 m ρ c (Proc.devRef .tc r) = m ((c : Thread nD τ).loc r) :=
  (W5_keep m ρ c r h3).trans ((W4_keep m ρ c r h2).trans ((W3_keep m ρ c r h1).trans ((W2_keep m ρ c r h0).trans (W1_of m ρ c r hh))))

/-- THE FRAME, at any `F`: every weakly fair execution terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W5_of m ρ c main_arg0 (by decide) (by decide) (by decide) (by decide) (by decide)),
    (h c _ (mem_uc main_arg1 (by decide))).trans (W5_of m ρ c main_arg1 (by decide) (by decide) (by decide) (by decide) (by decide)),
    (h c _ (mem_uc main_arg2 (by decide))).trans (W5_of m ρ c main_arg2 (by decide) (by decide) (by decide) (by decide) (by decide)),
    (h c _ (mem_uc main_arg3 (by decide))).trans (W5_of m ρ c main_arg3 (by decide) (by decide) (by decide) (by decide) (by decide)),
    (h c _ (mem_uc main_arg4 (by decide))).trans (W5_of m ρ c main_arg4 (by decide) (by decide) (by decide) (by decide) (by decide)),
    (h c _ (mem_uc main_arg5 (by decide))).trans (W5_of m ρ c main_arg5 (by decide) (by decide) (by decide) (by decide) (by decide)),
    (h c _ (mem_uc main_arg6 (by decide))).trans (W5_of m ρ c main_arg6 (by decide) (by decide) (by decide) (by decide) (by decide)),
    (h c _ (mem_uc main_arg7 (by decide))).trans (W5_of m ρ c main_arg7 (by decide) (by decide) (by decide) (by decide) (by decide)),
    (h c _ (mem_uc main_arg8 (by decide))).trans (W5_of m ρ c main_arg8 (by decide) (by decide) (by decide) (by decide) (by decide)),
    (h c _ (mem_uc main_arg9 (by decide))).trans (W5_of m ρ c main_arg9 (by decide) (by decide) (by decide) (by decide) (by decide)),
    (h c _ (mem_uc main_arg10 (by decide))).trans (W5_of m ρ c main_arg10 (by decide) (by decide) (by decide) (by decide) (by decide)),
    (h c _ (mem_uc main_arg11 (by decide))).trans (W5_of m ρ c main_arg11 (by decide) (by decide) (by decide) (by decide) (by decide))⟩) (run_all m ρ)

end Cert.Kernel.Hand

end
-- ==== Proof.Run0.lean ====
/-
  The first pass: one row block of  h = relu(adj · (x · W) + b)  per grid point, and beside it the same row block of the
  adjacency re-encoded in the narrow format.  The projection x · W is computed once, at the first grid point, into a
  scratch buffer that every later point only reads.
  This module runs the kernel body in its two control cases: the first point (the branch that fills the
  scratch is taken) and every later point (it is skipped, the scratch holding what the first point left).
-/
import proofs.«114016_g31997506355976_cont_9to1_2145_5_alg».proof.Proof.Gen.KernelIdeal.Launch
import proofs.«114016_g31997506355976_cont_9to1_2145_5_alg».proof.Proof.Gen.KernelIdeal.Skeleton
import proofs.«114016_g31997506355976_cont_9to1_2145_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond0 (i : grid0.Coords) : Prop :=
  (Scalar.cmpi .ne (Scalar.extui (Scalar.cmpi .eq (BitVec.ofNat 32 (i 0).val) 0#32)) 0#32) = 1#1

/-- It holds exactly at the first point of the grid. -/
theorem hcond0 : ∀ t : Fin cfg0.N, cond0 (grid0.coords t) ↔ t.val % 50 = 0 :=
  (by decide +kernel : ∀ t : Fin grid0.N, cond0 (grid0.coords t) ↔ t.val % 50 = 0)

/-- The grid's first point. -/
def tz0 : Fin cfg0.N := ⟨0, by rw [show cfg0.N = 50 from N_0]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun0_A (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (hc : cond0 i)
    (x0 : Vec F S200x10000 .f32) (x1 : Vec F S10000x128 .f32) (x2 : Vec F S128x64 .f32) (x3 : Vec F S1x64 .f32) :
    Σ' (L0 : List (View.Piece (Elt F) S200x64 .f32)), Σ' (L1 : List (View.Piece (Elt F) S200x10000 .bf16)), { LS0 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ (∃ f, arg7.view.loc (c : Thread nD τ) ↦[arg7.view.set]{fullShare} arg7.view.writes (Elt F) f LS0)) -∗ K ⟨⟩))
          ⊢ wp frame (wpE (defs₀ (F := F)) Variants.none c none) E (cc0__pass1_body i arg1 harg1 arg2 harg2 arg3 harg3 arg4 harg4 arg5 harg5 arg6 harg6 arg7 harg7) K } := by
  refine ⟨?_, ?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; iexact HS0

set_option maxHeartbeats 4000000 in
/-- LATER POINTS.  The scratch holds what the first point left and is only read: it is handed back as it was; each
    output buffer ends with its stores written. -/
noncomputable def kernelRun0_B (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (hc : ¬cond0 i)
    (x0 : Vec F S200x10000 .f32) (x1 : Vec F S10000x128 .f32) (x2 : Vec F S128x64 .f32) (x3 : Vec F S1x64 .f32) (xs0 : Vec F S10000x64 .bf16) :
    Σ' (L0 : List (View.Piece (Elt F) S200x64 .f32)), { L1 : List (View.Piece (Elt F) S200x10000 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ owns (c : Thread nD τ) arg7 fullShare xs0) -∗ K ⟨⟩))
          ⊢ wp frame (wpE (defs₀ (F := F)) Variants.none c none) E (cc0__pass1_body i arg1 harg1 arg2 harg2 arg3 harg3 arg4 harg4 arg5 harg5 arg6 harg6 arg7 harg7) K } := by
  refine ⟨?_, ?_, fun E K => ?run⟩
  case run =>
    simp only [cc0__pass1_body_eq_skeleton]; unfold cc0__pass1_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; isplitr; · ipureintro; exact harg7.read_unread _
    iexact HS0

end Cert.KernelIdeal.Hand

end
-- ==== Proof.Dat0.lean ====
/-
  The first pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO0_0 : View sig .tc .vmem S200x64 .f32 := (Memref.whole cc0_stg4_0 : Memref sig .tc .vmem S200x64 .f32).view
/-- One staging buffer of output window 5, through which its contents are stated. -/
abbrev VO0_1 : View sig .tc .vmem S200x10000 .bf16 := (Memref.whole cc0_stg5_0 : Memref sig .tc .vmem S200x10000 .bf16).view
/-- Scratch operand 0: a whole scoped buffer of the kernel's own. -/
abbrev scM0_0 : Memref sig .tc .vmem S10000x64 .bf16 := Memref.whole cc0_scratch0
abbrev VS0_0 : View sig .tc .vmem S10000x64 .bf16 := scM0_0.view
/-- Each window's current staging memref at point `t`, and its wholeness. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .bf16 := win0_5.stage (cfg0.slots t 5)
abbrev hs0_5 (t : Fin cfg0.N) : (ms0_5 t).IsWhole := hstage0_5 ((cfg0.slots t 5).cast nbuf0_5)

/-- The scoped buffers of the program other than this kernel's scratch: untouched by the pass. -/
abbrev RestB0 (c : Dev nD) : sProp 𝕄 :=
  Pipeline.scopedRestBut (Ix := Unit) (Name := ℕ) (U := UR sig nD τ) (Lvl := ℕ) (Val := Elt F) spec0 c [cc0_scratch0]

/-- The scoped buffers the pipeline does not stage: the scratch at some contents, and the rest. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ RestB0 c) := by
  rw [scopedRest0_split]; simp only [scM0_0, owns_whole]; try rfl

/-! ## What the body's stores cover -/

section Runs
variable (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (x0 : Vec F S200x10000 .f32) (x1 : Vec F S10000x128 .f32) (x2 : Vec F S128x64 .f32) (x3 : Vec F S1x64 .f32) (xs0 : Vec F S10000x64 .bf16)

/-- First point: output 0's stores tile its block. -/
theorem cover0_A_0 (hc : cond0 i) (y : S200x64.Idx) : ∃ pc ∈ (kernelRun0_A c i arg1 harg1 arg2 harg2 arg3 harg3 arg4 harg4 arg5 harg5 arg6 harg6 arg7 harg7 hc x0 x1 x2 x3).1, y ∈ pc.1.set :=
  View.cover_of_tiledL (kernelRun0_A c i arg1 harg1 arg2 harg2 arg3 harg3 arg4 harg4 arg5 harg5 arg6 harg6 arg7 harg7 hc x0 x1 x2 x3).1 S200x64.size (by sl_kernel_rfl) y
/-- Later points: output 0's stores tile its block. -/
theorem cover0_B_0 (hc : ¬cond0 i) (y : S200x64.Idx) : ∃ pc ∈ (kernelRun0_B c i arg1 harg1 arg2 harg2 arg3 harg3 arg4 harg4 arg5 harg5 arg6 harg6 arg7 harg7 hc x0 x1 x2 x3 xs0).1, y ∈ pc.1.set :=
  View.cover_of_tiledL (kernelRun0_B c i arg1 harg1 arg2 harg2 arg3 harg3 arg4 harg4 arg5 harg5 arg6 harg6 arg7 harg7 hc x0 x1 x2 x3 xs0).1 S200x64.size (by sl_kernel_rfl) y
/-- What the first point leaves in output 0's buffer: its pieces read back. -/
def out0_A_0 (hc : cond0 i) : Vec F S200x64 .f32 :=
  VO0_0.read (Elt F) (VO0_0.writes (Elt F) VO0_0.junk (kernelRun0_A c i arg1 harg1 arg2 harg2 arg3 harg3 arg4 harg4 arg5 harg5 arg6 harg6 arg7 harg7 hc x0 x1 x2 x3).1)
/-- What a later point leaves in output 0's buffer, the scratch holding what it is given. -/
def out0_B_0 (hc : ¬cond0 i) : Vec F S200x64 .f32 :=
  VO0_0.read (Elt F) (VO0_0.writes (Elt F) VO0_0.junk (kernelRun0_B c i arg1 harg1 arg2 harg2 arg3 harg3 arg4 harg4 arg5 harg5 arg6 harg6 arg7 harg7 hc x0 x1 x2 x3 xs0).1)
/-- First point: output 1's stores tile its block. -/
theorem cover0_A_1 (hc : cond0 i) (y : S200x10000.Idx) : ∃ pc ∈ (kernelRun0_A c i arg1 harg1 arg2 harg2 arg3 harg3 arg4 harg4 arg5 harg5 arg6 harg6 arg7 harg7 hc x0 x1 x2 x3).2.1, y ∈ pc.1.set :=
  View.cover_of_tiledL (kernelRun0_A c i arg1 harg1 arg2 harg2 arg3 harg3 arg4 harg4 arg5 harg5 arg6 harg6 arg7 harg7 hc x0 x1 x2 x3).2.1 S200x10000.size (by sl_kernel_rfl) y
/-- Later points: output 1's stores tile its block. -/
theorem cover0_B_1 (hc : ¬cond0 i) (y : S200x10000.Idx) : ∃ pc ∈ (kernelRun0_B c i arg1 harg1 arg2 harg2 arg3 harg3 arg4 harg4 arg5 harg5 arg6 harg6 arg7 harg7 hc x0 x1 x2 x3 xs0).2.1, y ∈ pc.1.set :=
  View.cover_of_tiledL (kernelRun0_B c i arg1 harg1 arg2 harg2 arg3 harg3 arg4 harg4 arg5 harg5 arg6 harg6 arg7 harg7 hc x0 x1 x2 x3 xs0).2.1 S200x10000.size (by sl_kernel_rfl) y
/-- What the first point leaves in output 1's buffer: its pieces read back. -/
def out0_A_1 (hc : cond0 i) : Vec F S200x10000 .bf16 :=
  VO0_1.read (Elt F) (VO0_1.writes (Elt F) VO0_1.junk (kernelRun0_A c i arg1 harg1 arg2 harg2 arg3 harg3 arg4 harg4 arg5 harg5 arg6 harg6 arg7 harg7 hc x0 x1 x2 x3).2.1)
/-- What a later point leaves in output 1's buffer, the scratch holding what it is given. -/
def out0_B_1 (hc : ¬cond0 i) : Vec F S200x10000 .bf16 :=
  VO0_1.read (Elt F) (VO0_1.writes (Elt F) VO0_1.junk (kernelRun0_B c i arg1 harg1 arg2 harg2 arg3 harg3 arg4 harg4 arg5 harg5 arg6 harg6 arg7 harg7 hc x0 x1 x2 x3 xs0).2.1)
/-- First point: scratch 0's store covers it. -/
theorem scover0_A_0 (hc : cond0 i) (y : S10000x64.Idx) : ∃ pc ∈ (kernelRun0_A c i arg1 harg1 arg2 harg2 arg3 harg3 arg4 harg4 arg5 harg5 arg6 harg6 arg7 harg7 hc x0 x1 x2 x3).2.2.1, y ∈ pc.1.set :=
  View.cover_of_tiledL (kernelRun0_A c i arg1 harg1 arg2 harg2 arg3 harg3 arg4 harg4 arg5 harg5 arg6 harg6 arg7 harg7 hc x0 x1 x2 x3).2.2.1 S10000x64.size (by sl_kernel_rfl) y
/-- What the first point leaves in scratch 0: its pieces read back. -/
def sout0_A_0 (hc : cond0 i) : Vec F S10000x64 .bf16 :=
  VS0_0.read (Elt F) (VS0_0.writes (Elt F) VS0_0.junk (kernelRun0_A c i arg1 harg1 arg2 harg2 arg3 harg3 arg4 harg4 arg5 harg5 arg6 harg6 arg7 harg7 hc x0 x1 x2 x3).2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The first point satisfies the branch condition. -/
theorem hc0_first : cond0 (grid0.coords tz0) := (hcond0 tz0).mpr rfl

/-- What the first point leaves in scratch 0, from the blocks it finds there. -/
def P0_0 (c : Dev nD) : Vec F S10000x64 .bf16 :=
  sout0_A_0 c (grid0.coords tz0) (ms0_0 tz0) (hs0_0 tz0) (ms0_1 tz0) (hs0_1 tz0) (ms0_2 tz0) (hs0_2 tz0) (ms0_3 tz0) (hs0_3 tz0) (ms0_4 tz0) (hs0_4 tz0) (ms0_5 tz0) (hs0_5 tz0) scM0_0 (Memref.isWhole_whole _) (iblk0 V c 0 tz0) (iblk0 V c 1 tz0) (iblk0 V c 2 tz0) (iblk0 V c 3 tz0) hc0_first

/-- What output window 4's staging buffer holds after the body at point `t`. -/
def outAt0_0 (c : Dev nD) (t : Fin cfg0.N) : Vec F S200x64 .f32 :=
  if h : t.val % 50 = 0 then
    out0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h)
  else
    out0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc))
theorem outAt0_0_A (c : Dev nD) (t : Fin cfg0.N) (h : t.val % 50 = 0) :
    outAt0_0 V c t = out0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h) := dif_pos h
theorem outAt0_0_B (c : Dev nD) (t : Fin cfg0.N) (h : ¬t.val % 50 = 0) :
    outAt0_0 V c t = out0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc)) := dif_neg h

/-- What output window 5's staging buffer holds after the body at point `t`. -/
def outAt0_1 (c : Dev nD) (t : Fin cfg0.N) : Vec F S200x10000 .bf16 :=
  if h : t.val % 50 = 0 then
    out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h)
  else
    out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc))
theorem outAt0_1_A (c : Dev nD) (t : Fin cfg0.N) (h : t.val % 50 = 0) :
    outAt0_1 V c t = out0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) ((hcond0 t).mpr h) := dif_pos h
theorem outAt0_1_B (c : Dev nD) (t : Fin cfg0.N) (h : ¬t.val % 50 = 0) :
    outAt0_1 V c t = out0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (P0_0 V c) (fun hc => h ((hcond0 t).mp hc)) := dif_neg h

/-- The invariant before position `n`: the scratch at anything before the first point, at what the first point left
    afterwards; every other scoped buffer untouched. -/
def Phi0 (c : Dev nD) : ℕ → sProp 𝕄
  | 0 => iprop((∃ d, owns (c : Thread nD τ) scM0_0 fullShare d) ∗ RestB0 c)
  | _ + 1 => iprop(owns (c : Thread nD τ) scM0_0 fullShare (P0_0 V c) ∗ RestB0 c)

theorem Phi0_zero (c : Dev nD) (n : ℕ) (hz : n = 0) :
    Phi0 V c n = iprop((∃ d, owns (c : Thread nD τ) scM0_0 fullShare d) ∗ RestB0 c) := by subst hz; rfl
theorem Phi0_pos (c : Dev nD) (n : ℕ) (hz : n ≠ 0) :
    Phi0 V c n = iprop(owns (c : Thread nD τ) scM0_0 fullShare (P0_0 V c) ∗ RestB0 c) := by
  cases n with
  | zero => exact absurd rfl hz
  | succ n => rfl

/-- The proof data of the pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0_0 V c t
    | ⟨5, _⟩ => outAt0_1 V c t
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0_0 V c t := by dsimp only [dat0]
theorem after0_5 (c : Dev nD) (t : Fin cfg0.N) : (dat0 V c).after 5 t = outAt0_1 V c t := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5,
    show (dat0 V c).Φ t.succ = Phi0 V c (t.val + 1) from rfl, show (dat0 V c).Φ t.castSucc = Phi0 V c t.val from rfl,
    Phi0_pos V c (t.val + 1) (Nat.succ_ne_zero _)]
  have hN : t.val < 50 := lt_of_lt_of_eq t.isLt (show cfg0.N = 50 from N_0)
  by_cases h0 : t.val % 50 = 0
  · obtain rfl : t = tz0 := Fin.ext (by show t.val = 0; omega)
    rw [Phi0_zero V c (tz0 : Fin cfg0.N).val rfl, outAt0_0_A V c tz0 h0, outAt0_1_A V c tz0 h0]
    unfold P0_0 sout0_A_0 out0_A_0 out0_A_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun0_A c (grid0.coords tz0) _ _ _ _ _ _ _ _ _ _ _ _ _ _ hc0_first (iblk0 V c 0 tz0) (iblk0 V c 1 tz0) (iblk0 V c 2 tz0) (iblk0 V c 3 tz0)).2.2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, ⟨%es0, HS0⟩⟩
    isplitl [HS0 HR]
    · isplitl [HS0]
      · unfold owns; iexists _; isplitr
        swap; · iexact HS0
        ipureintro; exact View.read_writes_of_cover _ _ _ _ _ (scover0_A_0 c _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover0_A_0 c _ _ _ _ _ _ _ _ _ _ _ _ _ _ _ _ _ _ _ _)
    unfold owns; iexists _; isplitr
    swap; · iexact HW5
    ipureintro; exact View.read_writes_of_cover _ _ _ _ _ (cover0_A_1 c _ _ _ _ _ _ _ _ _ _ _ _ _ _ _ _ _ _ _ _)
  · rw [Phi0_pos V c t.val (fun hz => h0 (by rw [hz])), outAt0_0_B V c t h0, outAt0_1_B V c t h0]
    unfold out0_B_0 out0_B_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun0_B c (grid0.coords t) _ _ _ _ _ _ _ _ _ _ _ _ _ _ (fun hc => h0 ((hcond0 t).mp hc)) (iblk0 V c 0 t) (iblk0 V c 1 t) (iblk0 V c 2 t) (iblk0 V c 3 t) (P0_0 V c)).2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover0_B_0 c _ _ _ _ _ _ _ _ _ _ _ _ _ _ _ _ _ _ _ _ _)
    unfold owns; iexists _; isplitr
    swap; · iexact HW5
    ipureintro; exact View.read_writes_of_cover _ _ _ _ _ (cover0_B_1 c _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.Run1.lean ====
/-
  The second pass: one row block of  z = adj · (h · W) + b  per grid point.  The projection h · W is
  computed once, at the first grid point, into a scratch buffer that every later point only reads.
  This module runs the kernel body in its two control cases: the first point (the branch that fills the
  scratch is taken) and every later point (it is skipped, the scratch holding what the first point left).
-/
import proofs.«114016_g31997506355976_cont_9to1_2145_5_alg».proof.Proof.Gen.KernelIdeal.Launch
import proofs.«114016_g31997506355976_cont_9to1_2145_5_alg».proof.Proof.Gen.KernelIdeal.Skeleton
import proofs.«114016_g31997506355976_cont_9to1_2145_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond1 (i : grid1.Coords) : Prop :=
  (Scalar.cmpi .ne (Scalar.extui (Scalar.cmpi .eq (BitVec.ofNat 32 (i 0).val) 0#32)) 0#32) = 1#1

/-- It holds exactly at the first point of the grid. -/
theorem hcond1 : ∀ t : Fin cfg1.N, cond1 (grid1.coords t) ↔ t.val % 10 = 0 :=
  (by decide +kernel : ∀ t : Fin grid1.N, cond1 (grid1.coords t) ↔ t.val % 10 = 0)

/-- The grid's first point. -/
def tz1 : Fin cfg1.N := ⟨0, by rw [show cfg1.N = 10 from N_1]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun1_A (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (hc : cond1 i)
    (x0 : Vec F S1000x10000 .bf16) (x1 : Vec F S10000x64 .f32) (x2 : Vec F S64x64 .f32) (x3 : Vec F S1x64 .f32) :
    Σ' (L0 : List (View.Piece (Elt F) S1000x64 .f32)), { LS0 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f LS0)) -∗ K ⟨⟩))
          ⊢ wp frame (wpE (defs₀ (F := F)) Variants.none c none) E (cc1__pass2_body i arg1 harg1 arg2 harg2 arg3 harg3 arg4 harg4 arg5 harg5 arg6 harg6) K } := by
  refine ⟨?_, ?_, fun E K => ?run⟩
  case run =>
    simp only [cc1__pass2_body_eq_skeleton]; unfold cc1__pass2_body_skel
    unfold owns
    iintro ⟨⟨%f0, %hf0, H0⟩, ⟨%f1, %hf1, H1⟩, ⟨%f2, %hf2, H2⟩, ⟨%f3, %hf3, H3⟩, ⟨%do0, %fo0, -, HO0⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    iexists _; iexact HS0

set_option maxHeartbeats 4000000 in
/-- LATER POINTS.  The scratch holds what the first point left and is only read: it is handed back as it was; each
    output buffer ends with its stores written. -/
noncomputable def kernelRun1_B (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (hc : ¬cond1 i)
    (x0 : Vec F S1000x10000 .bf16) (x1 : Vec F S10000x64 .f32) (x2 : Vec F S64x64 .f32) (x3 : Vec F S1x64 .f32) (xs0 : Vec F S10000x64 .bf16) :
    { L0 : List (View.Piece (Elt F) S1000x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ owns (c : Thread nD τ) arg6 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ owns (c : Thread nD τ) arg6 fullShare xs0) -∗ K ⟨⟩))
          ⊢ wp frame (wpE (defs₀ (F := F)) Variants.none c none) E (cc1__pass2_body i arg1 harg1 arg2 harg2 arg3 harg3 arg4 harg4 arg5 harg5 arg6 harg6) K } := by
  refine ⟨?_, fun E K => ?run⟩
  case run =>
    simp only [cc1__pass2_body_eq_skeleton]; unfold cc1__pass2_body_skel
    unfold owns
    iintro ⟨⟨%f0, %hf0, H0⟩, ⟨%f1, %hf1, H1⟩, ⟨%f2, %hf2, H2⟩, ⟨%f3, %hf3, H3⟩, ⟨%do0, %fo0, -, HO0⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    iexists _; isplitr; · ipureintro; exact harg6.read_unread _
    iexact HS0

end Cert.KernelIdeal.Hand

end
-- ==== Proof.Dat1.lean ====
/-
  The second pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO1_0 : View sig .tc .vmem S1000x64 .f32 := (Memref.whole cc1_stg4_0 : Memref sig .tc .vmem S1000x64 .f32).view
/-- Scratch operand 0: a whole scoped buffer of the kernel's own. -/
abbrev scM1_0 : Memref sig .tc .vmem S10000x64 .bf16 := Memref.whole cc1_scratch0
abbrev VS1_0 : View sig .tc .vmem S10000x64 .bf16 := scM1_0.view
/-- Each window's current staging memref at point `t`, and its wholeness. -/
abbrev ms1_0 (t : Fin cfg1.N) : Memref sig .tc .vmem S1000x10000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1000x64 .f32 := win1_4.stage (cfg1.slots t 4)
abbrev hs1_4 (t : Fin cfg1.N) : (ms1_4 t).IsWhole := hstage1_4 ((cfg1.slots t 4).cast nbuf1_4)

/-- The scoped buffers of the program other than this kernel's scratch: untouched by the pass. -/
abbrev RestB1 (c : Dev nD) : sProp 𝕄 :=
  Pipeline.scopedRestBut (Ix := Unit) (Name := ℕ) (U := UR sig nD τ) (Lvl := ℕ) (Val := Elt F) spec1 c [cc1_scratch0]

/-- The scoped buffers the pipeline does not stage: the scratch at some contents, and the rest. -/
theorem scoped1_eq (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ RestB1 c) := by
  rw [scopedRest1_split]; simp only [scM1_0, owns_whole]; try rfl

/-! ## What the body's stores cover -/

section Runs
variable (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x0 : Vec F S1000x10000 .bf16) (x1 : Vec F S10000x64 .f32) (x2 : Vec F S64x64 .f32) (x3 : Vec F S1x64 .f32) (xs0 : Vec F S10000x64 .bf16)

/-- First point: output 0's stores tile its block. -/
theorem cover1_A_0 (hc : cond1 i) (y : S1000x64.Idx) : ∃ pc ∈ (kernelRun1_A c i arg1 harg1 arg2 harg2 arg3 harg3 arg4 harg4 arg5 harg5 arg6 harg6 hc x0 x1 x2 x3).1, y ∈ pc.1.set :=
  View.cover_of_tiledL (kernelRun1_A c i arg1 harg1 arg2 harg2 arg3 harg3 arg4 harg4 arg5 harg5 arg6 harg6 hc x0 x1 x2 x3).1 S1000x64.size (by sl_kernel_rfl) y
/-- Later points: output 0's stores tile its block. -/
theorem cover1_B_0 (hc : ¬cond1 i) (y : S1000x64.Idx) : ∃ pc ∈ (kernelRun1_B c i arg1 harg1 arg2 harg2 arg3 harg3 arg4 harg4 arg5 harg5 arg6 harg6 hc x0 x1 x2 x3 xs0).1, y ∈ pc.1.set :=
  View.cover_of_tiledL (kernelRun1_B c i arg1 harg1 arg2 harg2 arg3 harg3 arg4 harg4 arg5 harg5 arg6 harg6 hc x0 x1 x2 x3 xs0).1 S1000x64.size (by sl_kernel_rfl) y
/-- What the first point leaves in output 0's buffer: its pieces read back. -/
def out1_A_0 (hc : cond1 i) : Vec F S1000x64 .f32 :=
  VO1_0.read (Elt F) (VO1_0.writes (Elt F) VO1_0.junk (kernelRun1_A c i arg1 harg1 arg2 harg2 arg3 harg3 arg4 harg4 arg5 harg5 arg6 harg6 hc x0 x1 x2 x3).1)
/-- What a later point leaves in output 0's buffer, the scratch holding what it is given. -/
def out1_B_0 (hc : ¬cond1 i) : Vec F S1000x64 .f32 :=
  VO1_0.read (Elt F) (VO1_0.writes (Elt F) VO1_0.junk (kernelRun1_B c i arg1 harg1 arg2 harg2 arg3 harg3 arg4 harg4 arg5 harg5 arg6 harg6 hc x0 x1 x2 x3 xs0).1)
/-- First point: scratch 0's store covers it. -/
theorem scover1_A_0 (hc : cond1 i) (y : S10000x64.Idx) : ∃ pc ∈ (kernelRun1_A c i arg1 harg1 arg2 harg2 arg3 harg3 arg4 harg4 arg5 harg5 arg6 harg6 hc x0 x1 x2 x3).2.1, y ∈ pc.1.set :=
  View.cover_of_tiledL (kernelRun1_A c i arg1 harg1 arg2 harg2 arg3 harg3 arg4 harg4 arg5 harg5 arg6 harg6 hc x0 x1 x2 x3).2.1 S10000x64.size (by sl_kernel_rfl) y
/-- What the first point leaves in scratch 0: its pieces read back. -/
def sout1_A_0 (hc : cond1 i) : Vec F S10000x64 .bf16 :=
  VS1_0.read (Elt F) (VS1_0.writes (Elt F) VS1_0.junk (kernelRun1_A c i arg1 harg1 arg2 harg2 arg3 harg3 arg4 harg4 arg5 harg5 arg6 harg6 hc x0 x1 x2 x3).2.1)
end Runs

/-! ## The pass at the entry contents `V` -/

section Region
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The first point satisfies the branch condition. -/
theorem hc1_first : cond1 (grid1.coords tz1) := (hcond1 tz1).mpr rfl

/-- What the first point leaves in scratch 0, from the blocks it finds there. -/
def P1_0 (c : Dev nD) : Vec F S10000x64 .bf16 :=
  sout1_A_0 c (grid1.coords tz1) (ms1_0 tz1) (hs1_0 tz1) (ms1_1 tz1) (hs1_1 tz1) (ms1_2 tz1) (hs1_2 tz1) (ms1_3 tz1) (hs1_3 tz1) (ms1_4 tz1) (hs1_4 tz1) scM1_0 (Memref.isWhole_whole _) (iblk1 V c 0 tz1) (iblk1 V c 1 tz1) (iblk1 V c 2 tz1) (iblk1 V c 3 tz1) hc1_first

/-- What output window 4's staging buffer holds after the body at point `t`. -/
def outAt1_0 (c : Dev nD) (t : Fin cfg1.N) : Vec F S1000x64 .f32 :=
  if h : t.val % 10 = 0 then
    out1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) ((hcond1 t).mpr h)
  else
    out1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (P1_0 V c) (fun hc => h ((hcond1 t).mp hc))
theorem outAt1_0_A (c : Dev nD) (t : Fin cfg1.N) (h : t.val % 10 = 0) :
    outAt1_0 V c t = out1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) ((hcond1 t).mpr h) := dif_pos h
theorem outAt1_0_B (c : Dev nD) (t : Fin cfg1.N) (h : ¬t.val % 10 = 0) :
    outAt1_0 V c t = out1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (P1_0 V c) (fun hc => h ((hcond1 t).mp hc)) := dif_neg h

/-- The invariant before position `n`: the scratch at anything before the first point, at what the first point left
    afterwards; every other scoped buffer untouched. -/
def Phi1 (c : Dev nD) : ℕ → sProp 𝕄
  | 0 => iprop((∃ d, owns (c : Thread nD τ) scM1_0 fullShare d) ∗ RestB1 c)
  | _ + 1 => iprop(owns (c : Thread nD τ) scM1_0 fullShare (P1_0 V c) ∗ RestB1 c)

theorem Phi1_zero (c : Dev nD) (n : ℕ) (hz : n = 0) :
    Phi1 V c n = iprop((∃ d, owns (c : Thread nD τ) scM1_0 fullShare d) ∗ RestB1 c) := by subst hz; rfl
theorem Phi1_pos (c : Dev nD) (n : ℕ) (hz : n ≠ 0) :
    Phi1 V c n = iprop(owns (c : Thread nD τ) scM1_0 fullShare (P1_0 V c) ∗ RestB1 c) := by
  cases n with
  | zero => exact absurd rfl hz
  | succ n => rfl

/-- The proof data of the pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt1_0 V c t
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt1_0 V c t := by dsimp only [dat1]
theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4,
    show (dat1 V c).Φ t.succ = Phi1 V c (t.val + 1) from rfl, show (dat1 V c).Φ t.castSucc = Phi1 V c t.val from rfl,
    Phi1_pos V c (t.val + 1) (Nat.succ_ne_zero _)]
  have hN : t.val < 10 := lt_of_lt_of_eq t.isLt (show cfg1.N = 10 from N_1)
  by_cases h0 : t.val % 10 = 0
  · obtain rfl : t = tz1 := Fin.ext (by show t.val = 0; omega)
    rw [Phi1_zero V c (tz1 : Fin cfg1.N).val rfl, outAt1_0_A V c tz1 h0]
    unfold P1_0 sout1_A_0 out1_A_0
    iintro ⟨⟨HS0, HR⟩, Ho, ⟨%dw0, HW0⟩, ⟨%dw1, HW1⟩, ⟨%dw2, HW2⟩, ⟨%dw3, HW3⟩, ⟨%dw4, HW4⟩⟩
    iapply ((kernelRun1_A c (grid1.coords tz1) _ _ _ _ _ _ _ _ _ _ _ _ hc1_first (iblk1 V c 0 tz1) (iblk1 V c 1 tz1) (iblk1 V c 2 tz1) (iblk1 V c 3 tz1)).2.2 Set.univ _)
    isplitl [HW0]; · iexact HW0
    isplitl [HW1]; · iexact HW1
    isplitl [HW2]; · iexact HW2
    isplitl [HW3]; · iexact HW3
    isplitl [HW4]; · iexists _; iexact HW4
    isplitl [HS0]; · iexact HS0
    iintro ⟨HW0, HW1, HW2, HW3, ⟨%eo0, HW4⟩, ⟨%es0, HS0⟩⟩
    isplitl [HS0 HR]
    · isplitl [HS0]
      · unfold owns; iexists _; isplitr
        swap; · iexact HS0
        ipureintro; exact View.read_writes_of_cover _ _ _ _ _ (scover1_A_0 c _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    unfold owns; iexists _; isplitr
    swap; · iexact HW4
    ipureintro; exact View.read_writes_of_cover _ _ _ _ _ (cover1_A_0 c _ _ _ _ _ _ _ _ _ _ _ _ _ _ _ _ _ _)
  · rw [Phi1_pos V c t.val (fun hz => h0 (by rw [hz])), outAt1_0_B V c t h0]
    unfold out1_B_0
    iintro ⟨⟨HS0, HR⟩, Ho, ⟨%dw0, HW0⟩, ⟨%dw1, HW1⟩, ⟨%dw2, HW2⟩, ⟨%dw3, HW3⟩, ⟨%dw4, HW4⟩⟩
    iapply ((kernelRun1_B c (grid1.coords t) _ _ _ _ _ _ _ _ _ _ _ _ (fun hc => h0 ((hcond1 t).mp hc)) (iblk1 V c 0 t) (iblk1 V c 1 t) (iblk1 V c 2 t) (iblk1 V c 3 t) (P1_0 V c)).2 Set.univ _)
    isplitl [HW0]; · iexact HW0
    isplitl [HW1]; · iexact HW1
    isplitl [HW2]; · iexact HW2
    isplitl [HW3]; · iexact HW3
    isplitl [HW4]; · iexists _; iexact HW4
    isplitl [HS0]; · iexact HS0
    iintro ⟨HW0, HW1, HW2, HW3, ⟨%eo0, HW4⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    unfold owns; iexists _; isplitr
    swap; · iexact HW4
    ipureintro; exact View.read_writes_of_cover _ _ _ _ _ (cover1_B_0 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.Run2.lean ====
/-
  The third pass: both decoder branches at once.  One row block of  relu(adj · (z · [Wₐ | Wₛ]) + [bₐ | bₛ])  per grid point,
  its left 64 columns stored as h₂ and its right 64 as s.  The projection z · [Wₐ | Wₛ] is computed once, at the first
  grid point, into a scratch buffer that every later point only reads.
  This module runs the kernel body in its two control cases: the first point (the branch that fills the
  scratch is taken) and every later point (it is skipped, the scratch holding what the first point left).
-/
import proofs.«114016_g31997506355976_cont_9to1_2145_5_alg».proof.Proof.Gen.KernelIdeal.Launch
import proofs.«114016_g31997506355976_cont_9to1_2145_5_alg».proof.Proof.Gen.KernelIdeal.Skeleton
import proofs.«114016_g31997506355976_cont_9to1_2145_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond2 (i : grid2.Coords) : Prop :=
  (Scalar.cmpi .ne (Scalar.extui (Scalar.cmpi .eq (BitVec.ofNat 32 (i 0).val) 0#32)) 0#32) = 1#1

/-- It holds exactly at the first point of the grid. -/
theorem hcond2 : ∀ t : Fin cfg2.N, cond2 (grid2.coords t) ↔ t.val % 10 = 0 :=
  (by decide +kernel : ∀ t : Fin grid2.N, cond2 (grid2.coords t) ↔ t.val % 10 = 0)

/-- The grid's first point. -/
def tz2 : Fin cfg2.N := ⟨0, by rw [show cfg2.N = 10 from N_2]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun2_A (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (hc : cond2 i)
    (x0 : Vec F S1000x10000 .bf16) (x1 : Vec F S10000x64 .f32) (x2 : Vec F S64x128 .f32) (x3 : Vec F S1x128 .f32) :
    Σ' (L0 : List (View.Piece (Elt F) S1000x64 .f32)), Σ' (L1 : List (View.Piece (Elt F) S1000x64 .f32)), { LS0 : List (View.Piece (Elt F) S10000x128 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ (∃ f, arg7.view.loc (c : Thread nD τ) ↦[arg7.view.set]{fullShare} arg7.view.writes (Elt F) f LS0)) -∗ K ⟨⟩))
          ⊢ wp frame (wpE (defs₀ (F := F)) Variants.none c none) E (cc2__pass3_body i arg1 harg1 arg2 harg2 arg3 harg3 arg4 harg4 arg5 harg5 arg6 harg6 arg7 harg7) K } := by
  refine ⟨?_, ?_, ?_, fun E K => ?run⟩
  case run =>
    simp only [cc2__pass3_body_eq_skeleton]; unfold cc2__pass3_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; iexact HS0

set_option maxHeartbeats 4000000 in
/-- LATER POINTS.  The scratch holds what the first point left and is only read: it is handed back as it was; each
    output buffer ends with its stores written. -/
noncomputable def kernelRun2_B (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (hc : ¬cond2 i)
    (x0 : Vec F S1000x10000 .bf16) (x1 : Vec F S10000x64 .f32) (x2 : Vec F S64x128 .f32) (x3 : Vec F S1x128 .f32) (xs0 : Vec F S10000x128 .bf16) :
    Σ' (L0 : List (View.Piece (Elt F) S1000x64 .f32)), { L1 : List (View.Piece (Elt F) S1000x64 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ owns (c : Thread nD τ) arg7 fullShare xs0
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L0)
                ∗ (∃ f, arg6.view.loc (c : Thread nD τ) ↦[arg6.view.set]{fullShare} arg6.view.writes (Elt F) f L1)
                ∗ owns (c : Thread nD τ) arg7 fullShare xs0) -∗ K ⟨⟩))
          ⊢ wp frame (wpE (defs₀ (F := F)) Variants.none c none) E (cc2__pass3_body i arg1 harg1 arg2 harg2 arg3 harg3 arg4 harg4 arg5 harg5 arg6 harg6 arg7 harg7) K } := by
  refine ⟨?_, ?_, fun E K => ?run⟩
  case run =>
    simp only [cc2__pass3_body_eq_skeleton]; unfold cc2__pass3_body_skel
    unfold owns
    iintro ⟨⟨%f0, %hf0, H0⟩, ⟨%f1, %hf1, H1⟩, ⟨%f2, %hf2, H2⟩, ⟨%f3, %hf3, H3⟩, ⟨%do0, %fo0, -, HO0⟩, ⟨%do1, %fo1, -, HO1⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HO0]
    · iexists _; iexact HO0
    isplitl [HO1]
    · iexists _; iexact HO1
    iexists _; isplitr; · ipureintro; exact harg7.read_unread _
    iexact HS0

end Cert.KernelIdeal.Hand

end
-- ==== Proof.Dat2.lean ====
/-
  The third pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.Run2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 4, through which its contents are stated. -/
abbrev VO2_0 : View sig .tc .vmem S1000x64 .f32 := (Memref.whole cc2_stg4_0 : Memref sig .tc .vmem S1000x64 .f32).view
/-- One staging buffer of output window 5, through which its contents are stated. -/
abbrev VO2_1 : View sig .tc .vmem S1000x64 .f32 := (Memref.whole cc2_stg5_0 : Memref sig .tc .vmem S1000x64 .f32).view
/-- Scratch operand 0: a whole scoped buffer of the kernel's own. -/
abbrev scM2_0 : Memref sig .tc .vmem S10000x128 .bf16 := Memref.whole cc2_scratch0
abbrev VS2_0 : View sig .tc .vmem S10000x128 .bf16 := scM2_0.view
/-- Each window's current staging memref at point `t`, and its wholeness. -/
abbrev ms2_0 (t : Fin cfg2.N) : Memref sig .tc .vmem S1000x10000 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x64 .f32 := win2_5.stage (cfg2.slots t 5)
abbrev hs2_5 (t : Fin cfg2.N) : (ms2_5 t).IsWhole := hstage2_5 ((cfg2.slots t 5).cast nbuf2_5)

/-- The scoped buffers of the program other than this kernel's scratch: untouched by the pass. -/
abbrev RestB2 (c : Dev nD) : sProp 𝕄 :=
  Pipeline.scopedRestBut (Ix := Unit) (Name := ℕ) (U := UR sig nD τ) (Lvl := ℕ) (Val := Elt F) spec2 c [cc2_scratch0]

/-- The scoped buffers the pipeline does not stage: the scratch at some contents, and the rest. -/
theorem scoped2_eq (c : Dev nD) :
    (Pipeline.scopedRest (Ix := Unit) (Name := ℕ) (U := UR sig nD τ) (Lvl := ℕ) (Val := Elt F) spec2 c : sProp 𝕄)
      = iprop((∃ d, owns (c : Thread nD τ) scM2_0 fullShare d) ∗ RestB2 c) := by
  rw [scopedRest2_split]; simp only [scM2_0, owns_whole]; try rfl

/-! ## What the body's stores cover -/

section Runs
variable (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (x0 : Vec F S1000x10000 .bf16) (x1 : Vec F S10000x64 .f32) (x2 : Vec F S64x128 .f32) (x3 : Vec F S1x128 .f32) (xs0 : Vec F S10000x128 .bf16)

/-- First point: output 0's stores tile its block. -/
theorem cover2_A_0 (hc : cond2 i) (y : S1000x64.Idx) : ∃ pc ∈ (kernelRun2_A c i arg1 harg1 arg2 harg2 arg3 harg3 arg4 harg4 arg5 harg5 arg6 harg6 arg7 harg7 hc x0 x1 x2 x3).1, y ∈ pc.1.set :=
  View.cover_of_tiledL (kernelRun2_A c i arg1 harg1 arg2 harg2 arg3 harg3 arg4 harg4 arg5 harg5 arg6 harg6 arg7 harg7 hc x0 x1 x2 x3).1 S1000x64.size (by sl_kernel_rfl) y
/-- Later points: output 0's stores tile its block. -/
theorem cover2_B_0 (hc : ¬cond2 i) (y : S1000x64.Idx) : ∃ pc ∈ (kernelRun2_B c i arg1 harg1 arg2 harg2 arg3 harg3 arg4 harg4 arg5 harg5 arg6 harg6 arg7 harg7 hc x0 x1 x2 x3 xs0).1, y ∈ pc.1.set :=
  View.cover_of_tiledL (kernelRun2_B c i arg1 harg1 arg2 harg2 arg3 harg3 arg4 harg4 arg5 harg5 arg6 harg6 arg7 harg7 hc x0 x1 x2 x3 xs0).1 S1000x64.size (by sl_kernel_rfl) y
/-- What the first point leaves in output 0's buffer: its pieces read back. -/
def out2_A_0 (hc : cond2 i) : Vec F S1000x64 .f32 :=
  VO2_0.read (Elt F) (VO2_0.writes (Elt F) VO2_0.junk (kernelRun2_A c i arg1 harg1 arg2 harg2 arg3 harg3 arg4 harg4 arg5 harg5 arg6 harg6 arg7 harg7 hc x0 x1 x2 x3).1)
/-- What a later point leaves in output 0's buffer, the scratch holding what it is given. -/
def out2_B_0 (hc : ¬cond2 i) : Vec F S1000x64 .f32 :=
  VO2_0.read (Elt F) (VO2_0.writes (Elt F) VO2_0.junk (kernelRun2_B c i arg1 harg1 arg2 harg2 arg3 harg3 arg4 harg4 arg5 harg5 arg6 harg6 arg7 harg7 hc x0 x1 x2 x3 xs0).1)
/-- First point: output 1's stores tile its block. -/
theorem cover2_A_1 (hc : cond2 i) (y : S1000x64.Idx) : ∃ pc ∈ (kernelRun2_A c i arg1 harg1 arg2 harg2 arg3 harg3 arg4 harg4 arg5 harg5 arg6 harg6 arg7 harg7 hc x0 x1 x2 x3).2.1, y ∈ pc.1.set :=
  View.cover_of_tiledL (kernelRun2_A c i arg1 harg1 arg2 harg2 arg3 harg3 arg4 harg4 arg5 harg5 arg6 harg6 arg7 harg7 hc x0 x1 x2 x3).2.1 S1000x64.size (by sl_kernel_rfl) y
/-- Later points: output 1's stores tile its block. -/
theorem cover2_B_1 (hc : ¬cond2 i) (y : S1000x64.Idx) : ∃ pc ∈ (kernelRun2_B c i arg1 harg1 arg2 harg2 arg3 harg3 arg4 harg4 arg5 harg5 arg6 harg6 arg7 harg7 hc x0 x1 x2 x3 xs0).2.1, y ∈ pc.1.set :=
  View.cover_of_tiledL (kernelRun2_B c i arg1 harg1 arg2 harg2 arg3 harg3 arg4 harg4 arg5 harg5 arg6 harg6 arg7 harg7 hc x0 x1 x2 x3 xs0).2.1 S1000x64.size (by sl_kernel_rfl) y
/-- What the first point leaves in output 1's buffer: its pieces read back. -/
def out2_A_1 (hc : cond2 i) : Vec F S1000x64 .f32 :=
  VO2_1.read (Elt F) (VO2_1.writes (Elt F) VO2_1.junk (kernelRun2_A c i arg1 harg1 arg2 harg2 arg3 harg3 arg4 harg4 arg5 harg5 arg6 harg6 arg7 harg7 hc x0 x1 x2 x3).2.1)
/-- What a later point leaves in output 1's buffer, the scratch holding what it is given. -/
def out2_B_1 (hc : ¬cond2 i) : Vec F S1000x64 .f32 :=
  VO2_1.read (Elt F) (VO2_1.writes (Elt F) VO2_1.junk (kernelRun2_B c i arg1 harg1 arg2 harg2 arg3 harg3 arg4 harg4 arg5 harg5 arg6 harg6 arg7 harg7 hc x0 x1 x2 x3 xs0).2.1)
/-- First point: scratch 0's store covers it. -/
theorem scover2_A_0 (hc : cond2 i) (y : S10000x128.Idx) : ∃ pc ∈ (kernelRun2_A c i arg1 harg1 arg2 harg2 arg3 harg3 arg4 harg4 arg5 harg5 arg6 harg6 arg7 harg7 hc x0 x1 x2 x3).2.2.1, y ∈ pc.1.set :=
  View.cover_of_tiledL (kernelRun2_A c i arg1 harg1 arg2 harg2 arg3 harg3 arg4 harg4 arg5 harg5 arg6 harg6 arg7 harg7 hc x0 x1 x2 x3).2.2.1 S10000x128.size (by sl_kernel_rfl) y
/-- What the first point leaves in scratch 0: its pieces read back. -/
def sout2_A_0 (hc : cond2 i) : Vec F S10000x128 .bf16 :=
  VS2_0.read (Elt F) (VS2_0.writes (Elt F) VS2_0.junk (kernelRun2_A c i arg1 harg1 arg2 harg2 arg3 harg3 arg4 harg4 arg5 harg5 arg6 harg6 arg7 harg7 hc x0 x1 x2 x3).2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The first point satisfies the branch condition. -/
theorem hc2_first : cond2 (grid2.coords tz2) := (hcond2 tz2).mpr rfl

/-- What the first point leaves in scratch 0, from the blocks it finds there. -/
def P2_0 (c : Dev nD) : Vec F S10000x128 .bf16 :=
  sout2_A_0 c (grid2.coords tz2) (ms2_0 tz2) (hs2_0 tz2) (ms2_1 tz2) (hs2_1 tz2) (ms2_2 tz2) (hs2_2 tz2) (ms2_3 tz2) (hs2_3 tz2) (ms2_4 tz2) (hs2_4 tz2) (ms2_5 tz2) (hs2_5 tz2) scM2_0 (Memref.isWhole_whole _) (iblk2 V c 0 tz2) (iblk2 V c 1 tz2) (iblk2 V c 2 tz2) (iblk2 V c 3 tz2) hc2_first

/-- What output window 4's staging buffer holds after the body at point `t`. -/
def outAt2_0 (c : Dev nD) (t : Fin cfg2.N) : Vec F S1000x64 .f32 :=
  if h : t.val % 10 = 0 then
    out2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)
  else
    out2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))
theorem outAt2_0_A (c : Dev nD) (t : Fin cfg2.N) (h : t.val % 10 = 0) :
    outAt2_0 V c t = out2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h) := dif_pos h
theorem outAt2_0_B (c : Dev nD) (t : Fin cfg2.N) (h : ¬t.val % 10 = 0) :
    outAt2_0 V c t = out2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc)) := dif_neg h

/-- What output window 5's staging buffer holds after the body at point `t`. -/
def outAt2_1 (c : Dev nD) (t : Fin cfg2.N) : Vec F S1000x64 .f32 :=
  if h : t.val % 10 = 0 then
    out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)
  else
    out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))
theorem outAt2_1_A (c : Dev nD) (t : Fin cfg2.N) (h : t.val % 10 = 0) :
    outAt2_1 V c t = out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h) := dif_pos h
theorem outAt2_1_B (c : Dev nD) (t : Fin cfg2.N) (h : ¬t.val % 10 = 0) :
    outAt2_1 V c t = out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc)) := dif_neg h

/-- The invariant before position `n`: the scratch at anything before the first point, at what the first point left
    afterwards; every other scoped buffer untouched. -/
def Phi2 (c : Dev nD) : ℕ → sProp 𝕄
  | 0 => iprop((∃ d, owns (c : Thread nD τ) scM2_0 fullShare d) ∗ RestB2 c)
  | _ + 1 => iprop(owns (c : Thread nD τ) scM2_0 fullShare (P2_0 V c) ∗ RestB2 c)

theorem Phi2_zero (c : Dev nD) (n : ℕ) (hz : n = 0) :
    Phi2 V c n = iprop((∃ d, owns (c : Thread nD τ) scM2_0 fullShare d) ∗ RestB2 c) := by subst hz; rfl
theorem Phi2_pos (c : Dev nD) (n : ℕ) (hz : n ≠ 0) :
    Phi2 V c n = iprop(owns (c : Thread nD τ) scM2_0 fullShare (P2_0 V c) ∗ RestB2 c) := by
  cases n with
  | zero => exact absurd rfl hz
  | succ n => rfl

/-- The proof data of the pass on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2_0 V c t
    | ⟨5, _⟩ => outAt2_1 V c t
  Φ t := Phi2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2_0 V c t := by dsimp only [dat2]
theorem after2_5 (c : Dev nD) (t : Fin cfg2.N) : (dat2 V c).after 5 t = outAt2_1 V c t := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    after2_0, after2_1, after2_2, after2_3, after2_4, after2_5,
    show (dat2 V c).Φ t.succ = Phi2 V c (t.val + 1) from rfl, show (dat2 V c).Φ t.castSucc = Phi2 V c t.val from rfl,
    Phi2_pos V c (t.val + 1) (Nat.succ_ne_zero _)]
  have hN : t.val < 10 := lt_of_lt_of_eq t.isLt (show cfg2.N = 10 from N_2)
  by_cases h0 : t.val % 10 = 0
  · obtain rfl : t = tz2 := Fin.ext (by show t.val = 0; omega)
    rw [Phi2_zero V c (tz2 : Fin cfg2.N).val rfl, outAt2_0_A V c tz2 h0, outAt2_1_A V c tz2 h0]
    unfold P2_0 sout2_A_0 out2_A_0 out2_A_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun2_A c (grid2.coords tz2) _ _ _ _ _ _ _ _ _ _ _ _ _ _ hc2_first (iblk2 V c 0 tz2) (iblk2 V c 1 tz2) (iblk2 V c 2 tz2) (iblk2 V c 3 tz2)).2.2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, ⟨%es0, HS0⟩⟩
    isplitl [HS0 HR]
    · isplitl [HS0]
      · unfold owns; iexists _; isplitr
        swap; · iexact HS0
        ipureintro; exact View.read_writes_of_cover _ _ _ _ _ (scover2_A_0 c _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover2_A_0 c _ _ _ _ _ _ _ _ _ _ _ _ _ _ _ _ _ _ _ _)
    unfold owns; iexists _; isplitr
    swap; · iexact HW5
    ipureintro; exact View.read_writes_of_cover _ _ _ _ _ (cover2_A_1 c _ _ _ _ _ _ _ _ _ _ _ _ _ _ _ _ _ _ _ _)
  · rw [Phi2_pos V c t.val (fun hz => h0 (by rw [hz])), outAt2_0_B V c t h0, outAt2_1_B V c t h0]
    unfold out2_B_0 out2_B_1
    iintro ⟨⟨HS0, HR⟩, Ho, ⟨%dw0, HW0⟩, ⟨%dw1, HW1⟩, ⟨%dw2, HW2⟩, ⟨%dw3, HW3⟩, ⟨%dw4, HW4⟩, ⟨%dw5, HW5⟩⟩
    iapply ((kernelRun2_B c (grid2.coords t) _ _ _ _ _ _ _ _ _ _ _ _ _ _ (fun hc => h0 ((hcond2 t).mp hc)) (iblk2 V c 0 t) (iblk2 V c 1 t) (iblk2 V c 2 t) (iblk2 V c 3 t) (P2_0 V c)).2.2 Set.univ _)
    isplitl [HW0]; · iexact HW0
    isplitl [HW1]; · iexact HW1
    isplitl [HW2]; · iexact HW2
    isplitl [HW3]; · iexact HW3
    isplitl [HW4]; · iexists _; iexact HW4
    isplitl [HW5]; · iexists _; iexact HW5
    isplitl [HS0]; · iexact HS0
    iintro ⟨HW0, HW1, HW2, HW3, ⟨%eo0, HW4⟩, ⟨%eo1, HW5⟩, HS0⟩
    isplitl [HS0 HR]
    · isplitl [HS0]
      · iexact HS0
      iexact HR
    isplitl [Ho]; · iexact Ho
    isplitl [HW0]; · iexact HW0
    isplitl [HW1]; · iexact HW1
    isplitl [HW2]; · iexact HW2
    isplitl [HW3]; · iexact HW3
    isplitl [HW4]
    · unfold owns; iexists _; isplitr
      swap; · iexact HW4
      ipureintro; exact View.read_writes_of_cover _ _ _ _ _ (cover2_B_0 c _ _ _ _ _ _ _ _ _ _ _ _ _ _ _ _ _ _ _ _ _)
    unfold owns; iexists _; isplitr
    swap; · iexact HW5
    ipureintro; exact View.read_writes_of_cover _ _ _ _ _ (cover2_B_1 c _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Hand

end
-- ==== Proof.Run3.lean ====
/-
  The fourth pass: one row block of  x̂ = adj · (h₂ · W) + b  and the matching row block of  â = logistic(s · sᵀ)  per grid
  point.  The projection h₂ · W and a copy of s are written once, at the first grid point, into two scratch buffers that
  every later point only reads (the row block of s is read out of the copy at the point's row offset).
  This module runs the kernel body in its two control cases: the first point (the branch that fills the
  scratch is taken) and every later point (it is skipped, the scratch holding what the first point left).
-/
import proofs.«114016_g31997506355976_cont_9to1_2145_5_alg».proof.Proof.Gen.KernelIdeal.Launch
import proofs.«114016_g31997506355976_cont_9to1_2145_5_alg».proof.Proof.Gen.KernelIdeal.Skeleton
import proofs.«114016_g31997506355976_cont_9to1_2145_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: "this is the first row block". -/
abbrev cond3 (i : grid3.Coords) : Prop :=
  (Scalar.cmpi .ne (Scalar.extui (Scalar.cmpi .eq (BitVec.ofNat 32 (i 0).val) 0#32)) 0#32) = 1#1

/-- It holds exactly at the first point of the grid. -/
theorem hcond3 : ∀ t : Fin cfg3.N, cond3 (grid3.coords t) ↔ t.val % 50 = 0 :=
  (by decide +kernel : ∀ t : Fin grid3.N, cond3 (grid3.coords t) ↔ t.val % 50 = 0)

/-- The grid's first point. -/
def tz3 : Fin cfg3.N := ⟨0, by rw [show cfg3.N = 50 from N_3]; decide⟩

set_option maxHeartbeats 4000000 in
/-- FIRST POINT.  From the input buffers at their contents, the output buffers and the scratch at anything, the body
    runs to its return leaving the inputs as they were and each output buffer and each scratch buffer with its
    stores written (the pieces found by running it). -/
noncomputable def kernelRun3_A (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (hc : cond3 i)
    (x0 : Vec F S200x10000 .bf16) (x1 : Vec F S10000x64 .f32) (x2 : Vec F S10000x64 .f32) (x3 : Vec F S64x128 .f32) (x4 : Vec F S1x128 .f32) :
    Σ' (L0 : List (View.Piece (Elt F) S200x128 .f32)), Σ' (L1 : List (View.Piece (Elt F) S200x10000 .f32)), Σ' (LS0 : List (View.Piece (Elt F) S10000x128 .bf16)), { LS1 : List (View.Piece (Elt F) S10000x64 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L0)
                ∗ (∃ f, arg7.view.loc (c : Thread nD τ) ↦[arg7.view.set]{fullShare} arg7.view.writes (Elt F) f L1)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc3__pass4_body i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc3__pass4_body_eq_skeleton]; unfold cc3__pass4_body_skel
    unfold owns
    iintro ⟨⟨%f0, %hf0, H0⟩, ⟨%f1, %hf1, H1⟩, ⟨%f2, %hf2, H2⟩, ⟨%f3, %hf3, H3⟩, ⟨%f4, %hf4, H4⟩, ⟨%do0, %fo0, -, HO0⟩, ⟨%do1, %fo1, -, HO1⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO0]
    · iexists _; iexact HO0
    isplitl [HO1]
    · iexists _; iexact HO1
    isplitl [HS0]
    · iexists _; iexact HS0
    iexists _; iexact HS1

set_option maxHeartbeats 4000000 in
/-- LATER POINTS.  The scratch holds what the first point left and is only read: it is handed back as it was; each
    output buffer ends with its stores written. -/
noncomputable def kernelRun3_B (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (hc : ¬cond3 i)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16) :
    Σ' (L0 : List (View.Piece (Elt F) S200x128 .f32)), { L1 : List (View.Piece (Elt F) S200x10000 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L0)
                ∗ (∃ f, arg7.view.loc (c : Thread nD τ) ↦[arg7.view.set]{fullShare} arg7.view.writes (Elt F) f L1)
                ∗ owns (c : Thread nD τ) arg8 fullShare xs0
                ∗ owns (c : Thread nD τ) arg9 fullShare xs1) -∗ K ⟨⟩))
          ⊢ wp frame (wpE (defs₀ (F := F)) Variants.none c none) E (cc3__pass4_body i arg1 harg1 arg2 harg2 arg3 harg3 arg4 harg4 arg5 harg5 arg6 harg6 arg7 harg7 arg8 harg8 arg9 harg9) K } := by
  refine ⟨?_, ?_, fun E K => ?run⟩
  case run =>
    simp only [cc3__pass4_body_eq_skeleton]; unfold cc3__pass4_body_skel
    unfold owns
    iintro ⟨⟨%f0, %hf0, H0⟩, ⟨%f1, %hf1, H1⟩, ⟨%f2, %hf2, H2⟩, ⟨%f3, %hf3, H3⟩, ⟨%f4, %hf4, H4⟩, ⟨%do0, %fo0, -, HO0⟩, ⟨%do1, %fo1, -, HO1⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4
    obtain rfl := harg8.eq_unread hfs0; obtain rfl := harg9.eq_unread hfs1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HO0]
    · iexists _; iexact HO0
    isplitl [HO1]
    · iexists _; iexact HO1
    isplitl [HS0]
    · iexists _; isplitr; · ipureintro; exact harg8.read_unread _
      iexact HS0
    iexists _; isplitr; · ipureintro; exact harg9.read_unread _
    iexact HS1

end Cert.KernelIdeal.Hand

end
-- ==== Proof.Dat3.lean ====
/-
  The fourth pass, continued: the proof data of its pipeline.  The arrays are what the pass finds on entry (a
  parameter `V`); after the body at a point each input buffer holds its block and each output buffer what the body
  stored, the scratch holding what the first point left in it; between points the scratch is held at anything before
  the first point and at that projection afterwards.  Then the body obligation at every point: the first point runs
  the branch that fills the scratch, every later point only reads it.
-/
import proofs.«114016_g31997506355976_cont_9to1_2145_5_alg».proof.Proof.Run3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Memrefs and views -/

/-- One staging buffer of output window 5, through which its contents are stated. -/
abbrev VO3_0 : View sig .tc .vmem S200x128 .f32 := (Memref.whole cc3_stg5_0 : Memref sig .tc .vmem S200x128 .f32).view
/-- One staging buffer of output window 6, through which its contents are stated. -/
abbrev VO3_1 : View sig .tc .vmem S200x10000 .f32 := (Memref.whole cc3_stg6_0 : Memref sig .tc .vmem S200x10000 .f32).view
/-- Scratch operand 0: a whole scoped buffer of the kernel's own. -/
abbrev scM3_0 : Memref sig .tc .vmem S10000x128 .bf16 := Memref.whole cc3_scratch0
abbrev VS3_0 : View sig .tc .vmem S10000x128 .bf16 := scM3_0.view
/-- Scratch operand 1: a whole scoped buffer of the kernel's own. -/
abbrev scM3_1 : Memref sig .tc .vmem S10000x64 .bf16 := Memref.whole cc3_scratch1
abbrev VS3_1 : View sig .tc .vmem S10000x64 .bf16 := scM3_1.view
/-- Each window's current staging memref at point `t`, and its wholeness. -/
abbrev ms3_0 (t : Fin cfg3.N) : Memref sig .tc .vmem S200x10000 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S10000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S10000x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S200x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S200x10000 .f32 := win3_6.stage (cfg3.slots t 6)
abbrev hs3_6 (t : Fin cfg3.N) : (ms3_6 t).IsWhole := hstage3_6 ((cfg3.slots t 6).cast nbuf3_6)

/-- The scoped buffers of the program other than this kernel's scratch: untouched by the pass. -/
abbrev RestB3 (c : Dev nD) : sProp 𝕄 :=
  Pipeline.scopedRestBut (Ix := Unit) (Name := ℕ) (U := UR sig nD τ) (Lvl := ℕ) (Val := Elt F) spec3 c [cc3_scratch0, cc3_scratch1]

/-- The scoped buffers the pipeline does not stage: the scratch at some contents, and the rest. -/
theorem scoped3_eq (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d)) ∗ RestB3 c) := by
  rw [scopedRest3_split]; simp only [scM3_0, scM3_1, owns_whole]; try rfl

/-! ## What the body's stores cover -/

section Runs
variable (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16)

/-- First point: output 0's stores tile its block. -/
theorem cover3_A_0 (hc : cond3 i) (y : S200x128.Idx) : ∃ pc ∈ (kernelRun3_A c i arg1 harg1 arg2 harg2 arg3 harg3 arg4 harg4 arg5 harg5 arg6 harg6 arg7 harg7 arg8 harg8 arg9 harg9 hc x0 x1 x2 x3 x4).1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).1 S200x128.size (by sl_kernel_rfl) y
/-- Later points: output 0's stores tile its block. -/
theorem cover3_B_0 (hc : ¬cond3 i) (y : S200x128.Idx) : ∃ pc ∈ (kernelRun3_B c i arg1 harg1 arg2 harg2 arg3 harg3 arg4 harg4 arg5 harg5 arg6 harg6 arg7 harg7 arg8 harg8 arg9 harg9 hc x0 x1 x2 x3 x4 xs0 xs1).1, y ∈ pc.1.set :=
  View.cover_of_tiledL (kernelRun3_B c i arg1 harg1 arg2 harg2 arg3 harg3 arg4 harg4 arg5 harg5 arg6 harg6 arg7 harg7 arg8 harg8 arg9 harg9 hc x0 x1 x2 x3 x4 xs0 xs1).1 S200x128.size (by sl_kernel_rfl) y
/-- What the first point leaves in output 0's buffer: its pieces read back. -/
def out3_A_0 (hc : cond3 i) : Vec F S200x128 .f32 :=
  VO3_0.read (Elt F) (VO3_0.writes (Elt F) VO3_0.junk (kernelRun3_A c i arg1 harg1 arg2 harg2 arg3 harg3 arg4 harg4 arg5 harg5 arg6 harg6 arg7 harg7 arg8 harg8 arg9 harg9 hc x0 x1 x2 x3 x4).1)
/-- What a later point leaves in output 0's buffer, the scratch holding what it is given. -/
def out3_B_0 (hc : ¬cond3 i) : Vec F S200x128 .f32 :=
  VO3_0.read (Elt F) (VO3_0.writes (Elt F) VO3_0.junk (kernelRun3_B c i arg1 harg1 arg2 harg2 arg3 harg3 arg4 harg4 arg5 harg5 arg6 harg6 arg7 harg7 arg8 harg8 arg9 harg9 hc x0 x1 x2 x3 x4 xs0 xs1).1)
/-- First point: output 1's stores tile its block. -/
theorem cover3_A_1 (hc : cond3 i) (y : S200x10000.Idx) : ∃ pc ∈ (kernelRun3_A c i arg1 harg1 arg2 harg2 arg3 harg3 arg4 harg4 arg5 harg5 arg6 harg6 arg7 harg7 arg8 harg8 arg9 harg9 hc x0 x1 x2 x3 x4).2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.1 S200x10000.size (by sl_kernel_rfl) y
/-- Later points: output 1's stores tile its block. -/
theorem cover3_B_1 (hc : ¬cond3 i) (y : S200x10000.Idx) : ∃ pc ∈ (kernelRun3_B c i arg1 harg1 arg2 harg2 arg3 harg3 arg4 harg4 arg5 harg5 arg6 harg6 arg7 harg7 arg8 harg8 arg9 harg9 hc x0 x1 x2 x3 x4 xs0 xs1).2.1, y ∈ pc.1.set :=
  View.cover_of_tiledL (kernelRun3_B c i arg1 harg1 arg2 harg2 arg3 harg3 arg4 harg4 arg5 harg5 arg6 harg6 arg7 harg7 arg8 harg8 arg9 harg9 hc x0 x1 x2 x3 x4 xs0 xs1).2.1 S200x10000.size (by sl_kernel_rfl) y
/-- What the first point leaves in output 1's buffer: its pieces read back. -/
def out3_A_1 (hc : cond3 i) : Vec F S200x10000 .f32 :=
  VO3_1.read (Elt F) (VO3_1.writes (Elt F) VO3_1.junk (kernelRun3_A c i arg1 harg1 arg2 harg2 arg3 harg3 arg4 harg4 arg5 harg5 arg6 harg6 arg7 harg7 arg8 harg8 arg9 harg9 hc x0 x1 x2 x3 x4).2.1)
/-- What a later point leaves in output 1's buffer, the scratch holding what it is given. -/
def out3_B_1 (hc : ¬cond3 i) : Vec F S200x10000 .f32 :=
  VO3_1.read (Elt F) (VO3_1.writes (Elt F) VO3_1.junk (kernelRun3_B c i arg1 harg1 arg2 harg2 arg3 harg3 arg4 harg4 arg5 harg5 arg6 harg6 arg7 harg7 arg8 harg8 arg9 harg9 hc x0 x1 x2 x3 x4 xs0 xs1).2.1)
/-- First point: scratch 0's store covers it. -/
theorem scover3_A_0 (hc : cond3 i) (y : S10000x128.Idx) : ∃ pc ∈ (kernelRun3_A c i arg1 harg1 arg2 harg2 arg3 harg3 arg4 harg4 arg5 harg5 arg6 harg6 arg7 harg7 arg8 harg8 arg9 harg9 hc x0 x1 x2 x3 x4).2.2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.2.1 S10000x128.size (by sl_kernel_rfl) y
/-- What the first point leaves in scratch 0: its pieces read back. -/
def sout3_A_0 (hc : cond3 i) : Vec F S10000x128 .bf16 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc x0 x1 x2 x3 x4).2.2.1)
/-- First point: scratch 1's store covers it. -/
theorem scover3_A_1 (hc : cond3 i) (y : S10000x64.Idx) : ∃ pc ∈ (kernelRun3_A c i arg1 harg1 arg2 harg2 arg3 harg3 arg4 harg4 arg5 harg5 arg6 harg6 arg7 harg7 arg8 harg8 arg9 harg9 hc x0 x1 x2 x3 x4).2.2.2.1, y ∈ pc.1.set :=
  View.cover_of_tiledL (kernelRun3_A c i arg1 harg1 arg2 harg2 arg3 harg3 arg4 harg4 arg5 harg5 arg6 harg6 arg7 harg7 arg8 harg8 arg9 harg9 hc x0 x1 x2 x3 x4).2.2.2.1 S10000x64.size (by sl_kernel_rfl) y
/-- What the first point leaves in scratch 1: its pieces read back. -/
def sout3_A_1 (hc : cond3 i) : Vec F S10000x64 .bf16 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc x0 x1 x2 x3 x4).2.2.2.1)
end Runs

/-! ## The pass at the entry contents `V` -/

section Region
variable (V : (c : Dev nD) → (b : Ref sig .tc) → Buf (Elt F) ((c : Thread nD τ).loc b))

/-- Window `w`'s block at point `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The first point satisfies the branch condition. -/
theorem hc3_first : cond3 (grid3.coords tz3) := (hcond3 tz3).mpr rfl

/-- What the first point leaves in scratch 0, from the blocks it finds there. -/
def P3_0 (c : Dev nD) : Vec F S10000x128 .bf16 :=
  sout3_A_0 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first
/-- What the first point leaves in scratch 1, from the blocks it finds there. -/
def P3_1 (c : Dev nD) : Vec F S10000x64 .bf16 :=
  sout3_A_1 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first

/-- What output window 5's staging buffer holds after the body at point `t`. -/
def outAt3_0 (c : Dev nD) (t : Fin cfg3.N) : Vec F S200x128 .f32 :=
  if h : t.val % 50 = 0 then
    out3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h)
  else
    out3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc))
theorem outAt3_0_A (c : Dev nD) (t : Fin cfg3.N) (h : t.val % 50 = 0) :
    outAt3_0 V c t = out3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h) := dif_pos h
theorem outAt3_0_B (c : Dev nD) (t : Fin cfg3.N) (h : ¬t.val % 50 = 0) :
    outAt3_0 V c t = out3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc)) := dif_neg h

/-- What output window 6's staging buffer holds after the body at point `t`. -/
def outAt3_1 (c : Dev nD) (t : Fin cfg3.N) : Vec F S200x10000 .f32 :=
  if h : t.val % 50 = 0 then
    out3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h)
  else
    out3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc))
theorem outAt3_1_A (c : Dev nD) (t : Fin cfg3.N) (h : t.val % 50 = 0) :
    outAt3_1 V c t = out3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h) := dif_pos h
theorem outAt3_1_B (c : Dev nD) (t : Fin cfg3.N) (h : ¬t.val % 50 = 0) :
    outAt3_1 V c t = out3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc)) := dif_neg h

/-- The invariant before position `n`: the scratch at anything before the first point, at what the first point left
    afterwards; every other scoped buffer untouched. -/
def Phi3 (c : Dev nD) : ℕ → sProp 𝕄
  | 0 => iprop(iprop((∃ d, owns (c : Thread nD τ) scM3_0 fullShare d) ∗ (∃ d, owns (c : Thread nD τ) scM3_1 fullShare d)) ∗ RestB3 c)
  | _ + 1 => iprop(iprop(owns (c : Thread nD τ) scM3_0 fullShare (P3_0 V c) ∗ owns (c : Thread nD τ) scM3_1 fullShare (P3_1 V c)) ∗ RestB3 c)

theorem Phi3_zero (c : Dev nD) (n : ℕ) (hz : n = 0) :
    Phi3 V c n = iprop(iprop((∃ d, owns (c : Thread nD τ) scM3_0 fullShare d) ∗ (∃ d, owns (c : Thread nD τ) scM3_1 fullShare d)) ∗ RestB3 c) := by subst hz; rfl
theorem Phi3_pos (c : Dev nD) (n : ℕ) (hz : n ≠ 0) :
    Phi3 V c n = iprop(iprop(owns (c : Thread nD τ) scM3_0 fullShare (P3_0 V c) ∗ owns (c : Thread nD τ) scM3_1 fullShare (P3_1 V c)) ∗ RestB3 c) := by
  cases n with
  | zero => exact absurd rfl hz
  | succ n => rfl

/-- The proof data of the pass on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outAt3_0 V c t
    | ⟨6, _⟩ => outAt3_1 V c t
  Φ t := Phi3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outAt3_0 V c t := by dsimp only [dat3]
theorem after3_6 (c : Dev nD) (t : Fin cfg3.N) : (dat3 V c).after 6 t = outAt3_1 V c t := by dsimp only [dat3]
theorem before3_0 (c : Dev nD) (t : Fin cfg3.N) (d) : (dat3 V c).before 0 t d = iblk3 V c 0 t := before3_0_of V (dat3 V c) (A_eq3 V c 0) (after3_0 V c) t d
theorem before3_1 (c : Dev nD) (t : Fin cfg3.N) (d) : (dat3 V c).before 1 t d = iblk3 V c 1 t := before3_1_of V (dat3 V c) (A_eq3 V c 1) (after3_1 V c) t d
theorem before3_2 (c : Dev nD) (t : Fin cfg3.N) (d) : (dat3 V c).before 2 t d = iblk3 V c 2 t := before3_2_of V (dat3 V c) (A_eq3 V c 2) (after3_2 V c) t d
theorem before3_3 (c : Dev nD) (t : Fin cfg3.N) (d) : (dat3 V c).before 3 t d = iblk3 V c 3 t := before3_3_of V (dat3 V c) (A_eq3 V c 3) (after3_3 V c) t d
theorem before3_4 (c : Dev nD) (t : Fin cfg3.N) (d) : (dat3 V c).before 4 t d = iblk3 V c 4 t := before3_4_of V (dat3 V c) (A_eq3 V c 4) (after3_4 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

set_option maxHeartbeats 4000000 in
/-- The body at any point: the inputs' buffers hold their blocks; at the first point the run that fills the scratch
    applies, the invariant handing the scratch over at anything and taking it back at what was stored; at a later point
    the run that only reads it, the scratch handed over and taken back at what the first point left. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl,
    after3_0, after3_1, after3_2, after3_3, after3_4, after3_5, after3_6,
    show (dat3 V c).Φ t.succ = Phi3 V c (t.val + 1) from rfl, show (dat3 V c).Φ t.castSucc = Phi3 V c t.val from rfl,
    Phi3_pos V c (t.val + 1) (Nat.succ_ne_zero _)]
  have hN : t.val < 50 := lt_of_lt_of_eq t.isLt (show cfg3.N = 50 from N_3)
  by_cases h0 : t.val % 50 = 0
  · obtain rfl : t = tz3 := Fin.ext (by show t.val = 0; omega)
    rw [Phi3_zero V c (tz3 : Fin cfg3.N).val rfl, outAt3_0_A V c tz3 h0, outAt3_1_A V c tz3 h0]
    unfold P3_0 P3_1 sout3_A_0 sout3_A_1 out3_A_0 out3_A_1
    iintro ⟨⟨⟨HS0, HS1⟩, HR⟩, Ho, ⟨%dw0, HW0⟩, ⟨%dw1, HW1⟩, ⟨%dw2, HW2⟩, ⟨%dw3, HW3⟩, ⟨%dw4, HW4⟩, ⟨%dw5, HW5⟩, ⟨%dw6, HW6⟩⟩
    iapply ((kernelRun3_A c (grid3.coords tz3) _ _ _ _ _ _ _ _ _ _ _ _ _ _ _ _ _ _ hc3_first (iblk3 V c 0 tz3) (iblk3 V c 1 tz3) (iblk3 V c 2 tz3) (iblk3 V c 3 tz3) (iblk3 V c 4 tz3)).2.2.2.2 Set.univ _)
    isplitl [HW0]; · iexact HW0
    isplitl [HW1]; · iexact HW1
    isplitl [HW2]; · iexact HW2
    isplitl [HW3]; · iexact HW3
    isplitl [HW4]; · iexact HW4
    isplitl [HW5]; · iexists _; iexact HW5
    isplitl [HW6]; · iexists _; iexact HW6
    isplitl [HS0]; · iexact HS0
    isplitl [HS1]; · iexact HS1
    iintro ⟨HW0, HW1, HW2, HW3, HW4, ⟨%eo0, HW5⟩, ⟨%eo1, HW6⟩, ⟨%es0, HS0⟩, ⟨%es1, HS1⟩⟩
    isplitl [HS0 HS1 HR]
    · isplitl [HS0 HS1]
      · isplitl [HS0]
        · unfold owns; iexists _; isplitr
          swap; · iexact HS0
          ipureintro; exact View.read_writes_of_cover _ _ _ _ _ (scover3_A_0 c _ _ _ _ _ _ _ _ _ _ _ _ _ _ _ _ _ _ _ _ _ _ _ _ _)
        unfold owns; iexists _; isplitr
        swap; · iexact HS1
        ipureintro; exact View.read_writes_of_cover _ _ _ _ _ (scover3_A_1 c _ _ _ _ _ _ _ _ _ _ _ _ _ _ _ _ _ _ _ _ _ _ _ _ _)
      iexact HR
    isplitl [Ho]; · iexact Ho
    isplitl [HW0]; · iexact HW0
    isplitl [HW1]; · iexact HW1
    isplitl [HW2]; · iexact HW2
    isplitl [HW3]; · iexact HW3
    isplitl [HW4]; · iexact HW4
    isplitl [HW5]
    · unfold owns; iexists _; isplitr
      swap; · iexact HW5
      ipureintro; exact View.read_writes_of_cover _ _ _ _ _ (cover3_A_0 c _ _ _ _ _ _ _ _ _ _ _ _ _ _ _ _ _ _ _ _ _ _ _ _ _)
    unfold owns; iexists _; isplitr
    swap; · iexact HW6
    ipureintro; exact View.read_writes_of_cover _ _ _ _ _ (cover3_A_1 c _ _ _ _ _ _ _ _ _ _ _ _ _ _ _ _ _ _ _ _ _ _ _ _ _)
  · rw [Phi3_pos V c t.val (fun hz => h0 (by rw [hz])), outAt3_0_B V c t h0, outAt3_1_B V c t h0]
    unfold out3_B_0 out3_B_1
    iintro ⟨⟨⟨HS0, HS1⟩, HR⟩, Ho, ⟨%dw0, HW0⟩, ⟨%dw1, HW1⟩, ⟨%dw2, HW2⟩, ⟨%dw3, HW3⟩, ⟨%dw4, HW4⟩, ⟨%dw5, HW5⟩, ⟨%dw6, HW6⟩⟩
    iapply ((kernelRun3_B c (grid3.coords t) _ _ _ _ _ _ _ _ _ _ _ _ _ _ _ _ _ _ (fun hc => h0 ((hcond3 t).mp hc)) (iblk3 V c 0 t) (iblk3 V c 1 t) (iblk3 V c 2 t) (iblk3 V c 3 t) (iblk3 V c 4 t) (P3_0 V c) (P3_1 V c)).2.2 Set.univ _)
    isplitl [HW0]; · iexact HW0
    isplitl [HW1]; · iexact HW1
    isplitl [HW2]; · iexact HW2
    isplitl [HW3]; · iexact HW3
    isplitl [HW4]; · iexact HW4
    isplitl [HW5]; · iexists _; iexact HW5
    isplitl [HW6]; · iexists _; iexact HW6
    isplitl [HS0]; · iexact HS0
    isplitl [HS1]; · iexact HS1
    iintro ⟨HW0, HW1, HW2, HW3, HW4, ⟨%eo0, HW5⟩, ⟨%eo1, HW6⟩, HS0, HS1⟩
    isplitl [HS0 HS1 HR]
    · isplitl [HS0 HS1]
      · isplitl [HS0]
        · iexact HS0
        iexact HS1
      iexact HR
    isplitl [Ho]; · iexact Ho
    isplitl [HW0]; · iexact HW0
    isplitl [HW1]; · iexact HW1
    isplitl [HW2]; · iexact HW2
    isplitl [HW3]; · iexact HW3
    isplitl [HW4]; · iexact HW4
    isplitl [HW5]
    · unfold owns; iexists _; isplitr
      swap; · iexact HW5
      ipureintro; exact View.read_writes_of_cover _ _ _ _ _ (cover3_B_0 c _ _ _ _ _ _ _ _ _ _ _ _ _ _ _ _ _ _ _ _ _ _ _ _ _ _ _)
    unfold owns; iexists _; isplitr
    swap; · iexact HW6
    ipureintro; exact View.read_writes_of_cover _ _ _ _ _ (cover3_B_1 c _ _ _ _ _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.RunMain.lean ====
/-
  The whole program as a run: the host stretch that lays out the biases and the side-by-side decoder weights, then
  the four passes in order.  The buffers' contents at each boundary are a fold from the launch memory: after the host
  stretch its operations' results; after a pass, that pass's output arrays at what its write-backs leave and every
  other buffer as it was.  Each pass enters with every unscoped buffer held at the boundary's contents, splits its
  windows' arrays out, runs its pipeline under its proof data, and puts the arrays back at the exit contents; its
  scratch goes into the pipeline's invariant at anything and comes back at anything.  The run ends with every unscoped
  buffer at the last boundary's contents.
-/
import proofs.«114016_g31997506355976_cont_9to1_2145_5_alg».proof.Proof.Dat0
import proofs.«114016_g31997506355976_cont_9to1_2145_5_alg».proof.Proof.Dat1
import proofs.«114016_g31997506355976_cont_9to1_2145_5_alg».proof.Proof.Dat2
import proofs.«114016_g31997506355976_cont_9to1_2145_5_alg».proof.Proof.Dat3
import proofs.«114016_g31997506355976_cont_9to1_2145_5_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At pass 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A pass changes no buffer but its output windows' arrays: an input window's array ends as it was found. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    exact (W2_arr m ρ c w).trans (((dat0 (V1 m ρ) c).arrAt_in w hw _).trans (A_eq0 (V1 m ρ) c w))
  · exact W2_of_ne m ρ c b fun w e => h ⟨w, e⟩
/-- At pass 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- A pass changes no buffer but its output windows' arrays: an input window's array ends as it was found. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    exact (W3_arr m ρ c w).trans (((dat1 (V2 m ρ) c).arrAt_in w hw _).trans (A_eq1 (V2 m ρ) c w))
  · exact W3_of_ne m ρ c b fun w e => h ⟨w, e⟩
/-- At pass 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- A pass changes no buffer but its output windows' arrays: an input window's array ends as it was found. -/
theorem W4_keep (c : Dev nD) (b : Ref sig .tc) (hb : ∀ w, (cfg2.win w).isOut = true → Pipeline.arrRef spec2 w ≠ b) :
    W4 m ρ c (Proc.devRef .tc b) = W3 m ρ c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    exact (W4_arr m ρ c w).trans (((dat2 (V3 m ρ) c).arrAt_in w hw _).trans (A_eq2 (V3 m ρ) c w))
  · exact W4_of_ne m ρ c b fun w e => h ⟨w, e⟩
/-- At pass 3's exit: its arrays at what the pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- A pass changes no buffer but its output windows' arrays: an input window's array ends as it was found. -/
theorem W5_keep (c : Dev nD) (b : Ref sig .tc) (hb : ∀ w, (cfg3.win w).isOut = true → Pipeline.arrRef spec3 w ≠ b) :
    W5 m ρ c (Proc.devRef .tc b) = W4 m ρ c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    exact (W5_arr m ρ c w).trans (((dat3 (V4 m ρ) c).arrAt_in w hw _).trans (A_eq3 (V4 m ρ) c w))
  · exact W5_of_ne m ρ c b fun w e => h ⟨w, e⟩

/-! ## The proof data family and the thread state -/

/-- The prefetched tables' admissible contents: no pipeline has a table. -/
abbrev adm : (p : Fin 4) → (pcfgs (F := F) p).Adm := fun p => (cfgs p).toPCfg_adm
/-- Every pipeline's proof data, each at its pass's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m ρ c) ∗ ∃ r, prngReg c r)

/-! ## The passes as segments -/

set_option backward.isDefEq.respectTransparency.types false in
/-- PASS 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := iprop(Pipeline.unscopedRest (Ix := Unit) (Name := ℕ) (U := UR sig nD τ) (Lvl := ℕ) spec0 c (V1 m ρ c) ∗ (∃ r, prngReg c r))
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = iprop((∃ d, owns (c : Thread nD τ) scM0_0 fullShare d) ∗ RestB0 c) from rfl, ← scoped0_eq]
    iintro ⟨-, -, Hr⟩; iexact Hr
  hout c := by
    rw [Pipeline.ownSems0_none, show (pdats m ρ 0 c).Φ (Fin.last _) = Phi0 (V1 m ρ) c (Fin.last cfg0.N).val from rfl,
      Phi0_pos _ _ _ (by rw [Fin.val_last]; have : cfg0.N = 50 := N_0; omega),
      show (Pipeline.scopedRest (Ix := Unit) (Name := ℕ) (U := UR sig nD τ) (Lvl := ℕ) (Val := Elt F) (Pipeline.pin (pcfgs (F := F)) adm 0).spec c : sProp 𝕄)
        = iprop((∃ d, owns (c : Thread nD τ) scM0_0 fullShare d) ∗ RestB0 c) from scoped0_eq c]
    iintro ⟨HS0, HR⟩
    isplitr; · iempintro
    isplitr; · iempintro
    isplitl [HS0]; · iexists _; iexact HS0
    iexact HR
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 1 over the thread state: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ (∃ r, prngReg c r))
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 1 c).Φ 0 = iprop((∃ d, owns (c : Thread nD τ) scM1_0 fullShare d) ∗ RestB1 c) from rfl, ← scoped1_eq]
    iintro ⟨-, -, Hr⟩; iexact Hr
  hout c := by
    rw [Pipeline.ownSems0_none, show (pdats m ρ 1 c).Φ (Fin.last _) = Phi1 (V2 m ρ) c (Fin.last cfg1.N).val from rfl,
      Phi1_pos _ _ _ (by rw [Fin.val_last]; have : cfg1.N = 10 := N_1; omega),
      show (Pipeline.scopedRest (Ix := Unit) (Name := ℕ) (U := UR sig nD τ) (Lvl := ℕ) (Val := Elt F) (Pipeline.pin (pcfgs (F := F)) adm 1).spec c : sProp 𝕄)
        = iprop((∃ d, owns (c : Thread nD τ) scM1_0 fullShare d) ∗ RestB1 c) from scoped1_eq c]
    iintro ⟨HS0, HR⟩
    isplitr; · iempintro
    isplitr; · iempintro
    isplitl [HS0]; · iexists _; iexact HS0
    iexact HR
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 2 over the thread state: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X _ := BI.emp
  Y _ := BI.emp
  Z c := iprop(Pipeline.unscopedRest (Ix := Unit) (Name := ℕ) (U := UR sig nD τ) (Lvl := ℕ) spec2 c (V3 m ρ c) ∗ (∃ r, prngReg c r))
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 2 c).Φ 0 = iprop((∃ d, owns (c : Thread nD τ) scM2_0 fullShare d) ∗ RestB2 c) from rfl, ← scoped2_eq]
    iintro ⟨-, -, Hr⟩; iexact Hr
  hout c := by
    rw [Pipeline.ownSems0_none, show (pdats m ρ 2 c).Φ (Fin.last _) = Phi2 (V3 m ρ) c (Fin.last cfg2.N).val from rfl,
      Phi2_pos _ _ _ (by rw [Fin.val_last]; have : cfg2.N = 10 := N_2; omega),
      show (Pipeline.scopedRest (Ix := Unit) (Name := ℕ) (U := UR sig nD τ) (Lvl := ℕ) (Val := Elt F) (Pipeline.pin (pcfgs (F := F)) adm 2).spec c : sProp 𝕄)
        = iprop((∃ d, owns (c : Thread nD τ) scM2_0 fullShare d) ∗ RestB2 c) from scoped2_eq c]
    iintro ⟨HS0, HR⟩
    isplitr; · iempintro
    isplitr; · iempintro
    isplitl [HS0]; · iexists _; iexact HS0
    iexact HR
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- PASS 3 over the thread state: entered from every unscoped buffer at `W4`, left at `W5`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec3 c (V4 m ρ c) ∗ (∃ r, prngReg c r))
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 3 c).Φ 0 = iprop(iprop((∃ d, owns (c : Thread nD τ) scM3_0 fullShare d) ∗ (∃ d, owns (c : Thread nD τ) scM3_1 fullShare d)) ∗ RestB3 c) from rfl, ← scoped3_eq]
    iintro ⟨-, -, Hr⟩; iexact Hr
  hout c := by
    rw [Pipeline.ownSems0_none, show (pdats m ρ 3 c).Φ (Fin.last _) = Phi3 (V4 m ρ) c (Fin.last cfg3.N).val from rfl,
      Phi3_pos _ _ _ (by rw [Fin.val_last]; have : cfg3.N = 50 := N_3; omega),
      show (Pipeline.scopedRest (Ix := Unit) (Name := ℕ) (U := UR sig nD τ) (Lvl := ℕ) (Val := Elt F) (Pipeline.pin (pcfgs (F := F)) adm 3).spec c : sProp 𝕄)
        = iprop(iprop((∃ d, owns (c : Thread nD τ) scM3_0 fullShare d) ∗ (∃ d, owns (c : Thread nD τ) scM3_1 fullShare d)) ∗ RestB3 c) from scoped3_eq c]
    iintro ⟨⟨HS0, HS1⟩, HR⟩
    isplitr; · iempintro
    isplitr; · iempintro
    isplitl [HS0 HS1]
    · isplitl [HS0]; · iexists _; iexact HS0
      iexists _; iexact HS1
    iexact HR
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, -, ⟨Hrest, Hp⟩⟩
    imodintro
    isplitl [Ha Hrest Hp]
    · isplitl [Ha Hrest]
      · iapply hjoin; isplitl [Ha] <;> iassumption
      iexact Hp
    unfold Pipeline.Dat.owesAt Pipeline.owesWithin
    icases HO with ⟨%W, -, HO⟩; iexists W; iexact HO

/-! ## The program as segments, and the launch -/

/-- The program's 5 segments in order: the host stretch, then the four passes. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ) ]
/-- The program IS the run of the segments. -/
theorem main_run (c : Dev nD) : main (F := F) c = Pipeline.Seg.run (segs m ρ) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.Frames.lean ====
/-
  The frame: no host operation and no pass writes an argument array (a pass reads it through an input window or
  bypasses it), so the fold of boundary contents at an argument's buffer walks back to the launch memory.
-/
import proofs.«114016_g31997506355976_cont_9to1_2145_5_alg».proof.Proof.RunMain

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A buffer the host stretch does not write holds its launch contents at the first pass's entry. -/
theorem W1_of (c : Dev nD) (r : Ref sig .tc) (h : r ∉ hostOps0_W) : W1 m ρ c (Proc.devRef .tc r) = m ((c : Thread nD τ).loc r) :=
  StableHlo.after_of_writes_sub hostOps0 _ hostOps0_writes h

/-- A buffer that is no pass's output array and that the host stretch does not write ends as launched. -/
theorem W5_of (c : Dev nD) (r : Ref sig .tc)
    (h0 : ∀ w, (cfg0.win w).isOut = true → Pipeline.arrRef spec0 w ≠ r) (h1 : ∀ w, (cfg1.win w).isOut = true → Pipeline.arrRef spec1 w ≠ r)
    (h2 : ∀ w, (cfg2.win w).isOut = true → Pipeline.arrRef spec2 w ≠ r) (h3 : ∀ w, (cfg3.win w).isOut = true → Pipeline.arrRef spec3 w ≠ r)
    (hh : r ∉ hostOps0_W) : W5 m ρ c (Proc.devRef .tc r) = m ((c : Thread nD τ).loc r) :=
  (W5_keep m ρ c r h3).trans ((W4_keep m ρ c r h2).trans ((W3_keep m ρ c r h1).trans ((W2_keep m ρ c r h0).trans (W1_of m ρ c r hh))))

/-- THE FRAME, at any `F`: every weakly fair execution terminates, nothing faulting, each argument array ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W5_of m ρ c main_arg0 (by decide) (by decide) (by decide) (by decide) (by decide)),
    (h c _ (mem_uc main_arg1 (by decide))).trans (W5_of m ρ c main_arg1 (by decide) (by decide) (by decide) (by decide) (by decide)),
    (h c _ (mem_uc main_arg2 (by decide))).trans (W5_of m ρ c main_arg2 (by decide) (by decide) (by decide) (by decide) (by decide)),
    (h c _ (mem_uc main_arg3 (by decide))).trans (W5_of m ρ c main_arg3 (by decide) (by decide) (by decide) (by decide) (by decide)),
    (h c _ (mem_uc main_arg4 (by decide))).trans (W5_of m ρ c main_arg4 (by decide) (by decide) (by decide) (by decide) (by decide)),
    (h c _ (mem_uc main_arg5 (by decide))).trans (W5_of m ρ c main_arg5 (by decide) (by decide) (by decide) (by decide) (by decide)),
    (h c _ (mem_uc main_arg6 (by decide))).trans (W5_of m ρ c main_arg6 (by decide) (by decide) (by decide) (by decide) (by decide)),
    (h c _ (mem_uc main_arg7 (by decide))).trans (W5_of m ρ c main_arg7 (by decide) (by decide) (by decide) (by decide) (by decide)),
    (h c _ (mem_uc main_arg8 (by decide))).trans (W5_of m ρ c main_arg8 (by decide) (by decide) (by decide) (by decide) (by decide)),
    (h c _ (mem_uc main_arg9 (by decide))).trans (W5_of m ρ c main_arg9 (by decide) (by decide) (by decide) (by decide) (by decide)),
    (h c _ (mem_uc main_arg10 (by decide))).trans (W5_of m ρ c main_arg10 (by decide) (by decide) (by decide) (by decide) (by decide)),
    (h c _ (mem_uc main_arg11 (by decide))).trans (W5_of m ρ c main_arg11 (by decide) (by decide) (by decide) (by decide) (by decide))⟩) (run_all m ρ)

end Cert.KernelIdeal.Hand

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.PayIdx.lean ====
/-
  The values the four kernel bodies store, each read at one entry, over the extended reals.

  Over the extended reals a narrowing of the float format is the identity, a reshape to the same shape is the
  identity, a product accumulated into the zero matrix is the plain sum of products over the contracted index,
  a one-row array broadcast over many rows reads its one row, a cut of columns reads the source at the shifted
  column, and the pointwise operations (sum, maximum, logistic) act entry by entry. So each stored value at
  (row, column) is a sum of products, possibly plus a bias entry, possibly clamped below at zero or passed
  through the logistic function.
-/
import proofs.«114016_g31997506355976_cont_9to1_2145_5_alg».proof.Proof.Gen.KernelIdeal.Skeleton
import proofs.«114016_g31997506355976_cont_9to1_2145_5_alg».proof.Proof.LibDot
import proofs.«114016_g31997506355976_cont_9to1_2145_5_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayIdx

open Cert.KernelIdeal Cert.KernelIdeal.Gen Idealize.ShloMosaic Idealize.ShloMosaic.ValueIdx Idealize.SL.Sem

/-! ## A rows-by-columns product's dimension numbers -/

/-- A record whose dimension numbers contract axis 1 of the left operand with axis 0 of the right one, with no
    batch axes, reads the left operand at (row, k) and the right operand at (k, column). -/
theorem plain_of_lists {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (hr : d.contr.rank = 1) (hs : d.contr.size ⟨0, by omega⟩ = K) : Cert.LibDot.Plain d where
  hrank := hr
  hs := hs
  hl0 := fun j k => by
    have key : ∀ (p : ℕ) (hp : p < (⟨2, ![M, N]⟩ : Shape).rank) (q : Fin 2), p = q.val → (j ⟨p, hp⟩).val = (j q).val :=
      fun p hp q h => by subst h; rfl
    unfold DotDims.lhsIdx
    rw [dif_neg (by rw [hlb]; exact List.not_mem_nil), dif_pos (by rw [hln]; exact List.mem_singleton.mpr rfl)]
    simp only [Fin.val_cast]
    exact key _ _ 0 (by simp [hlb, hln])
  hl1 := fun j k => d.lhsIdx_val_of_single hlc j k
  hr0 := fun j k => d.rhsIdx_val_of_single hrc j k
  hr1 := fun j k => by
    have key : ∀ (p : ℕ) (hp : p < (⟨2, ![M, N]⟩ : Shape).rank) (q : Fin 2), p = q.val → (j ⟨p, hp⟩).val = (j q).val :=
      fun p hp q h => by subst h; rfl
    unfold DotDims.rhsIdx
    rw [dif_neg (by rw [hrb]; exact List.not_mem_nil), dif_pos (by rw [hrn]; exact List.mem_singleton.mpr rfl)]
    simp only [Fin.val_cast]
    exact key _ _ 1 (by simp [hlb, hln, hrn])

/-- Every rows-by-columns product record of the four bodies has those dimension numbers. -/
theorem plain_k0_a : Cert.LibDot.Plain dot_S10000x128_S128x64_S10000x64_1_0_0_1_n_n :=
  plain_of_lists _ rfl rfl rfl rfl rfl rfl rfl rfl
theorem plain_k0_b : Cert.LibDot.Plain dot_S200x10000_S10000x64_S200x64_1_0_0_1_n_n :=
  plain_of_lists _ rfl rfl rfl rfl rfl rfl rfl rfl
theorem plain_k1_a : Cert.LibDot.Plain dot_S10000x64_S64x64_S10000x64_1_0_0_1_n_n :=
  plain_of_lists _ rfl rfl rfl rfl rfl rfl rfl rfl
theorem plain_k1_b : Cert.LibDot.Plain dot_S1000x10000_S10000x64_S1000x64_1_0_0_1_n_n :=
  plain_of_lists _ rfl rfl rfl rfl rfl rfl rfl rfl
theorem plain_k2_a : Cert.LibDot.Plain dot_S10000x64_S64x128_S10000x128_1_0_0_1_n_n :=
  plain_of_lists _ rfl rfl rfl rfl rfl rfl rfl rfl
theorem plain_k2_b : Cert.LibDot.Plain dot_S1000x10000_S10000x128_S1000x128_1_0_0_1_n_n :=
  plain_of_lists _ rfl rfl rfl rfl rfl rfl rfl rfl
theorem plain_k3_b : Cert.LibDot.Plain dot_S200x10000_S10000x128_S200x128_1_0_0_1_n_n :=
  plain_of_lists _ rfl rfl rfl rfl rfl rfl rfl rfl

/-- The zero a clamp compares against is the real number zero. -/
theorem zero_f32 : (Scalar.ofBits .f32 0x00000000#32 : Ideal .f32) = 0 := Ideal.ofBits_zero_f32

/-! ## The first body -/

/-- The projected features: entry (k, j) of the product of the [10000,128] features with the [128,64] weights. -/
theorem k0_pay1_apply (v15 : Vec Ideal S10000x128 .f32) (v17 : Vec Ideal S128x64 .f32) (k : Fin 10000) (j : Fin 64) :
    k0_pay1 (F := Ideal) v15 v17 (ix2 k j) = ∑ l : Fin 128, v15 (ix2 k l) * v17 (ix2 l j) := by
  unfold k0_pay1
  rw [shapeCast_self]
  exact Cert.LibDot.matmul_ix2 plain_k0_a none _ _ k j

/-- The narrowed copy of the adjacency block is the block. -/
theorem k0_pay2_apply (v3 : Vec Ideal S200x10000 .f32) (i : S200x10000.Idx) :
    k0_pay2 (F := Ideal) v3 i = v3 i := rfl

/-- Entry (p, j) of the clamped, biased product of the adjacency block with the projected features. -/
theorem k0_pay3_apply (v3 : Vec Ideal S200x10000 .f32) (v6 : Vec Ideal S10000x64 .bf16) (v8 : Vec Ideal S1x64 .f32)
    (p : Fin 200) (j : Fin 64) :
    k0_pay3 (F := Ideal) v3 v6 v8 (ix2 p j)
      = max ((∑ k : Fin 10000, v3 (ix2 p k) * v6 (ix2 k j)) + v8 (ix2 (0 : Fin 1) j)) 0 := by
  unfold k0_pay3
  rw [shapeCast_self, maximumf_apply, addf_apply, broadcastTo_1b_ab_apply, broadcast_apply, zero_f32]
  exact congrArg (fun x => max (x + v8 (ix2 (0 : Fin 1) j)) 0)
    (Cert.LibDot.matmul_ix2 plain_k0_b none (k0_pay2 (F := Ideal) v3) v6 p j)

/-! ## The second body -/

theorem k1_pay1_apply (v12 : Vec Ideal S10000x64 .f32) (v15 : Vec Ideal S64x64 .f32) (k : Fin 10000) (j : Fin 64) :
    k1_pay1 (F := Ideal) v12 v15 (ix2 k j) = ∑ l : Fin 64, v12 (ix2 k l) * v15 (ix2 l j) := by
  unfold k1_pay1
  rw [shapeCast_self, shapeCast_self]
  exact Cert.LibDot.matmul_ix2 plain_k1_a none _ _ k j

theorem k1_pay2_apply (v3 : Vec Ideal S1000x10000 .bf16) (v5 : Vec Ideal S10000x64 .bf16) (v7 : Vec Ideal S1x64 .f32)
    (p : Fin 1000) (j : Fin 64) :
    k1_pay2 (F := Ideal) v3 v5 v7 (ix2 p j)
      = (∑ k : Fin 10000, v3 (ix2 p k) * v5 (ix2 k j)) + v7 (ix2 (0 : Fin 1) j) := by
  unfold k1_pay2
  rw [shapeCast_self, shapeCast_self, addf_apply, broadcastTo_1b_ab_apply]
  exact congrArg (· + v7 (ix2 (0 : Fin 1) j)) (Cert.LibDot.matmul_ix2 plain_k1_b none _ _ p j)

/-! ## The third body -/

theorem k2_pay1_apply (v17 : Vec Ideal S10000x64 .f32) (v20 : Vec Ideal S64x128 .f32) (k : Fin 10000) (j : Fin 128) :
    k2_pay1 (F := Ideal) v17 v20 (ix2 k j) = ∑ l : Fin 64, v17 (ix2 k l) * v20 (ix2 l j) := by
  unfold k2_pay1
  rw [shapeCast_self, shapeCast_self, shapeCast_self]
  exact Cert.LibDot.matmul_ix2 plain_k2_a none _ _ k j

/-- The full-width clamped, biased product the two stored halves are cut from, at (p, c). -/
theorem k2_pay2_apply (v3 : Vec Ideal S1000x10000 .bf16) (v5 : Vec Ideal S10000x128 .bf16) (v7 : Vec Ideal S1x128 .f32)
    (p : Fin 1000) (c : Fin 128) :
    k2_pay2 (F := Ideal) v3 v5 v7 (ix2 p c)
      = max ((∑ k : Fin 10000, v3 (ix2 p k) * v5 (ix2 k c)) + v7 (ix2 (0 : Fin 1) c)) 0 := by
  unfold k2_pay2
  rw [shapeCast_self, shapeCast_self, maximumf_apply, addf_apply, broadcastTo_1b_ab_apply, broadcast_apply, zero_f32]
  exact congrArg (fun x => max (x + v7 (ix2 (0 : Fin 1) c)) 0)
    (Cert.LibDot.matmul_ix2 plain_k2_b none _ _ p c)

/-- The left half (columns 0..63) of the full-width value. -/
theorem k2_pay3_apply (v3 : Vec Ideal S1000x10000 .bf16) (v5 : Vec Ideal S10000x128 .bf16) (v7 : Vec Ideal S1x128 .f32)
    (p : Fin 1000) (j : Fin 64) :
    k2_pay3 (F := Ideal) v3 v5 v7 (ix2 p j)
      = max ((∑ k : Fin 10000, v3 (ix2 p k) * v5 (ix2 k (⟨j.val, by omega⟩ : Fin 128)))
          + v7 (ix2 (0 : Fin 1) (⟨j.val, by omega⟩ : Fin 128))) 0 := by
  unfold k2_pay3
  rw [slice2_axis1_apply 0 (k2_pay2 (F := Ideal) v3 v5 v7) slices_S1000x128_o0_0_S1000x64 p j
    (⟨j.val, by omega⟩ : Fin 128) (Nat.zero_add _).symm]
  exact k2_pay2_apply v3 v5 v7 p _

/-- The right half (columns 64..127) of the full-width value. -/
theorem k2_pay4_apply (v3 : Vec Ideal S1000x10000 .bf16) (v5 : Vec Ideal S10000x128 .bf16) (v7 : Vec Ideal S1x128 .f32)
    (p : Fin 1000) (j : Fin 64) :
    k2_pay4 (F := Ideal) v3 v5 v7 (ix2 p j)
      = max ((∑ k : Fin 10000, v3 (ix2 p k) * v5 (ix2 k (⟨j.val + 64, by omega⟩ : Fin 128)))
          + v7 (ix2 (0 : Fin 1) (⟨j.val + 64, by omega⟩ : Fin 128))) 0 := by
  unfold k2_pay4
  rw [slice2_axis1_apply 64 (k2_pay2 (F := Ideal) v3 v5 v7) slices_S1000x128_o0_64_S1000x64 p j
    (⟨j.val + 64, by omega⟩ : Fin 128) (Nat.add_comm _ _)]
  exact k2_pay2_apply v3 v5 v7 p _

/-! ## The fourth body -/

theorem k3_pay1_apply (v19 : Vec Ideal S10000x64 .f32) (v22 : Vec Ideal S64x128 .f32) (k : Fin 10000) (j : Fin 128) :
    k3_pay1 (F := Ideal) v19 v22 (ix2 k j) = ∑ l : Fin 64, v19 (ix2 k l) * v22 (ix2 l j) := by
  unfold k3_pay1
  rw [shapeCast_self, shapeCast_self]
  exact Cert.LibDot.matmul_ix2 plain_k2_a none _ _ k j

theorem k3_pay2_apply (v29 : Vec Ideal S10000x64 .f32) (i : S10000x64.Idx) :
    k3_pay2 (F := Ideal) v29 i = v29 i := by
  unfold k3_pay2
  rw [shapeCast_self, shapeCast_self]
  rfl

theorem k3_pay3_apply (v3 : Vec Ideal S200x10000 .bf16) (v5 : Vec Ideal S10000x128 .bf16) (v7 : Vec Ideal S1x128 .f32)
    (p : Fin 200) (j : Fin 128) :
    k3_pay3 (F := Ideal) v3 v5 v7 (ix2 p j)
      = (∑ k : Fin 10000, v3 (ix2 p k) * v5 (ix2 k j)) + v7 (ix2 (0 : Fin 1) j) := by
  unfold k3_pay3
  rw [shapeCast_self, shapeCast_self, addf_apply, broadcastTo_1b_ab_apply]
  exact congrArg (· + v7 (ix2 (0 : Fin 1) j)) (Cert.LibDot.matmul_ix2 plain_k3_b none _ _ p j)

/-- Entry (p, q) of the logistic of the rows' inner products: both operands are contracted along their last axis. -/
theorem k3_pay4_apply (v14 : Vec Ideal S200x64 .bf16) (v15 : Vec Ideal S10000x64 .bf16) (p : Fin 200) (q : Fin 10000) :
    k3_pay4 (F := Ideal) v14 v15 (ix2 p q) = Ideal.logistic (∑ l : Fin 64, v14 (ix2 p l) * v15 (ix2 q l)) := by
  unfold k3_pay4
  exact congrArg Ideal.logistic
    (matmul_nt_zero_apply dot_S200x64_S10000x64_S200x10000_1_1_0_0_n_n rfl rfl rfl rfl rfl rfl rfl rfl none v14 v15 p q)

end Cert.KernelIdeal.PayIdx

end
-- ==== Proof.Spec.lean ====
/-
  The mathematics both programs compute, on the extended reals, entry by entry.

  A graph-convolution layer is  gc(adj, h, W, b) = adj · (h · W) + b : entry (i, j) is
  (Σ_k adj(i,k) · (Σ_l h(k,l) · W(l,j))) + b(j).  The autoencoder is
      h  = relu(gc(x, W₁, b₁)),  z = gc(h, W₂, b₂),
      h₂ = relu(gc(z, Wₐ₁, bₐ₁)),  x̂ = gc(h₂, Wₐ₂, bₐ₂),
      s  = relu(gc(z, Wₛ, bₛ)),   â(i,j) = logistic(Σ_l s(i,l) · s(j,l)).
  Arrays are curried functions of their two coordinates.
-/
import Idealize.ShloMosaic.PureOps.Ideal.Laws
import Idealize.ShloMosaic.Lib.ValueIdx

noncomputable section

namespace Cert.Spec

open Idealize.ShloMosaic

/-- A rank-2 array as a function of its two coordinates. -/
def cur2 {a b : ℕ} (f : (⟨2, ![a, b]⟩ : Shape).Idx → EReal) : Fin a → Fin b → EReal := fun i j => f (ValueIdx.ix2 i j)
/-- A rank-1 array as a function of its coordinate. -/
def cur1 {a : ℕ} (f : (⟨1, ![a]⟩ : Shape).Idx → EReal) : Fin a → EReal := fun j => f (ValueIdx.ix1 j)
@[simp] theorem cur2_apply {a b : ℕ} (f : (⟨2, ![a, b]⟩ : Shape).Idx → EReal) (i : Fin a) (j : Fin b) : cur2 f i j = f (ValueIdx.ix2 i j) := rfl
@[simp] theorem cur1_apply {a : ℕ} (f : (⟨1, ![a]⟩ : Shape).Idx → EReal) (j : Fin a) : cur1 f j = f (ValueIdx.ix1 j) := rfl

/-- A function of two coordinates as a rank-2 array. -/
def uncur2 {a b : ℕ} (f : Fin a → Fin b → EReal) : (⟨2, ![a, b]⟩ : Shape).Idx → EReal := fun i => f (i 0) (i 1)
@[simp] theorem uncur2_ix2 {a b : ℕ} (f : Fin a → Fin b → EReal) (i : Fin a) (j : Fin b) : uncur2 f (ValueIdx.ix2 i j) = f i j := rfl

/-- One graph-convolution layer, entry by entry. -/
def gc {n d e : ℕ} (adj : Fin n → Fin n → EReal) (h : Fin n → Fin d → EReal) (W : Fin d → Fin e → EReal) (b : Fin e → EReal) :
    Fin n → Fin e → EReal :=
  fun i j => (∑ k : Fin n, adj i k * (∑ l : Fin d, h k l * W l j)) + b j

/-- The rectifier, entry by entry. -/
def relu {n d : ℕ} (f : Fin n → Fin d → EReal) : Fin n → Fin d → EReal := fun i j => max (f i j) 0

section
variable (x : Fin 10000 → Fin 128 → EReal) (adj : Fin 10000 → Fin 10000 → EReal)
  (W1 : Fin 128 → Fin 64 → EReal) (b1 : Fin 64 → EReal) (W2 : Fin 64 → Fin 64 → EReal) (b2 : Fin 64 → EReal)
  (Wa1 : Fin 64 → Fin 64 → EReal) (ba1 : Fin 64 → EReal) (Wa2 : Fin 64 → Fin 128 → EReal) (ba2 : Fin 128 → EReal)
  (Ws : Fin 64 → Fin 64 → EReal) (bs : Fin 64 → EReal)

/-- The first hidden layer. -/
def hid : Fin 10000 → Fin 64 → EReal := relu (gc adj x W1 b1)
/-- The embedding (third result). -/
def emb : Fin 10000 → Fin 64 → EReal := gc adj (hid x adj W1 b1) W2 b2
/-- The attribute decoder's hidden layer. -/
def hid2 : Fin 10000 → Fin 64 → EReal := relu (gc adj (emb x adj W1 b1 W2 b2) Wa1 ba1)
/-- The reconstructed attributes (second result). -/
def xhat : Fin 10000 → Fin 128 → EReal := gc adj (hid2 x adj W1 b1 W2 b2 Wa1 ba1) Wa2 ba2
/-- The structure decoder's hidden layer. -/
def str : Fin 10000 → Fin 64 → EReal := relu (gc adj (emb x adj W1 b1 W2 b2) Ws bs)
/-- The reconstructed adjacency (first result). -/
def ahat : Fin 10000 → Fin 10000 → EReal :=
  fun i j => Ideal.logistic (∑ l : Fin 64, str x adj W1 b1 W2 b2 Ws bs i l * str x adj W1 b1 W2 b2 Ws bs j l)
end

end Cert.Spec

end
-- ==== Proof.Val0.lean ====
/-
  The first pass, read as values.  At the first grid point the body stores the projection  x · W  into the scratch;
  at every point it stores the row block of the adjacency unchanged (the change of format is the identity over the
  extended reals) and the row block  max(adj_block · scratch + b, 0).  The arrays the pass leaves are therefore the
  adjacency itself and  relu(adj · (x · W) + b), entry by entry: the specification's first hidden layer.
-/
import proofs.«114016_g31997506355976_cont_9to1_2145_5_alg».proof.Proof.Dat0
import proofs.«114016_g31997506355976_cont_9to1_2145_5_alg».proof.Proof.PayIdx
import proofs.«114016_g31997506355976_cont_9to1_2145_5_alg».proof.Proof.Spec
import Idealize.ShloMosaic.Lib.Pipeline.Value
import Idealize.ShloMosaic.Lib.Tactic

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat Cfg Window)

section Pieces
variable {F : FTy → Type} [FloatOps F]
variable (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S200x64 .f32) (harg5 : arg5.IsWhole) (arg6 : Memref sig .tc .vmem S200x10000 .bf16) (harg6 : arg6.IsWhole) (arg7 : Memref sig .tc .vmem S10000x64 .bf16) (harg7 : arg7.IsWhole)
    (x0 : Vec F S200x10000 .f32) (x1 : Vec F S10000x128 .f32) (x2 : Vec F S128x64 .f32) (x3 : Vec F S1x64 .f32) (xs0 : Vec F S10000x64 .bf16)

theorem hz : (![0, 0] : Fin 2 → Nat) = fun _ => 0 := funext fun a => by fin_cases a <;> rfl

/-- The first point leaves the projection in the scratch. -/
theorem sout0_A (hc : cond0 i) :
    sout0_A_0 c i arg1 harg1 arg2 harg2 arg3 harg3 arg4 harg4 arg5 harg5 arg6 harg6 arg7 harg7 x0 x1 x2 x3 hc = k0_pay1 x1 x2 := by
  unfold sout0_A_0
  rw [View.read_writes_eq_canon _ _ _ (scover0_A_0 c i arg1 harg1 arg2 harg2 arg3 harg3 arg4 harg4 arg5 harg5 arg6 harg6 arg7 harg7 x0 x1 x2 x3 hc)]
  unfold kernelRun0_A
  dsimp only
  sl_unfold_words
  rw [View.canon_unit_zero (S := S10000x64) hz]
  simp only [View.readAt_eq_ld, harg2.read_unread, harg3.read_unread, View.ld_unit_zero (S := S10000x128) hz,
    View.ld_unit_zero (S := S128x64) hz]

/-- The first point leaves in the first output the row block computed from the projection it has just stored. -/
theorem out0_A (hc : cond0 i) :
    out0_A_0 c i arg1 harg1 arg2 harg2 arg3 harg3 arg4 harg4 arg5 harg5 arg6 harg6 arg7 harg7 x0 x1 x2 x3 hc = k0_pay3 x0 (k0_pay1 x1 x2) x3 := by
  unfold out0_A_0
  rw [View.read_writes_eq_canon _ _ _ (cover0_A_0 c i arg1 harg1 arg2 harg2 arg3 harg3 arg4 harg4 arg5 harg5 arg6 harg6 arg7 harg7 x0 x1 x2 x3 hc)]
  unfold kernelRun0_A
  dsimp only
  sl_unfold_words
  rw [View.canon_unit_zero (S := S200x64) hz, View.readCov_unit_zero (S := S10000x64) _ hz]
  simp only [View.readAt_eq_ld, harg1.read_unread, harg2.read_unread, harg3.read_unread, harg4.read_unread,
    View.ld_unit_zero (S := S200x10000) hz, View.ld_unit_zero (S := S10000x128) hz, View.ld_unit_zero (S := S128x64) hz,
    View.ld_unit_zero (S := S1x64) hz]

/-- A later point leaves in the first output the row block computed from the scratch it is given. -/
theorem out0_B (hc : ¬cond0 i) :
    out0_B_0 c i arg1 harg1 arg2 harg2 arg3 harg3 arg4 harg4 arg5 harg5 arg6 harg6 arg7 harg7 x0 x1 x2 x3 xs0 hc = k0_pay3 x0 xs0 x3 := by
  unfold out0_B_0
  rw [View.read_writes_eq_canon _ _ _ (cover0_B_0 c i arg1 harg1 arg2 harg2 arg3 harg3 arg4 harg4 arg5 harg5 arg6 harg6 arg7 harg7 x0 x1 x2 x3 xs0 hc)]
  unfold kernelRun0_B
  dsimp only
  rw [View.canon_unit_zero (S := S200x64) hz]
  simp only [View.readAt_eq_ld, harg1.read_unread, harg4.read_unread, harg7.read_unread,
    View.ld_unit_zero (S := S200x10000) hz, View.ld_unit_zero (S := S10000x64) hz, View.ld_unit_zero (S := S1x64) hz]

/-- The first point leaves in the second output the adjacency block in the narrow format. -/
theorem out0_A' (hc : cond0 i) :
    out0_A_1 c i arg1 harg1 arg2 harg2 arg3 harg3 arg4 harg4 arg5 harg5 arg6 harg6 arg7 harg7 x0 x1 x2 x3 hc = k0_pay2 x0 := by
  unfold out0_A_1
  rw [View.read_writes_eq_canon _ _ _ (cover0_A_1 c i arg1 harg1 arg2 harg2 arg3 harg3 arg4 harg4 arg5 harg5 arg6 harg6 arg7 harg7 x0 x1 x2 x3 hc)]
  unfold kernelRun0_A
  dsimp only
  rw [View.canon_unit_zero (S := S200x10000) hz]
  simp only [View.readAt_eq_ld, harg1.read_unread, View.ld_unit_zero (S := S200x10000) hz]

/-- So does every later point. -/
theorem out0_B' (hc : ¬cond0 i) :
    out0_B_1 c i arg1 harg1 arg2 harg2 arg3 harg3 arg4 harg4 arg5 harg5 arg6 harg6 arg7 harg7 x0 x1 x2 x3 xs0 hc = k0_pay2 x0 := by
  unfold out0_B_1
  rw [View.read_writes_eq_canon _ _ _ (cover0_B_1 c i arg1 harg1 arg2 harg2 arg3 harg3 arg4 harg4 arg5 harg5 arg6 harg6 arg7 harg7 x0 x1 x2 x3 xs0 hc)]
  unfold kernelRun0_B
  dsimp only
  rw [View.canon_unit_zero (S := S200x10000) hz]
  simp only [View.readAt_eq_ld, harg1.read_unread, View.ld_unit_zero (S := S200x10000) hz]
end Pieces

/-! ## The arrays the pass leaves, over the extended reals -/

section Array
open Cert.Spec (cur1 cur2 uncur2)

variable (V : (c : Dev nD) → (b : Ref sig .tc) → Buf (Elt Ideal) ((c : Thread nD τ).loc b))

/-- The arrays the pass finds, as functions of an index into the extended reals: the adjacency, the features, the
    weights, the bias row. -/
abbrev aAdj (c : Dev nD) : S10000x10000.Idx → EReal := V c main_arg1
abbrev aX (c : Dev nD) : S10000x128.Idx → EReal := V c main_arg0
abbrev aW (c : Dev nD) : S128x64.Idx → EReal := V c main_arg2
abbrev aB (c : Dev nD) : S1x64.Idx → EReal := V c main_v0

/-- The printed index maps over the grid: the adjacency and the two outputs move down one row block per point, every
    other window stays at its whole array. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0)

/-- The adjacency block at point t is rows 200·t … 200·t + 199 of the adjacency. -/
theorem blk0_0 (c : Dev nD) (t : Fin cfg0.N) (p : Fin 200) (k : Fin 10000) (r : Fin 10000) (hr : r.val = t.val * 200 + p.val) :
    (iblk0 V c 0 t : Vec Ideal S200x10000 .f32) (ValueIdx.ix2 p k) = aAdj V c (ValueIdx.ix2 r k) := by
  obtain ⟨e0, e1, -⟩ := idx0 t
  unfold iblk0
  rw [View.read_apply]
  show V c main_arg1 _ = V c main_arg1 _
  refine congrArg _ (funext fun a => Fin.ext ?_)
  match a with
  | ⟨0, _⟩ => show win0_0.index t 0 * 200 + 1 * p.val = r.val; rw [e0, hr]; omega
  | ⟨1, _⟩ => show win0_0.index t 1 * 10000 + 1 * k.val = k.val; rw [e1]; omega

/-- The features' block at every point is the whole array. -/
theorem blk0_1 (c : Dev nD) (t : Fin cfg0.N) (k : Fin 10000) (l : Fin 128) :
    (iblk0 V c 1 t : Vec Ideal S10000x128 .f32) (ValueIdx.ix2 k l) = aX V c (ValueIdx.ix2 k l) := by
  obtain ⟨-, -, e0, e1, -⟩ := idx0 t
  unfold iblk0
  rw [View.read_apply]
  show V c main_arg0 _ = V c main_arg0 _
  refine congrArg _ (funext fun a => Fin.ext ?_)
  match a with
  | ⟨0, _⟩ => show win0_1.index t 0 * 10000 + 1 * k.val = k.val; rw [e0]; omega
  | ⟨1, _⟩ => show win0_1.index t 1 * 128 + 1 * l.val = l.val; rw [e1]; omega

/-- The weights' block at every point is the whole array. -/
theorem blk0_2 (c : Dev nD) (t : Fin cfg0.N) (l : Fin 128) (j : Fin 64) :
    (iblk0 V c 2 t : Vec Ideal S128x64 .f32) (ValueIdx.ix2 l j) = aW V c (ValueIdx.ix2 l j) := by
  obtain ⟨-, -, -, -, e0, e1, -⟩ := idx0 t
  unfold iblk0
  rw [View.read_apply]
  show V c main_arg2 _ = V c main_arg2 _
  refine congrArg _ (funext fun a => Fin.ext ?_)
  match a with
  | ⟨0, _⟩ => show win0_2.index t 0 * 128 + 1 * l.val = l.val; rw [e0]; omega
  | ⟨1, _⟩ => show win0_2.index t 1 * 64 + 1 * j.val = j.val; rw [e1]; omega

/-- The bias row's block at every point is the whole one-row array. -/
theorem blk0_3 (c : Dev nD) (t : Fin cfg0.N) (j : Fin 64) :
    (iblk0 V c 3 t : Vec Ideal S1x64 .f32) (ValueIdx.ix2 (0 : Fin 1) j) = aB V c (ValueIdx.ix2 (0 : Fin 1) j) := by
  obtain ⟨-, -, -, -, -, -, e0, e1, -⟩ := idx0 t
  unfold iblk0
  rw [View.read_apply]
  show V c main_v0 _ = V c main_v0 _
  refine congrArg _ (funext fun a => Fin.ext ?_)
  match a with
  | ⟨0, _⟩ => show win0_3.index t 0 * 1 + 1 * 0 = 0; rw [e0]
  | ⟨1, _⟩ => show win0_3.index t 1 * 64 + 1 * j.val = j.val; rw [e1]; omega

/-- The projection computed from the blocks of any point is the product of the features with the weights. -/
theorem proj0 (c : Dev nD) (t : Fin cfg0.N) (k : Fin 10000) (j : Fin 64) :
    k0_pay1 (F := Ideal) (iblk0 V c 1 t) (iblk0 V c 2 t) (ValueIdx.ix2 k j)
      = ∑ l : Fin 128, aX V c (ValueIdx.ix2 k l) * aW V c (ValueIdx.ix2 l j) :=
  (PayIdx.k0_pay1_apply (iblk0 V c 1 t) (iblk0 V c 2 t) k j).trans
    (Finset.sum_congr rfl fun l _ => by rw [blk0_1 V c t k l, blk0_2 V c t l j])

/-- The rectified layer the pass computes, as a function of the arrays it finds. -/
abbrev G0 (c : Dev nD) : S10000x64.Idx → EReal :=
  uncur2 (Spec.relu (Spec.gc (cur2 (aAdj V c)) (cur2 (aX V c)) (cur2 (aW V c)) (fun j => aB V c (ValueIdx.ix2 (0 : Fin 1) j))))

/-- A row block computed from a scratch that holds the projection is the rectified layer's rows. -/
theorem pay3_row (c : Dev nD) (t : Fin cfg0.N) (xs : Vec Ideal S10000x64 .bf16)
    (hxs : ∀ (k : Fin 10000) (j : Fin 64), xs (ValueIdx.ix2 k j) = ∑ l : Fin 128, aX V c (ValueIdx.ix2 k l) * aW V c (ValueIdx.ix2 l j))
    (p : Fin 200) (j : Fin 64) (r : Fin 10000) (hr : r.val = t.val * 200 + p.val) :
    k0_pay3 (F := Ideal) (iblk0 V c 0 t) xs (iblk0 V c 3 t) (ValueIdx.ix2 p j) = G0 V c (ValueIdx.ix2 r j) := by
  refine (PayIdx.k0_pay3_apply (iblk0 V c 0 t) xs (iblk0 V c 3 t) p j).trans ?_
  rw [blk0_3 V c t j]
  show _ = max ((∑ k : Fin 10000, aAdj V c (ValueIdx.ix2 r k) * ∑ l : Fin 128, aX V c (ValueIdx.ix2 k l) * aW V c (ValueIdx.ix2 l j))
    + aB V c (ValueIdx.ix2 (0 : Fin 1) j)) 0
  refine congrArg (fun s => max (s + aB V c (ValueIdx.ix2 (0 : Fin 1) j)) 0) (Finset.sum_congr rfl fun k _ => ?_)
  rw [blk0_0 V c t p k r hr, hxs k j]

/-- What the first output's staging buffer holds after the body at any point: the rectified layer's rows of that
    point's block. -/
theorem outAt0_0_apply (c : Dev nD) (t : Fin cfg0.N) (p : Fin 200) (j : Fin 64) (r : Fin 10000) (hr : r.val = t.val * 200 + p.val) :
    outAt0_0 V c t (ValueIdx.ix2 p j) = G0 V c (ValueIdx.ix2 r j) := by
  by_cases h0 : t.val % 50 = 0
  · rw [outAt0_0_A V c t h0,
      out0_A (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) (iblk0 V c 0 t) (iblk0 V c 1 t) (iblk0 V c 2 t) (iblk0 V c 3 t) ((hcond0 t).mpr h0)]
    exact pay3_row V c t _ (proj0 V c t) p j r hr
  · rw [outAt0_0_B V c t h0,
      out0_B (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) (iblk0 V c 0 t) (iblk0 V c 1 t) (iblk0 V c 2 t) (iblk0 V c 3 t) (P0_0 V c)
        (fun hc => h0 ((hcond0 t).mp hc))]
    refine pay3_row V c t (P0_0 V c) (fun k j => ?_) p j r hr
    unfold P0_0
    rw [sout0_A (F := Ideal) c (grid0.coords tz0) (ms0_0 tz0) (hs0_0 tz0) (ms0_1 tz0) (hs0_1 tz0) (ms0_2 tz0) (hs0_2 tz0) (ms0_3 tz0) (hs0_3 tz0)
        (ms0_4 tz0) (hs0_4 tz0) (ms0_5 tz0) (hs0_5 tz0) scM0_0 (Memref.isWhole_whole _) (iblk0 V c 0 tz0) (iblk0 V c 1 tz0) (iblk0 V c 2 tz0) (iblk0 V c 3 tz0) hc0_first]
    exact proj0 V c tz0 k j

/-- What the second output's staging buffer holds after the body at any point: the adjacency's rows of that point's
    block. -/
theorem outAt0_1_apply (c : Dev nD) (t : Fin cfg0.N) (p : Fin 200) (k : Fin 10000) (r : Fin 10000) (hr : r.val = t.val * 200 + p.val) :
    outAt0_1 V c t (ValueIdx.ix2 p k) = aAdj V c (ValueIdx.ix2 r k) := by
  by_cases h0 : t.val % 50 = 0
  · rw [outAt0_1_A V c t h0,
      out0_A' (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) (iblk0 V c 0 t) (iblk0 V c 1 t) (iblk0 V c 2 t) (iblk0 V c 3 t) ((hcond0 t).mpr h0),
      PayIdx.k0_pay2_apply]
    exact blk0_0 V c t p k r hr
  · rw [outAt0_1_B V c t h0,
      out0_B' (F := Ideal) c (grid0.coords t) (ms0_0 t) (hs0_0 t) (ms0_1 t) (hs0_1 t) (ms0_2 t) (hs0_2 t) (ms0_3 t) (hs0_3 t)
        (ms0_4 t) (hs0_4 t) (ms0_5 t) (hs0_5 t) scM0_0 (Memref.isWhole_whole _) (iblk0 V c 0 t) (iblk0 V c 1 t) (iblk0 V c 2 t) (iblk0 V c 3 t) (P0_0 V c)
        (fun hc => h0 ((hcond0 t).mp hc)),
      PayIdx.k0_pay2_apply]
    exact blk0_0 V c t p k r hr

/-- What point t writes back through the first output is block t of the rectified layer. -/
theorem flushed0_4 (c : Dev nD) (t : Fin cfg0.N) :
    (dat0 (F := Ideal) V c).flushed 4 t = ((cfg0.win 4).blk t).view.read (Elt Ideal) (G0 V c) := by
  obtain ⟨-, -, -, -, -, -, -, -, e0, e1, -⟩ := idx0 t
  have hN : t.val < 50 := lt_of_lt_of_eq t.isLt (show cfg0.N = 50 from N_0)
  show (cfg0.win 4).cut (grid0.coords t) ((dat0 V c).after 4 t) = _
  rw [after0_4]
  funext y
  obtain ⟨p, j, rfl⟩ : ∃ (p : Fin 200) (j : Fin 64), y = ValueIdx.ix2 p j := ⟨y 0, y 1, ValueIdx.eq_ix2 y⟩
  show outAt0_0 V c t (ValueIdx.ix2 p j) = G0 V c (((cfg0.win 4).blk t).view.emb (ValueIdx.ix2 p j))
  rw [outAt0_0_apply V c t p j ⟨t.val * 200 + p.val, by have := p.isLt; omega⟩ rfl]
  refine congrArg (G0 V c) (funext fun a => Fin.ext ?_)
  match a with
  | ⟨0, _⟩ => show t.val * 200 + p.val = win0_4.index t 0 * 200 + 1 * p.val; rw [e0]; omega
  | ⟨1, _⟩ => show j.val = win0_4.index t 1 * 64 + 1 * j.val; rw [e1]; omega

/-- What point t writes back through the second output is block t of the adjacency. -/
theorem flushed0_5 (c : Dev nD) (t : Fin cfg0.N) :
    (dat0 (F := Ideal) V c).flushed 5 t = ((cfg0.win 5).blk t).view.read (Elt Ideal) (aAdj V c) := by
  obtain ⟨-, -, -, -, -, -, -, -, -, -, e0, e1⟩ := idx0 t
  have hN : t.val < 50 := lt_of_lt_of_eq t.isLt (show cfg0.N = 50 from N_0)
  show (cfg0.win 5).cut (grid0.coords t) ((dat0 V c).after 5 t) = _
  rw [after0_5]
  funext y
  obtain ⟨p, k, rfl⟩ : ∃ (p : Fin 200) (k : Fin 10000), y = ValueIdx.ix2 p k := ⟨y 0, y 1, ValueIdx.eq_ix2 y⟩
  show outAt0_1 V c t (ValueIdx.ix2 p k) = aAdj V c (((cfg0.win 5).blk t).view.emb (ValueIdx.ix2 p k))
  rw [outAt0_1_apply V c t p k ⟨t.val * 200 + p.val, by have := p.isLt; omega⟩ rfl]
  refine congrArg (aAdj V c) (funext fun a => Fin.ext ?_)
  match a with
  | ⟨0, _⟩ => show t.val * 200 + p.val = win0_5.index t 0 * 200 + 1 * p.val; rw [e0]; omega
  | ⟨1, _⟩ => show k.val = win0_5.index t 1 * 10000 + 1 * k.val; rw [e1]; omega

/-- An index of the first output's array is in point t's block iff each coordinate is in the block's range on its axis. -/
theorem mem_blk0_4 (t : Fin cfg0.N) (i : S10000x64.Idx) :
    i ∈ ((cfg0.win 4).blk t).view.set
      ↔ ∀ a : Fin 2, win0_4.index t a * S200x64.size a ≤ (i a).val ∧ (i a).val < win0_4.index t a * S200x64.size a + S200x64.size a := by
  show i ∈ ((View.whole main_v6_0).slice (win0_4.rect t)).set ↔ _
  rw [View.set_slice_whole, Rect.mem_set_unit]
  exact Iff.rfl

/-- The same for the second output's array. -/
theorem mem_blk0_5 (t : Fin cfg0.N) (i : S10000x10000.Idx) :
    i ∈ ((cfg0.win 5).blk t).view.set
      ↔ ∀ a : Fin 2, win0_5.index t a * S200x10000.size a ≤ (i a).val ∧ (i a).val < win0_5.index t a * S200x10000.size a + S200x10000.size a := by
  show i ∈ ((View.whole main_v6_1).slice (win0_5.rect t)).set ↔ _
  rw [View.set_slice_whole, Rect.mem_set_unit]
  exact Iff.rfl

/-- The first array the pass leaves is the rectified layer  relu(adj · (x · W) + b)  of the arrays it finds. -/
theorem arr0_4 (c : Dev nD) :
    (dat0 (F := Ideal) V c).arrAt 4 cfg0.N
      = uncur2 (Spec.relu (Spec.gc (cur2 (V c main_arg1 : S10000x10000.Idx → EReal)) (cur2 (V c main_arg0 : S10000x128.Idx → EReal))
          (cur2 (V c main_arg2 : S128x64.Idx → EReal)) (fun j => (V c main_v0 : S1x64.Idx → EReal) (ValueIdx.ix2 (0 : Fin 1) j)))) :=
  (dat0 (F := Ideal) V c).arrAt_eq_of_cover 4 (G0 V c) (fun t _ => flushed0_4 V c t) fun i => by
    have hi0 : ((i 0 : Fin 10000) : Nat) < 10000 := (i 0).isLt
    have hi1 : ((i 1 : Fin 64) : Nat) < 64 := (i 1).isLt
    have hN : cfg0.N = 50 := N_0
    refine ⟨⟨(i 0).val / 200, by rw [hN]; omega⟩, flush0_4 _, ?_⟩
    obtain ⟨-, -, -, -, -, -, -, -, e0, e1, -⟩ := idx0 ⟨(i 0).val / 200, by rw [hN]; omega⟩
    rw [mem_blk0_4]
    intro a
    match a with
    | ⟨0, _⟩ =>
      show win0_4.index _ 0 * 200 ≤ (i 0).val ∧ (i 0).val < win0_4.index _ 0 * 200 + 200
      rw [e0]; dsimp only; omega
    | ⟨1, _⟩ =>
      show win0_4.index _ 1 * 64 ≤ (i 1).val ∧ (i 1).val < win0_4.index _ 1 * 64 + 64
      rw [e1]; omega

/-- The second array the pass leaves is the adjacency it finds. -/
theorem arr0_5 (c : Dev nD) :
    (dat0 (F := Ideal) V c).arrAt 5 cfg0.N = (V c main_arg1 : S10000x10000.Idx → EReal) :=
  (dat0 (F := Ideal) V c).arrAt_eq_of_cover 5 (aAdj V c) (fun t _ => flushed0_5 V c t) fun i => by
    have hi0 : ((i 0 : Fin 10000) : Nat) < 10000 := (i 0).isLt
    have hi1 : ((i 1 : Fin 10000) : Nat) < 10000 := (i 1).isLt
    have hN : cfg0.N = 50 := N_0
    refine ⟨⟨(i 0).val / 200, by rw [hN]; omega⟩, flush0_5 _, ?_⟩
    obtain ⟨-, -, -, -, -, -, -, -, -, -, e0, e1⟩ := idx0 ⟨(i 0).val / 200, by rw [hN]; omega⟩
    rw [mem_blk0_5]
    intro a
    match a with
    | ⟨0, _⟩ =>
      show win0_5.index _ 0 * 200 ≤ (i 0).val ∧ (i 0).val < win0_5.index _ 0 * 200 + 200
      rw [e0]; dsimp only; omega
    | ⟨1, _⟩ =>
      show win0_5.index _ 1 * 10000 ≤ (i 1).val ∧ (i 1).val < win0_5.index _ 1 * 10000 + 10000
      rw [e1]; omega

end Array

end Cert.KernelIdeal.Val0

end
-- ==== Proof.Val1.lean ====
/-
  The second pass, read as values.  At the first grid point the body stores the projection  h · W  into the scratch
  and the row block  adj_block · (h · W) + b  into the output; at every later point it stores
  adj_block · scratch + b.  Over the extended reals the array the pass leaves is therefore
  adj · (h · W) + b, entry by entry: the specification's layer.
-/
import proofs.«114016_g31997506355976_cont_9to1_2145_5_alg».proof.Proof.Dat1
import proofs.«114016_g31997506355976_cont_9to1_2145_5_alg».proof.Proof.PayIdx
import proofs.«114016_g31997506355976_cont_9to1_2145_5_alg».proof.Proof.Spec
import Idealize.ShloMosaic.Lib.Pipeline.Value
import Idealize.ShloMosaic.Lib.Tactic

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat Cfg Window)

section Pieces
variable {F : FTy → Type} [FloatOps F]
variable (c : Dev nD) (i : grid1.Coords)
    (arg1 : Memref sig .tc .vmem S1000x10000 .bf16) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S1000x64 .f32) (harg5 : arg5.IsWhole) (arg6 : Memref sig .tc .vmem S10000x64 .bf16) (harg6 : arg6.IsWhole)
    (x0 : Vec F S1000x10000 .bf16) (x1 : Vec F S10000x64 .f32) (x2 : Vec F S64x64 .f32) (x3 : Vec F S1x64 .f32) (xs0 : Vec F S10000x64 .bf16)

theorem hz : (![0, 0] : Fin 2 → Nat) = fun _ => 0 := funext fun a => by fin_cases a <;> rfl

/-- The first point leaves the projection in the scratch. -/
theorem sout1_A (hc : cond1 i) :
    sout1_A_0 c i arg1 harg1 arg2 harg2 arg3 harg3 arg4 harg4 arg5 harg5 arg6 harg6 x0 x1 x2 x3 hc = k1_pay1 x1 x2 := by
  unfold sout1_A_0
  rw [View.read_writes_eq_canon _ _ _ (scover1_A_0 c i arg1 harg1 arg2 harg2 arg3 harg3 arg4 harg4 arg5 harg5 arg6 harg6 x0 x1 x2 x3 hc)]
  unfold kernelRun1_A
  dsimp only
  sl_unfold_words
  rw [View.canon_unit_zero (S := S10000x64) hz]
  simp only [View.readAt_eq_ld, harg2.read_unread, harg3.read_unread, View.ld_unit_zero (S := S10000x64) hz,
    View.ld_unit_zero (S := S64x64) hz]

/-- The first point leaves in the output the row block computed from the projection it has just stored. -/
theorem out1_A (hc : cond1 i) :
    out1_A_0 c i arg1 harg1 arg2 harg2 arg3 harg3 arg4 harg4 arg5 harg5 arg6 harg6 x0 x1 x2 x3 hc = k1_pay2 x0 (k1_pay1 x1 x2) x3 := by
  unfold out1_A_0
  rw [View.read_writes_eq_canon _ _ _ (cover1_A_0 c i arg1 harg1 arg2 harg2 arg3 harg3 arg4 harg4 arg5 harg5 arg6 harg6 x0 x1 x2 x3 hc)]
  unfold kernelRun1_A
  dsimp only
  sl_unfold_words
  rw [View.canon_unit_zero (S := S1000x64) hz, View.readCov_unit_zero (S := S10000x64) _ hz]
  simp only [View.readAt_eq_ld, harg1.read_unread, harg2.read_unread, harg3.read_unread, harg4.read_unread,
    View.ld_unit_zero (S := S1000x10000) hz, View.ld_unit_zero (S := S10000x64) hz, View.ld_unit_zero (S := S64x64) hz,
    View.ld_unit_zero (S := S1x64) hz]

/-- A later point leaves in the output the row block computed from the scratch it is given. -/
theorem out1_B (hc : ¬cond1 i) :
    out1_B_0 c i arg1 harg1 arg2 harg2 arg3 harg3 arg4 harg4 arg5 harg5 arg6 harg6 x0 x1 x2 x3 xs0 hc = k1_pay2 x0 xs0 x3 := by
  unfold out1_B_0
  rw [View.read_writes_eq_canon _ _ _ (cover1_B_0 c i arg1 harg1 arg2 harg2 arg3 harg3 arg4 harg4 arg5 harg5 arg6 harg6 x0 x1 x2 x3 xs0 hc)]
  unfold kernelRun1_B
  dsimp only
  rw [View.canon_unit_zero (S := S1000x64) hz]
  simp only [View.readAt_eq_ld, harg1.read_unread, harg4.read_unread, harg6.read_unread,
    View.ld_unit_zero (S := S1000x10000) hz, View.ld_unit_zero (S := S10000x64) hz, View.ld_unit_zero (S := S1x64) hz]
end Pieces

/-! ## The array the pass leaves, over the extended reals -/

section Array
open Cert.Spec (cur1 cur2 uncur2)

variable (V : (c : Dev nD) → (b : Ref sig .tc) → Buf (Elt Ideal) ((c : Thread nD τ).loc b))

/-- The arrays the pass finds, as functions of an index into the extended reals: the adjacency, the features, the
    weights, the bias row. -/
abbrev aAdj (c : Dev nD) : S10000x10000.Idx → EReal := V c main_v6_1
abbrev aH (c : Dev nD) : S10000x64.Idx → EReal := V c main_v6_0
abbrev aW (c : Dev nD) : S64x64.Idx → EReal := V c main_arg4
abbrev aB (c : Dev nD) : S1x64.Idx → EReal := V c main_v1

/-- The printed index maps over the grid: the adjacency and the output move down one row block per point, every
    other window stays at its whole array. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0)

/-- The adjacency block at point t is rows 1000·t … 1000·t + 999 of the adjacency. -/
theorem blk1_0 (c : Dev nD) (t : Fin cfg1.N) (p : Fin 1000) (k : Fin 10000) (r : Fin 10000) (hr : r.val = t.val * 1000 + p.val) :
    (iblk1 V c 0 t : Vec Ideal S1000x10000 .bf16) (ValueIdx.ix2 p k) = aAdj V c (ValueIdx.ix2 r k) := by
  obtain ⟨e0, e1, -⟩ := idx1 t
  unfold iblk1
  rw [View.read_apply]
  show V c main_v6_1 _ = V c main_v6_1 _
  refine congrArg _ (funext fun a => Fin.ext ?_)
  match a with
  | ⟨0, _⟩ => show win1_0.index t 0 * 1000 + 1 * p.val = r.val; rw [e0, hr]; omega
  | ⟨1, _⟩ => show win1_0.index t 1 * 10000 + 1 * k.val = k.val; rw [e1]; omega

/-- The features' block at every point is the whole array. -/
theorem blk1_1 (c : Dev nD) (t : Fin cfg1.N) (k : Fin 10000) (l : Fin 64) :
    (iblk1 V c 1 t : Vec Ideal S10000x64 .f32) (ValueIdx.ix2 k l) = aH V c (ValueIdx.ix2 k l) := by
  obtain ⟨-, -, e0, e1, -⟩ := idx1 t
  unfold iblk1
  rw [View.read_apply]
  show V c main_v6_0 _ = V c main_v6_0 _
  refine congrArg _ (funext fun a => Fin.ext ?_)
  match a with
  | ⟨0, _⟩ => show win1_1.index t 0 * 10000 + 1 * k.val = k.val; rw [e0]; omega
  | ⟨1, _⟩ => show win1_1.index t 1 * 64 + 1 * l.val = l.val; rw [e1]; omega

/-- The weights' block at every point is the whole array. -/
theorem blk1_2 (c : Dev nD) (t : Fin cfg1.N) (l : Fin 64) (j : Fin 64) :
    (iblk1 V c 2 t : Vec Ideal S64x64 .f32) (ValueIdx.ix2 l j) = aW V c (ValueIdx.ix2 l j) := by
  obtain ⟨-, -, -, -, e0, e1, -⟩ := idx1 t
  unfold iblk1
  rw [View.read_apply]
  show V c main_arg4 _ = V c main_arg4 _
  refine congrArg _ (funext fun a => Fin.ext ?_)
  match a with
  | ⟨0, _⟩ => show win1_2.index t 0 * 64 + 1 * l.val = l.val; rw [e0]; omega
  | ⟨1, _⟩ => show win1_2.index t 1 * 64 + 1 * j.val = j.val; rw [e1]; omega

/-- The bias row's block at every point is the whole one-row array. -/
theorem blk1_3 (c : Dev nD) (t : Fin cfg1.N) (j : Fin 64) :
    (iblk1 V c 3 t : Vec Ideal S1x64 .f32) (ValueIdx.ix2 (0 : Fin 1) j) = aB V c (ValueIdx.ix2 (0 : Fin 1) j) := by
  obtain ⟨-, -, -, -, -, -, e0, e1, -⟩ := idx1 t
  unfold iblk1
  rw [View.read_apply]
  show V c main_v1 _ = V c main_v1 _
  refine congrArg _ (funext fun a => Fin.ext ?_)
  match a with
  | ⟨0, _⟩ => show win1_3.index t 0 * 1 + 1 * 0 = 0; rw [e0]
  | ⟨1, _⟩ => show win1_3.index t 1 * 64 + 1 * j.val = j.val; rw [e1]; omega

/-- The projection computed from the blocks of any point is the product of the features with the weights. -/
theorem proj1 (c : Dev nD) (t : Fin cfg1.N) (k : Fin 10000) (j : Fin 64) :
    k1_pay1 (F := Ideal) (iblk1 V c 1 t) (iblk1 V c 2 t) (ValueIdx.ix2 k j)
      = ∑ l : Fin 64, aH V c (ValueIdx.ix2 k l) * aW V c (ValueIdx.ix2 l j) :=
  (PayIdx.k1_pay1_apply (iblk1 V c 1 t) (iblk1 V c 2 t) k j).trans
    (Finset.sum_congr rfl fun l _ => by rw [blk1_1 V c t k l, blk1_2 V c t l j])

/-- The layer the pass computes, as a function of the arrays it finds. -/
abbrev G1 (c : Dev nD) : S10000x64.Idx → EReal :=
  uncur2 (Spec.gc (cur2 (aAdj V c)) (cur2 (aH V c)) (cur2 (aW V c)) (fun j => aB V c (ValueIdx.ix2 (0 : Fin 1) j)))

/-- A row block computed from a scratch that holds the projection is the layer's rows. -/
theorem pay2_row (c : Dev nD) (t : Fin cfg1.N) (xs : Vec Ideal S10000x64 .bf16)
    (hxs : ∀ (k : Fin 10000) (j : Fin 64), xs (ValueIdx.ix2 k j) = ∑ l : Fin 64, aH V c (ValueIdx.ix2 k l) * aW V c (ValueIdx.ix2 l j))
    (p : Fin 1000) (j : Fin 64) (r : Fin 10000) (hr : r.val = t.val * 1000 + p.val) :
    k1_pay2 (F := Ideal) (iblk1 V c 0 t) xs (iblk1 V c 3 t) (ValueIdx.ix2 p j) = G1 V c (ValueIdx.ix2 r j) := by
  refine (PayIdx.k1_pay2_apply (iblk1 V c 0 t) xs (iblk1 V c 3 t) p j).trans ?_
  rw [blk1_3 V c t j]
  show _ = (∑ k : Fin 10000, aAdj V c (ValueIdx.ix2 r k) * ∑ l : Fin 64, aH V c (ValueIdx.ix2 k l) * aW V c (ValueIdx.ix2 l j))
    + aB V c (ValueIdx.ix2 (0 : Fin 1) j)
  refine congrArg (· + aB V c (ValueIdx.ix2 (0 : Fin 1) j)) (Finset.sum_congr rfl fun k _ => ?_)
  rw [blk1_0 V c t p k r hr, hxs k j]

/-- What the output's staging buffer holds after the body at any point: the layer's rows of that point's block. -/
theorem outAt1_apply (c : Dev nD) (t : Fin cfg1.N) (p : Fin 1000) (j : Fin 64) (r : Fin 10000) (hr : r.val = t.val * 1000 + p.val) :
    outAt1_0 V c t (ValueIdx.ix2 p j) = G1 V c (ValueIdx.ix2 r j) := by
  by_cases h0 : t.val % 10 = 0
  · rw [outAt1_0_A V c t h0,
      out1_A (F := Ideal) c (grid1.coords t) (ms1_0 t) (hs1_0 t) (ms1_1 t) (hs1_1 t) (ms1_2 t) (hs1_2 t) (ms1_3 t) (hs1_3 t)
        (ms1_4 t) (hs1_4 t) scM1_0 (Memref.isWhole_whole _) (iblk1 V c 0 t) (iblk1 V c 1 t) (iblk1 V c 2 t) (iblk1 V c 3 t) ((hcond1 t).mpr h0)]
    exact pay2_row V c t _ (proj1 V c t) p j r hr
  · rw [outAt1_0_B V c t h0,
      out1_B (F := Ideal) c (grid1.coords t) (ms1_0 t) (hs1_0 t) (ms1_1 t) (hs1_1 t) (ms1_2 t) (hs1_2 t) (ms1_3 t) (hs1_3 t)
        (ms1_4 t) (hs1_4 t) scM1_0 (Memref.isWhole_whole _) (iblk1 V c 0 t) (iblk1 V c 1 t) (iblk1 V c 2 t) (iblk1 V c 3 t) (P1_0 V c)
        (fun hc => h0 ((hcond1 t).mp hc))]
    refine pay2_row V c t (P1_0 V c) (fun k j => ?_) p j r hr
    unfold P1_0
    rw [sout1_A (F := Ideal) c (grid1.coords tz1) (ms1_0 tz1) (hs1_0 tz1) (ms1_1 tz1) (hs1_1 tz1) (ms1_2 tz1) (hs1_2 tz1) (ms1_3 tz1) (hs1_3 tz1)
        (ms1_4 tz1) (hs1_4 tz1) scM1_0 (Memref.isWhole_whole _) (iblk1 V c 0 tz1) (iblk1 V c 1 tz1) (iblk1 V c 2 tz1) (iblk1 V c 3 tz1) hc1_first]
    exact proj1 V c tz1 k j

/-- What point t writes back is block t of the layer. -/
theorem flushed1_4 (c : Dev nD) (t : Fin cfg1.N) :
    (dat1 (F := Ideal) V c).flushed 4 t = ((cfg1.win 4).blk t).view.read (Elt Ideal) (G1 V c) := by
  obtain ⟨-, -, -, -, -, -, -, -, e0, e1⟩ := idx1 t
  have hN : t.val < 10 := lt_of_lt_of_eq t.isLt (show cfg1.N = 10 from N_1)
  show (cfg1.win 4).cut (grid1.coords t) ((dat1 V c).after 4 t) = _
  rw [after1_4]
  funext y
  obtain ⟨p, j, rfl⟩ : ∃ (p : Fin 1000) (j : Fin 64), y = ValueIdx.ix2 p j := ⟨y 0, y 1, ValueIdx.eq_ix2 y⟩
  show outAt1_0 V c t (ValueIdx.ix2 p j) = G1 V c (((cfg1.win 4).blk t).view.emb (ValueIdx.ix2 p j))
  rw [outAt1_apply V c t p j ⟨t.val * 1000 + p.val, by have := p.isLt; omega⟩ rfl]
  refine congrArg (G1 V c) (funext fun a => Fin.ext ?_)
  match a with
  | ⟨0, _⟩ => show t.val * 1000 + p.val = win1_4.index t 0 * 1000 + 1 * p.val; rw [e0]; omega
  | ⟨1, _⟩ => show j.val = win1_4.index t 1 * 64 + 1 * j.val; rw [e1]; omega

/-- An index of the array is in point t's block iff each coordinate is in the block's range on its axis. -/
theorem mem_blk1_4 (t : Fin cfg1.N) (i : S10000x64.Idx) :
    i ∈ ((cfg1.win 4).blk t).view.set
      ↔ ∀ a : Fin 2, win1_4.index t a * S1000x64.size a ≤ (i a).val ∧ (i a).val < win1_4.index t a * S1000x64.size a + S1000x64.size a := by
  show i ∈ ((View.whole main_v7).slice (win1_4.rect t)).set ↔ _
  rw [View.set_slice_whole, Rect.mem_set_unit]
  exact Iff.rfl

/-- The array the pass leaves is the layer  adj · (h · W) + b  of the arrays it finds. -/
theorem arr1_4 (c : Dev nD) :
    (dat1 (F := Ideal) V c).arrAt 4 cfg1.N
      = uncur2 (Spec.gc (cur2 (V c main_v6_1 : S10000x10000.Idx → EReal)) (cur2 (V c main_v6_0 : S10000x64.Idx → EReal))
          (cur2 (V c main_arg4 : S64x64.Idx → EReal)) (fun j => (V c main_v1 : S1x64.Idx → EReal) (ValueIdx.ix2 (0 : Fin 1) j))) :=
  (dat1 (F := Ideal) V c).arrAt_eq_of_cover 4 (G1 V c) (fun t _ => flushed1_4 V c t) fun i => by
    have hi0 : ((i 0 : Fin 10000) : Nat) < 10000 := (i 0).isLt
    have hi1 : ((i 1 : Fin 64) : Nat) < 64 := (i 1).isLt
    have hN : cfg1.N = 10 := N_1
    refine ⟨⟨(i 0).val / 1000, by rw [hN]; omega⟩, flush1_4 _, ?_⟩
    obtain ⟨-, -, -, -, -, -, -, -, e0, e1⟩ := idx1 ⟨(i 0).val / 1000, by rw [hN]; omega⟩
    rw [mem_blk1_4]
    intro a
    match a with
    | ⟨0, _⟩ =>
      show win1_4.index _ 0 * 1000 ≤ (i 0).val ∧ (i 0).val < win1_4.index _ 0 * 1000 + 1000
      rw [e0]; dsimp only; omega
    | ⟨1, _⟩ =>
      show win1_4.index _ 1 * 64 ≤ (i 1).val ∧ (i 1).val < win1_4.index _ 1 * 64 + 64
      rw [e1]; omega

end Array

end Cert.KernelIdeal.Val1

end
-- ==== Proof.Val2.lean ====
/-
  The third pass, read as values.  At the first grid point the body stores the projection  z · [W₁ | W₂]  into the
  scratch, and the two halves of the clamped row block  max (adj_block · (z · [W₁ | W₂]) + [b₁ | b₂]) 0  into the two
  outputs; at every later point it stores the halves of  max (adj_block · scratch + [b₁ | b₂]) 0.  Over the extended
  reals the two arrays the pass leaves are therefore the two clamped layers, entry by entry.
-/
import proofs.«114016_g31997506355976_cont_9to1_2145_5_alg».proof.Proof.Dat2
import proofs.«114016_g31997506355976_cont_9to1_2145_5_alg».proof.Proof.PayIdx
import proofs.«114016_g31997506355976_cont_9to1_2145_5_alg».proof.Proof.Spec
import Idealize.ShloMosaic.Lib.Pipeline.Value
import Idealize.ShloMosaic.Lib.Tactic

set_option maxRecDepth 16384

noncomputable section

namespace Cert.KernelIdeal.Val2

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat Cfg Window)

section Pieces
variable {F : FTy → Type} [FloatOps F]
variable (c : Dev nD) (i : grid2.Coords)
    (arg1 : Memref sig .tc .vmem S1000x10000 .bf16) (harg1 : arg1.IsWhole) (arg2 : Memref sig .tc .vmem S10000x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1000x64 .f32) (harg5 : arg5.IsWhole) (arg6 : Memref sig .tc .vmem S1000x64 .f32) (harg6 : arg6.IsWhole) (arg7 : Memref sig .tc .vmem S10000x128 .bf16) (harg7 : arg7.IsWhole)
    (x0 : Vec F S1000x10000 .bf16) (x1 : Vec F S10000x64 .f32) (x2 : Vec F S64x128 .f32) (x3 : Vec F S1x128 .f32) (xs0 : Vec F S10000x128 .bf16)

theorem hz : (![0, 0] : Fin 2 → Nat) = fun _ => 0 := funext fun a => by fin_cases a <;> rfl

/-- First point: the scratch is left holding the projection  z · [W₁ | W₂]. -/
theorem sout2_A (hc : cond2 i) :
    sout2_A_0 c i arg1 harg1 arg2 harg2 arg3 harg3 arg4 harg4 arg5 harg5 arg6 harg6 arg7 harg7 x0 x1 x2 x3 hc = k2_pay1 x1 x2 := by
  unfold sout2_A_0
  rw [View.read_writes_eq_canon _ _ _ (scover2_A_0 c i arg1 harg1 arg2 harg2 arg3 harg3 arg4 harg4 arg5 harg5 arg6 harg6 arg7 harg7 x0 x1 x2 x3 hc)]
  unfold kernelRun2_A
  dsimp only
  sl_unfold_words
  rw [View.canon_unit_zero (S := S10000x128) hz]
  simp only [View.readAt_eq_ld, harg2.read_unread, harg3.read_unread, View.ld_unit_zero (S := S10000x64) hz, View.ld_unit_zero (S := S64x128) hz]

/-- First point: the first output's block is the left half of the clamped row block, the scratch read back being the projection just stored. -/
theorem out2_A0 (hc : cond2 i) :
    out2_A_0 c i arg1 harg1 arg2 harg2 arg3 harg3 arg4 harg4 arg5 harg5 arg6 harg6 arg7 harg7 x0 x1 x2 x3 hc = k2_pay3 x0 (k2_pay1 x1 x2) x3 := by
  unfold out2_A_0
  rw [View.read_writes_eq_canon _ _ _ (cover2_A_0 c i arg1 harg1 arg2 harg2 arg3 harg3 arg4 harg4 arg5 harg5 arg6 harg6 arg7 harg7 x0 x1 x2 x3 hc)]
  unfold kernelRun2_A
  dsimp only
  sl_unfold_words
  rw [View.canon_unit_zero (S := S1000x64) hz, View.readCov_unit_zero (S := S10000x128) _ hz]
  simp only [View.readAt_eq_ld, harg1.read_unread, harg2.read_unread, harg3.read_unread, harg4.read_unread, View.ld_unit_zero (S := S1000x10000) hz, View.ld_unit_zero (S := S10000x64) hz, View.ld_unit_zero (S := S64x128) hz, View.ld_unit_zero (S := S1x128) hz]

/-- First point: the second output's block is the right half of the clamped row block, the scratch read back being the projection just stored. -/
theorem out2_A1 (hc : cond2 i) :
    out2_A_1 c i arg1 harg1 arg2 harg2 arg3 harg3 arg4 harg4 arg5 harg5 arg6 harg6 arg7 harg7 x0 x1 x2 x3 hc = k2_pay4 x0 (k2_pay1 x1 x2) x3 := by
  unfold out2_A_1
  rw [View.read_writes_eq_canon _ _ _ (cover2_A_1 c i arg1 harg1 arg2 harg2 arg3 harg3 arg4 harg4 arg5 harg5 arg6 harg6 arg7 harg7 x0 x1 x2 x3 hc)]
  unfold kernelRun2_A
  dsimp only
  sl_unfold_words
  rw [View.canon_unit_zero (S := S1000x64) hz, View.readCov_unit_zero (S := S10000x128) _ hz]
  simp only [View.readAt_eq_ld, harg1.read_unread, harg2.read_unread, harg3.read_unread, harg4.read_unread, View.ld_unit_zero (S := S1000x10000) hz, View.ld_unit_zero (S := S10000x64) hz, View.ld_unit_zero (S := S64x128) hz, View.ld_unit_zero (S := S1x128) hz]

/-- Later points: the first output's block is the left half of the clamped row block, the scratch holding what it is given. -/
theorem out2_B0 (hc : ¬cond2 i) :
    out2_B_0 c i arg1 harg1 arg2 harg2 arg3 harg3 arg4 harg4 arg5 harg5 arg6 harg6 arg7 harg7 x0 x1 x2 x3 xs0 hc = k2_pay3 x0 xs0 x3 := by
  unfold out2_B_0
  rw [View.read_writes_eq_canon _ _ _ (cover2_B_0 c i arg1 harg1 arg2 harg2 arg3 harg3 arg4 harg4 arg5 harg5 arg6 harg6 arg7 harg7 x0 x1 x2 x3 xs0 hc)]
  unfold kernelRun2_B
  dsimp only
  sl_unfold_words
  rw [View.canon_unit_zero (S := S1000x64) hz]
  simp only [View.readAt_eq_ld, harg1.read_unread, harg4.read_unread, harg7.read_unread, View.ld_unit_zero (S := S1000x10000) hz, View.ld_unit_zero (S := S10000x128) hz, View.ld_unit_zero (S := S1x128) hz]

/-- Later points: the second output's block is the right half of the clamped row block, the scratch holding what it is given. -/
theorem out2_B1 (hc : ¬cond2 i) :
    out2_B_1 c i arg1 harg1 arg2 harg2 arg3 harg3 arg4 harg4 arg5 harg5 arg6 harg6 arg7 harg7 x0 x1 x2 x3 xs0 hc = k2_pay4 x0 xs0 x3 := by
  unfold out2_B_1
  rw [View.read_writes_eq_canon _ _ _ (cover2_B_1 c i arg1 harg1 arg2 harg2 arg3 harg3 arg4 harg4 arg5 harg5 arg6 harg6 arg7 harg7 x0 x1 x2 x3 xs0 hc)]
  unfold kernelRun2_B
  dsimp only
  sl_unfold_words
  rw [View.canon_unit_zero (S := S1000x64) hz]
  simp only [View.readAt_eq_ld, harg1.read_unread, harg4.read_unread, harg7.read_unread, View.ld_unit_zero (S := S1000x10000) hz, View.ld_unit_zero (S := S10000x128) hz, View.ld_unit_zero (S := S1x128) hz]

end Pieces

/-! ## The blocks the body reads, entry by entry -/

section Arrays
variable (V : (c : Dev nD) → (b : Ref sig .tc) → Buf (Elt Ideal) ((c : Thread nD τ).loc b)) (c : Dev nD)

/-- The arrays the pass reads, as functions into the extended reals: the adjacency, the embedding, the two weight
    matrices side by side, the two bias rows joined. -/
abbrev adjA : S10000x10000.Idx → EReal := V c main_v6_1
abbrev embA : S10000x64.Idx → EReal := V c main_v7
abbrev wtsA : S64x128.Idx → EReal := V c main_v2
abbrev biasA : S1x128.Idx → EReal := V c main_v4

/-- The block indices over the grid: the adjacency rows and the two outputs move with the point, the other three
    windows are the whole of their arrays. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of the adjacency block at point t is row t·1000 + p of the adjacency. -/
theorem blk2_0 (t : Fin cfg2.N) (p : Fin 1000) (k : Fin 10000) (r : Fin 10000) (hr : r.val = t.val * 1000 + p.val) :
    (iblk2 V c 0 t : S1000x10000.Idx → EReal) (ValueIdx.ix2 p k) = adjA V c (ValueIdx.ix2 r k) := by
  obtain ⟨e0, e1, -⟩ := idx2 t
  unfold iblk2
  rw [View.read_apply]
  show adjA V c _ = _
  congr 1
  funext a; apply Fin.ext
  match a with
  | ⟨0, _⟩ => show win2_0.index t (0 : Fin 2) * 1000 + 1 * p.val = r.val; rw [e0, hr]; omega
  | ⟨1, _⟩ => show win2_0.index t (1 : Fin 2) * 10000 + 1 * k.val = k.val; rw [e1]; omega

/-- The embedding's window is the whole array. -/
theorem blk2_1 (t : Fin cfg2.N) (k : Fin 10000) (l : Fin 64) :
    (iblk2 V c 1 t : S10000x64.Idx → EReal) (ValueIdx.ix2 k l) = embA V c (ValueIdx.ix2 k l) := by
  obtain ⟨-, -, e0, e1, -⟩ := idx2 t
  unfold iblk2
  rw [View.read_apply]
  show embA V c _ = _
  congr 1
  funext a; apply Fin.ext
  match a with
  | ⟨0, _⟩ => show win2_1.index t (0 : Fin 2) * 10000 + 1 * k.val = k.val; rw [e0]; omega
  | ⟨1, _⟩ => show win2_1.index t (1 : Fin 2) * 64 + 1 * l.val = l.val; rw [e1]; omega

/-- The side-by-side weights' window is the whole array. -/
theorem blk2_2 (t : Fin cfg2.N) (l : Fin 64) (q : Fin 128) :
    (iblk2 V c 2 t : S64x128.Idx → EReal) (ValueIdx.ix2 l q) = wtsA V c (ValueIdx.ix2 l q) := by
  obtain ⟨-, -, -, -, e0, e1, -⟩ := idx2 t
  unfold iblk2
  rw [View.read_apply]
  show wtsA V c _ = _
  congr 1
  funext a; apply Fin.ext
  match a with
  | ⟨0, _⟩ => show win2_2.index t (0 : Fin 2) * 64 + 1 * l.val = l.val; rw [e0]; omega
  | ⟨1, _⟩ => show win2_2.index t (1 : Fin 2) * 128 + 1 * q.val = q.val; rw [e1]; omega

/-- The joined bias row's window is the whole array. -/
theorem blk2_3 (t : Fin cfg2.N) (q : Fin 128) :
    (iblk2 V c 3 t : S1x128.Idx → EReal) (ValueIdx.ix2 (0 : Fin 1) q) = biasA V c (ValueIdx.ix2 (0 : Fin 1) q) := by
  obtain ⟨-, -, -, -, -, -, e0, e1, -⟩ := idx2 t
  unfold iblk2
  rw [View.read_apply]
  show biasA V c _ = _
  congr 1
  funext a; apply Fin.ext
  match a with
  | ⟨0, _⟩ => show win2_3.index t (0 : Fin 2) * 1 + 1 * (0 : Fin 1).val = (0 : Fin 1).val; rw [e0]; rfl
  | ⟨1, _⟩ => show win2_3.index t (1 : Fin 2) * 128 + 1 * q.val = q.val; rw [e1]; omega

/-! ## The stored values over variables -/

/-- The left stored half is the full-width value at the same column. -/
theorem pay3_eq_pay2 (v3 : Vec Ideal S1000x10000 .bf16) (v5 : Vec Ideal S10000x128 .bf16) (v7 : Vec Ideal S1x128 .f32)
    (p : Fin 1000) (j : Fin 64) :
    k2_pay3 (F := Ideal) v3 v5 v7 (ValueIdx.ix2 p j) = k2_pay2 (F := Ideal) v3 v5 v7 (ValueIdx.ix2 p (⟨j.val, by omega⟩ : Fin 128)) :=
  (PayIdx.k2_pay3_apply v3 v5 v7 p j).trans (PayIdx.k2_pay2_apply v3 v5 v7 p _).symm

/-- The right stored half is the full-width value 64 columns on. -/
theorem pay4_eq_pay2 (v3 : Vec Ideal S1000x10000 .bf16) (v5 : Vec Ideal S10000x128 .bf16) (v7 : Vec Ideal S1x128 .f32)
    (p : Fin 1000) (j : Fin 64) :
    k2_pay4 (F := Ideal) v3 v5 v7 (ValueIdx.ix2 p j) = k2_pay2 (F := Ideal) v3 v5 v7 (ValueIdx.ix2 p (⟨j.val + 64, by omega⟩ : Fin 128)) :=
  (PayIdx.k2_pay4_apply v3 v5 v7 p j).trans (PayIdx.k2_pay2_apply v3 v5 v7 p _).symm

/-- The first point's full-width value at (p, q), from what its loaded blocks are entry by entry. -/
theorem full_A (x0 : Vec Ideal S1000x10000 .bf16) (x1 : Vec Ideal S10000x64 .f32) (x2 : Vec Ideal S64x128 .f32)
    (x3 : Vec Ideal S1x128 .f32) (p : Fin 1000) (q : Fin 128)
    (A : Fin 10000 → EReal) (Z : Fin 10000 → Fin 64 → EReal) (Wq : Fin 64 → EReal) (bq : EReal)
    (h0 : ∀ k, x0 (ValueIdx.ix2 p k) = A k) (h1 : ∀ k l, x1 (ValueIdx.ix2 k l) = Z k l)
    (h2 : ∀ l, x2 (ValueIdx.ix2 l q) = Wq l) (h3 : x3 (ValueIdx.ix2 (0 : Fin 1) q) = bq) :
    k2_pay2 (F := Ideal) x0 (k2_pay1 (F := Ideal) x1 x2) x3 (ValueIdx.ix2 p q)
      = max ((∑ k : Fin 10000, A k * ∑ l : Fin 64, Z k l * Wq l) + bq) 0 := by
  rw [PayIdx.k2_pay2_apply, h3]
  refine congrArg (fun s => max (s + bq) 0) (Finset.sum_congr rfl fun k _ => ?_)
  rw [h0, PayIdx.k2_pay1_apply]
  exact congrArg (A k * ·) (Finset.sum_congr rfl fun l _ => by rw [h1, h2])

/-- A later point's full-width value at (p, q), the scratch holding S entry by entry in column q. -/
theorem full_B (x0 : Vec Ideal S1000x10000 .bf16) (xs0 : Vec Ideal S10000x128 .bf16) (x3 : Vec Ideal S1x128 .f32)
    (p : Fin 1000) (q : Fin 128) (A : Fin 10000 → EReal) (S : Fin 10000 → EReal) (bq : EReal)
    (h0 : ∀ k, x0 (ValueIdx.ix2 p k) = A k) (hs : ∀ k, xs0 (ValueIdx.ix2 k q) = S k)
    (h3 : x3 (ValueIdx.ix2 (0 : Fin 1) q) = bq) :
    k2_pay2 (F := Ideal) x0 xs0 x3 (ValueIdx.ix2 p q) = max ((∑ k : Fin 10000, A k * S k) + bq) 0 := by
  rw [PayIdx.k2_pay2_apply, h3]
  exact congrArg (fun s => max (s + bq) 0) (Finset.sum_congr rfl fun k _ => by rw [h0, hs])

/-! ## The two arrays the pass leaves -/

/-- Entry (r, q) of the full-width clamped layer  max (adj · (z · [W₁ | W₂]) + [b₁ | b₂]) 0. -/
def layer (r : Fin 10000) (q : Fin 128) : EReal :=
  max ((∑ k : Fin 10000, adjA V c (ValueIdx.ix2 r k)
      * ∑ l : Fin 64, embA V c (ValueIdx.ix2 k l) * wtsA V c (ValueIdx.ix2 l q))
    + biasA V c (ValueIdx.ix2 (0 : Fin 1) q)) 0

/-- The left clamped layer as an array: the specification's layer over columns 0..63 of the joined weights and biases. -/
abbrev G4 : S10000x64.Idx → EReal :=
  Cert.Spec.uncur2 (Cert.Spec.relu (Cert.Spec.gc (Cert.Spec.cur2 (adjA V c)) (Cert.Spec.cur2 (embA V c))
    (fun l j => wtsA V c (ValueIdx.ix2 l (⟨j.val, by omega⟩ : Fin 128)))
    (fun j => biasA V c (ValueIdx.ix2 (0 : Fin 1) (⟨j.val, by omega⟩ : Fin 128)))))

/-- The right clamped layer as an array: the same over columns 64..127. -/
abbrev G5 : S10000x64.Idx → EReal :=
  Cert.Spec.uncur2 (Cert.Spec.relu (Cert.Spec.gc (Cert.Spec.cur2 (adjA V c)) (Cert.Spec.cur2 (embA V c))
    (fun l j => wtsA V c (ValueIdx.ix2 l (⟨j.val + 64, by omega⟩ : Fin 128)))
    (fun j => biasA V c (ValueIdx.ix2 (0 : Fin 1) (⟨j.val + 64, by omega⟩ : Fin 128)))))

theorem G4_apply (r : Fin 10000) (j : Fin 64) : G4 V c (ValueIdx.ix2 r j) = layer V c r (⟨j.val, by omega⟩ : Fin 128) := rfl
theorem G5_apply (r : Fin 10000) (j : Fin 64) : G5 V c (ValueIdx.ix2 r j) = layer V c r (⟨j.val + 64, by omega⟩ : Fin 128) := rfl

/-- What the first point leaves in the scratch, at (k, q): the projection  z · [W₁ | W₂]. -/
theorem P2_0_apply (k : Fin 10000) (q : Fin 128) :
    (P2_0 V c : S10000x128.Idx → EReal) (ValueIdx.ix2 k q)
      = ∑ l : Fin 64, embA V c (ValueIdx.ix2 k l) * wtsA V c (ValueIdx.ix2 l q) := by
  unfold P2_0
  rw [sout2_A c (grid2.coords tz2) (ms2_0 tz2) (hs2_0 tz2) (ms2_1 tz2) (hs2_1 tz2) (ms2_2 tz2) (hs2_2 tz2) (ms2_3 tz2) (hs2_3 tz2) (ms2_4 tz2) (hs2_4 tz2) (ms2_5 tz2) (hs2_5 tz2) scM2_0 (Memref.isWhole_whole _) (iblk2 V c 0 tz2) (iblk2 V c 1 tz2) (iblk2 V c 2 tz2) (iblk2 V c 3 tz2) hc2_first]
  refine (PayIdx.k2_pay1_apply (iblk2 V c 1 tz2) (iblk2 V c 2 tz2) k q).trans ?_
  exact Finset.sum_congr rfl fun l _ => by rw [blk2_1 V c tz2 k l, blk2_2 V c tz2 l q]

/-- What output 0's staging buffer holds after the body at point t, at (p, j): entry (t·1000 + p, j) of the
    full-width clamped layer, at the first point and at every later one. -/
theorem outAt2_0_apply (t : Fin cfg2.N) (p : Fin 1000) (j : Fin 64) (r : Fin 10000) (hr : r.val = t.val * 1000 + p.val) :
    (outAt2_0 V c t : S1000x64.Idx → EReal) (ValueIdx.ix2 p j) = layer V c r (⟨j.val, by omega⟩ : Fin 128) := by
  by_cases h : t.val % 10 = 0
  · rw [outAt2_0_A V c t h, out2_A0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)]
    refine (pay3_eq_pay2 (iblk2 V c 0 t) (k2_pay1 (iblk2 V c 1 t) (iblk2 V c 2 t)) (iblk2 V c 3 t) p j).trans ?_
    exact full_A (iblk2 V c 0 t) (iblk2 V c 1 t) (iblk2 V c 2 t) (iblk2 V c 3 t) p (⟨j.val, by omega⟩ : Fin 128)
      (fun k => adjA V c (ValueIdx.ix2 r k)) (fun k l => embA V c (ValueIdx.ix2 k l))
      (fun l => wtsA V c (ValueIdx.ix2 l (⟨j.val, by omega⟩ : Fin 128))) (biasA V c (ValueIdx.ix2 (0 : Fin 1) (⟨j.val, by omega⟩ : Fin 128)))
      (fun k => blk2_0 V c t p k r hr) (fun k l => blk2_1 V c t k l) (fun l => blk2_2 V c t l _) (blk2_3 V c t _)
  · rw [outAt2_0_B V c t h, out2_B0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))]
    refine (pay3_eq_pay2 (iblk2 V c 0 t) (P2_0 V c) (iblk2 V c 3 t) p j).trans ?_
    exact full_B (iblk2 V c 0 t) (P2_0 V c) (iblk2 V c 3 t) p (⟨j.val, by omega⟩ : Fin 128)
      (fun k => adjA V c (ValueIdx.ix2 r k))
      (fun k => ∑ l : Fin 64, embA V c (ValueIdx.ix2 k l) * wtsA V c (ValueIdx.ix2 l (⟨j.val, by omega⟩ : Fin 128)))
      (biasA V c (ValueIdx.ix2 (0 : Fin 1) (⟨j.val, by omega⟩ : Fin 128)))
      (fun k => blk2_0 V c t p k r hr) (fun k => P2_0_apply V c k _) (blk2_3 V c t _)

/-- What output 1's staging buffer holds after the body at point t, at (p, j): entry (t·1000 + p, j + 64) of the
    full-width clamped layer, at the first point and at every later one. -/
theorem outAt2_1_apply (t : Fin cfg2.N) (p : Fin 1000) (j : Fin 64) (r : Fin 10000) (hr : r.val = t.val * 1000 + p.val) :
    (outAt2_1 V c t : S1000x64.Idx → EReal) (ValueIdx.ix2 p j) = layer V c r (⟨j.val + 64, by omega⟩ : Fin 128) := by
  by_cases h : t.val % 10 = 0
  · rw [outAt2_1_A V c t h, out2_A1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) ((hcond2 t).mpr h)]
    refine (pay4_eq_pay2 (iblk2 V c 0 t) (k2_pay1 (iblk2 V c 1 t) (iblk2 V c 2 t)) (iblk2 V c 3 t) p j).trans ?_
    exact full_A (iblk2 V c 0 t) (iblk2 V c 1 t) (iblk2 V c 2 t) (iblk2 V c 3 t) p (⟨j.val + 64, by omega⟩ : Fin 128)
      (fun k => adjA V c (ValueIdx.ix2 r k)) (fun k l => embA V c (ValueIdx.ix2 k l))
      (fun l => wtsA V c (ValueIdx.ix2 l (⟨j.val + 64, by omega⟩ : Fin 128))) (biasA V c (ValueIdx.ix2 (0 : Fin 1) (⟨j.val + 64, by omega⟩ : Fin 128)))
      (fun k => blk2_0 V c t p k r hr) (fun k l => blk2_1 V c t k l) (fun l => blk2_2 V c t l _) (blk2_3 V c t _)
  · rw [outAt2_1_B V c t h, out2_B1 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (P2_0 V c) (fun hc => h ((hcond2 t).mp hc))]
    refine (pay4_eq_pay2 (iblk2 V c 0 t) (P2_0 V c) (iblk2 V c 3 t) p j).trans ?_
    exact full_B (iblk2 V c 0 t) (P2_0 V c) (iblk2 V c 3 t) p (⟨j.val + 64, by omega⟩ : Fin 128)
      (fun k => adjA V c (ValueIdx.ix2 r k))
      (fun k => ∑ l : Fin 64, embA V c (ValueIdx.ix2 k l) * wtsA V c (ValueIdx.ix2 l (⟨j.val + 64, by omega⟩ : Fin 128)))
      (biasA V c (ValueIdx.ix2 (0 : Fin 1) (⟨j.val + 64, by omega⟩ : Fin 128)))
      (fun k => blk2_0 V c t p k r hr) (fun k => P2_0_apply V c k _) (blk2_3 V c t _)

/-- What point t writes back to output 0 is block t of the left clamped layer. -/
theorem flushed2_4 (t : Fin cfg2.N) :
    (dat2 V c).flushed 4 t = ((cfg2.win 4).blk t).view.read (Elt Ideal) (G4 V c) := by
  have hN : cfg2.N = 10 := N_2
  have ht : t.val < 10 := lt_of_lt_of_eq t.isLt hN
  obtain ⟨-, -, -, -, -, -, -, -, e0, e1, -⟩ := idx2 t
  show (cfg2.win 4).cut (grid2.coords t) ((dat2 V c).after 4 t) = _
  rw [after2_4]
  funext y
  obtain ⟨p, j, rfl⟩ : ∃ (p : Fin 1000) (j : Fin 64), y = ValueIdx.ix2 p j := ⟨y 0, y 1, ValueIdx.eq_ix2 y⟩
  rw [View.read_apply]
  have he : ((cfg2.win 4).blk t).view.emb (ValueIdx.ix2 p j)
      = ValueIdx.ix2 (⟨t.val * 1000 + p.val, by have := p.isLt; omega⟩ : Fin 10000) j := by
    funext a; apply Fin.ext
    match a with
    | ⟨0, _⟩ => show win2_4.index t (0 : Fin 2) * 1000 + 1 * p.val = t.val * 1000 + p.val; rw [e0]; omega
    | ⟨1, _⟩ => show win2_4.index t (1 : Fin 2) * 64 + 1 * j.val = j.val; rw [e1]; omega
  rw [he]
  exact outAt2_0_apply V c t p j _ rfl

/-- An index of output 0's array is in point t's block iff each coordinate is in the block's range. -/
theorem mem_blk2_4 (t : Fin cfg2.N) (i : S10000x64.Idx) :
    i ∈ ((cfg2.win 4).blk t).view.set ↔ ∀ a : Fin 2, win2_4.index t a * S1000x64.size a ≤ (i a).val ∧ (i a).val < win2_4.index t a * S1000x64.size a + S1000x64.size a := by
  show i ∈ ((View.whole main_v8_0).slice (win2_4.rect t)).set ↔ _
  rw [View.set_slice_whole, Rect.mem_set_unit]
  exact Iff.rfl

/-- Row r of output 0's array is written back by point r / 1000. -/
theorem cover2_4 (i : S10000x64.Idx) :
    ∃ t : Fin cfg2.N, (cfg2.win 4).flush t = true ∧ i ∈ ((cfg2.win 4).blk t).view.set := by
  have hN : cfg2.N = 10 := N_2
  have h0 : (i 0).val < 10000 := (i 0).isLt
  have h1 : (i 1).val < 64 := (i 1).isLt
  obtain ⟨-, -, -, -, -, -, -, -, e0, e1, -⟩ := idx2 (⟨(i 0).val / 1000, by rw [hN]; omega⟩ : Fin cfg2.N)
  refine ⟨⟨(i 0).val / 1000, by rw [hN]; omega⟩, flush2_4 _, ?_⟩
  rw [mem_blk2_4]
  intro a
  match a with
  | ⟨0, _⟩ =>
    show win2_4.index _ (0 : Fin 2) * 1000 ≤ (i 0).val ∧ (i 0).val < win2_4.index _ (0 : Fin 2) * 1000 + 1000
    rw [e0]; dsimp only; omega
  | ⟨1, _⟩ =>
    show win2_4.index _ (1 : Fin 2) * 64 ≤ (i 1).val ∧ (i 1).val < win2_4.index _ (1 : Fin 2) * 64 + 64
    rw [e1]; omega

/-- The array output 0 ends holding: the left clamped layer. -/
theorem arr2_4 : (dat2 (F := Ideal) V c).arrAt 4 cfg2.N = G4 V c :=
  (dat2 V c).arrAt_eq_of_cover 4 (G4 V c) (fun t _ => flushed2_4 V c t) cover2_4

/-- What point t writes back to output 1 is block t of the right clamped layer. -/
theorem flushed2_5 (t : Fin cfg2.N) :
    (dat2 V c).flushed 5 t = ((cfg2.win 5).blk t).view.read (Elt Ideal) (G5 V c) := by
  have hN : cfg2.N = 10 := N_2
  have ht : t.val < 10 := lt_of_lt_of_eq t.isLt hN
  obtain ⟨-, -, -, -, -, -, -, -, -, -, e0, e1⟩ := idx2 t
  show (cfg2.win 5).cut (grid2.coords t) ((dat2 V c).after 5 t) = _
  rw [after2_5]
  funext y
  obtain ⟨p, j, rfl⟩ : ∃ (p : Fin 1000) (j : Fin 64), y = ValueIdx.ix2 p j := ⟨y 0, y 1, ValueIdx.eq_ix2 y⟩
  rw [View.read_apply]
  have he : ((cfg2.win 5).blk t).view.emb (ValueIdx.ix2 p j)
      = ValueIdx.ix2 (⟨t.val * 1000 + p.val, by have := p.isLt; omega⟩ : Fin 10000) j := by
    funext a; apply Fin.ext
    match a with
    | ⟨0, _⟩ => show win2_5.index t (0 : Fin 2) * 1000 + 1 * p.val = t.val * 1000 + p.val; rw [e0]; omega
    | ⟨1, _⟩ => show win2_5.index t (1 : Fin 2) * 64 + 1 * j.val = j.val; rw [e1]; omega
  rw [he]
  exact outAt2_1_apply V c t p j _ rfl

/-- An index of output 1's array is in point t's block iff each coordinate is in the block's range. -/
theorem mem_blk2_5 (t : Fin cfg2.N) (i : S10000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v8_1).slice (win2_5.rect t)).set ↔ _
  rw [View.set_slice_whole, Rect.mem_set_unit]
  exact Iff.rfl

/-- Row r of output 1's array is written back by point r / 1000. -/
theorem cover2_5 (i : S10000x64.Idx) :
    ∃ t : Fin cfg2.N, (cfg2.win 5).flush t = true ∧ i ∈ ((cfg2.win 5).blk t).view.set := by
  have hN : cfg2.N = 10 := N_2
  have h0 : (i 0).val < 10000 := (i 0).isLt
  have h1 : (i 1).val < 64 := (i 1).isLt
  obtain ⟨-, -, -, -, -, -, -, -, -, -, e0, e1⟩ := idx2 (⟨(i 0).val / 1000, by rw [hN]; omega⟩ : Fin cfg2.N)
  refine ⟨⟨(i 0).val / 1000, by rw [hN]; omega⟩, flush2_5 _, ?_⟩
  rw [mem_blk2_5]
  intro a
  match a with
  | ⟨0, _⟩ =>
    show win2_5.index _ (0 : Fin 2) * 1000 ≤ (i 0).val ∧ (i 0).val < win2_5.index _ (0 : Fin 2) * 1000 + 1000
    rw [e0]; dsimp only; omega
  | ⟨1, _⟩ =>
    show win2_5.index _ (1 : Fin 2) * 64 ≤ (i 1).val ∧ (i 1).val < win2_5.index _ (1 : Fin 2) * 64 + 64
    rw [e1]; omega

/-- The array output 1 ends holding: the right clamped layer. -/
theorem arr2_5 : (dat2 (F := Ideal) V c).arrAt 5 cfg2.N = G5 V c :=
  (dat2 V c).arrAt_eq_of_cover 5 (G5 V c) (fun t _ => flushed2_5 V c t) cover2_5

end Arrays

end Cert.KernelIdeal.Val2

end
-- ==== Proof.Val3.lean ====
/-
  The fourth pass, read as values.  At the first grid point the body stores the projection  h₂ · W  into one scratch
  buffer and a copy of  s  into another, the row block  adj_block · (h₂ · W) + b  into the first output and the
  logistic of the inner products of the block's rows of  s  with all rows of  s  into the second; at every later
  point it stores the same from the two scratch buffers.  Over the extended reals the two arrays the pass leaves are
  therefore the last layer and the logistic of  s · sᵀ, entry by entry.
-/
import proofs.«114016_g31997506355976_cont_9to1_2145_5_alg».proof.Proof.Dat3
import proofs.«114016_g31997506355976_cont_9to1_2145_5_alg».proof.Proof.PayIdx
import proofs.«114016_g31997506355976_cont_9to1_2145_5_alg».proof.Proof.Spec
import Idealize.ShloMosaic.Lib.Pipeline.Value
import Idealize.ShloMosaic.Lib.Tactic

set_option maxRecDepth 16384

noncomputable section

namespace Cert.KernelIdeal.Val3

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat Cfg Window)

section Pieces
variable {F : FTy → Type} [FloatOps F]
variable (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16)

theorem hz : (![0, 0] : Fin 2 → Nat) = fun _ => 0 := funext fun a => by fin_cases a <;> rfl

/-- First point: the first scratch is left holding the projection  h₂ · W. -/
theorem sout3_A0 (hc : cond3 i) :
    sout3_A_0 c i arg1 harg1 arg2 harg2 arg3 harg3 arg4 harg4 arg5 harg5 arg6 harg6 arg7 harg7 arg8 harg8 arg9 harg9 x0 x1 x2 x3 x4 hc = k3_pay1 x1 x3 := by
  unfold sout3_A_0
  rw [View.read_writes_eq_canon _ _ _ (scover3_A_0 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S10000x128) hz]
  simp only [View.readAt_eq_ld, harg2.read_unread, harg4.read_unread, View.ld_unit_zero (S := S10000x64) hz, View.ld_unit_zero (S := S64x128) hz]

/-- First point: the second scratch is left holding the copy of  s. -/
theorem sout3_A1 (hc : cond3 i) :
    sout3_A_1 c i arg1 harg1 arg2 harg2 arg3 harg3 arg4 harg4 arg5 harg5 arg6 harg6 arg7 harg7 arg8 harg8 arg9 harg9 x0 x1 x2 x3 x4 hc = k3_pay2 x2 := by
  unfold sout3_A_1
  rw [View.read_writes_eq_canon _ _ _ (scover3_A_1 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S10000x64) hz]
  simp only [View.readAt_eq_ld, harg3.read_unread, View.ld_unit_zero (S := S10000x64) hz]

/-- First point: the first output's block is the row block of the last layer, the scratch read back being the projection just stored. -/
theorem out3_A0 (hc : cond3 i) :
    out3_A_0 c i arg1 harg1 arg2 harg2 arg3 harg3 arg4 harg4 arg5 harg5 arg6 harg6 arg7 harg7 arg8 harg8 arg9 harg9 x0 x1 x2 x3 x4 hc = k3_pay3 x0 (k3_pay1 x1 x3) x4 := by
  unfold out3_A_0
  rw [View.read_writes_eq_canon _ _ _ (cover3_A_0 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S200x128) hz, View.readCov_unit_zero (S := S10000x128) _ hz]
  simp only [View.readAt_eq_ld, harg1.read_unread, harg2.read_unread, harg4.read_unread, harg5.read_unread, View.ld_unit_zero (S := S200x10000) hz, View.ld_unit_zero (S := S10000x64) hz, View.ld_unit_zero (S := S64x128) hz, View.ld_unit_zero (S := S1x128) hz]

/-- First point: the second output's block is the logistic of the inner products of rows t·200 … of the copy of  s  just stored with all its rows. -/
theorem out3_A1 (hc : cond3 i) :
    out3_A_1 c i arg1 harg1 arg2 harg2 arg3 harg3 arg4 harg4 arg5 harg5 arg6 harg6 arg7 harg7 arg8 harg8 arg9 harg9 x0 x1 x2 x3 x4 hc = k3_pay4 (View.ld (k3_pay2 x2) (Rect.unit (s := S10000x64) (k3_off1 i) S200x64.size (k3_off1_inb i))) (k3_pay2 x2) := by
  unfold out3_A_1
  rw [View.read_writes_eq_canon _ _ _ (cover3_A_1 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S200x10000) hz, View.readCov_unit_zero (S := S10000x64) _ hz]
  simp only [View.readAt_eq_ld, View.read_writes_junk_eq_canon, View.canon_unit_zero (S := S10000x64) hz, harg3.read_unread, View.ld_unit_zero (S := S10000x64) hz]

/-- Later points: the first output's block from the first scratch as given. -/
theorem out3_B0 (hc : ¬cond3 i) :
    out3_B_0 c i arg1 harg1 arg2 harg2 arg3 harg3 arg4 harg4 arg5 harg5 arg6 harg6 arg7 harg7 arg8 harg8 arg9 harg9 x0 x1 x2 x3 x4 xs0 xs1 hc = k3_pay3 x0 xs0 x4 := by
  unfold out3_B_0
  rw [View.read_writes_eq_canon _ _ _ (cover3_B_0 c i arg1 harg1 arg2 harg2 arg3 harg3 arg4 harg4 arg5 harg5 arg6 harg6 arg7 harg7 arg8 harg8 arg9 harg9 x0 x1 x2 x3 x4 xs0 xs1 hc)]
  unfold kernelRun3_B
  dsimp only
  sl_unfold_words
  rw [View.canon_unit_zero (S := S200x128) hz]
  simp only [View.readAt_eq_ld, harg1.read_unread, harg8.read_unread, harg5.read_unread, View.ld_unit_zero (S := S200x10000) hz, View.ld_unit_zero (S := S10000x128) hz, View.ld_unit_zero (S := S1x128) hz]

/-- Later points: the second output's block from the second scratch as given. -/
theorem out3_B1 (hc : ¬cond3 i) :
    out3_B_1 c i arg1 harg1 arg2 harg2 arg3 harg3 arg4 harg4 arg5 harg5 arg6 harg6 arg7 harg7 arg8 harg8 arg9 harg9 x0 x1 x2 x3 x4 xs0 xs1 hc = k3_pay4 (View.ld xs1 (Rect.unit (s := S10000x64) (k3_off1 i) S200x64.size (k3_off1_inb i))) xs1 := by
  unfold out3_B_1
  rw [View.read_writes_eq_canon _ _ _ (cover3_B_1 c i arg1 harg1 arg2 harg2 arg3 harg3 arg4 harg4 arg5 harg5 arg6 harg6 arg7 harg7 arg8 harg8 arg9 harg9 x0 x1 x2 x3 x4 xs0 xs1 hc)]
  unfold kernelRun3_B
  dsimp only
  sl_unfold_words
  rw [View.canon_unit_zero (S := S200x10000) hz]
  simp only [View.readAt_eq_ld, harg9.read_unread, View.ld_unit_zero (S := S10000x64) hz]

end Pieces

/-! ## The blocks the body reads, entry by entry -/

section Arrays
variable (V : (c : Dev nD) → (b : Ref sig .tc) → Buf (Elt Ideal) ((c : Thread nD τ).loc b)) (c : Dev nD)

/-- The arrays the pass reads, as functions into the extended reals: the adjacency, the attribute decoder's hidden
    layer, the structure decoder's hidden layer, the last weights, the last bias as a one-row matrix. -/
abbrev adjB : S10000x10000.Idx → EReal := V c main_v6_1
abbrev hidB : S10000x64.Idx → EReal := V c main_v8_0
abbrev strB : S10000x64.Idx → EReal := V c main_v8_1
abbrev wtsB : S64x128.Idx → EReal := V c main_arg8
abbrev biasB : S1x128.Idx → EReal := V c main_v5

/-- The block indices over the grid: the adjacency rows and the two outputs move with the point, the other four
    windows are the whole of their arrays. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The row offset of the body's dynamic read of the copy of  s : point t reads from row 200 · t. -/
theorem off3 : ∀ t : Fin cfg3.N, k3_off1 (grid3.coords t) (0 : Fin 2) = 200 * t.val ∧ k3_off1 (grid3.coords t) (1 : Fin 2) = 0 :=
  (by decide +kernel : ∀ t : Fin grid3.N, _)

/-- Row p of the adjacency block at point t is row t·200 + p of the adjacency. -/
theorem blk3_0 (t : Fin cfg3.N) (p : Fin 200) (k : Fin 10000) (r : Fin 10000) (hr : r.val = t.val * 200 + p.val) :
    (iblk3 V c 0 t : S200x10000.Idx → EReal) (ValueIdx.ix2 p k) = adjB V c (ValueIdx.ix2 r k) := by
  obtain ⟨e0, e1, -⟩ := idx3 t
  unfold iblk3
  rw [View.read_apply]
  show adjB V c _ = _
  congr 1
  funext a; apply Fin.ext
  match a with
  | ⟨0, _⟩ => show win3_0.index t (0 : Fin 2) * 200 + 1 * p.val = r.val; rw [e0, hr]; omega
  | ⟨1, _⟩ => show win3_0.index t (1 : Fin 2) * 10000 + 1 * k.val = k.val; rw [e1]; omega

/-- The attribute decoder's hidden layer's window is the whole array. -/
theorem blk3_1 (t : Fin cfg3.N) (k : Fin 10000) (l : Fin 64) :
    (iblk3 V c 1 t : S10000x64.Idx → EReal) (ValueIdx.ix2 k l) = hidB V c (ValueIdx.ix2 k l) := by
  obtain ⟨-, -, e0, e1, -⟩ := idx3 t
  unfold iblk3
  rw [View.read_apply]
  show hidB V c _ = _
  congr 1
  funext a; apply Fin.ext
  match a with
  | ⟨0, _⟩ => show win3_1.index t (0 : Fin 2) * 10000 + 1 * k.val = k.val; rw [e0]; omega
  | ⟨1, _⟩ => show win3_1.index t (1 : Fin 2) * 64 + 1 * l.val = l.val; rw [e1]; omega

/-- The structure decoder's hidden layer's window is the whole array. -/
theorem blk3_2 (t : Fin cfg3.N) (k : Fin 10000) (l : Fin 64) :
    (iblk3 V c 2 t : S10000x64.Idx → EReal) (ValueIdx.ix2 k l) = strB V c (ValueIdx.ix2 k l) := by
  obtain ⟨-, -, -, -, e0, e1, -⟩ := idx3 t
  unfold iblk3
  rw [View.read_apply]
  show strB V c _ = _
  congr 1
  funext a; apply Fin.ext
  match a with
  | ⟨0, _⟩ => show win3_2.index t (0 : Fin 2) * 10000 + 1 * k.val = k.val; rw [e0]; omega
  | ⟨1, _⟩ => show win3_2.index t (1 : Fin 2) * 64 + 1 * l.val = l.val; rw [e1]; omega

/-- The last weights' window is the whole array. -/
theorem blk3_3 (t : Fin cfg3.N) (l : Fin 64) (j : Fin 128) :
    (iblk3 V c 3 t : S64x128.Idx → EReal) (ValueIdx.ix2 l j) = wtsB V c (ValueIdx.ix2 l j) := by
  obtain ⟨-, -, -, -, -, -, e0, e1, -⟩ := idx3 t
  unfold iblk3
  rw [View.read_apply]
  show wtsB V c _ = _
  congr 1
  funext a; apply Fin.ext
  match a with
  | ⟨0, _⟩ => show win3_3.index t (0 : Fin 2) * 64 + 1 * l.val = l.val; rw [e0]; omega
  | ⟨1, _⟩ => show win3_3.index t (1 : Fin 2) * 128 + 1 * j.val = j.val; rw [e1]; omega

/-- The last bias row's window is the whole array. -/
theorem blk3_4 (t : Fin cfg3.N) (j : Fin 128) :
    (iblk3 V c 4 t : S1x128.Idx → EReal) (ValueIdx.ix2 (0 : Fin 1) j) = biasB V c (ValueIdx.ix2 (0 : Fin 1) j) := by
  obtain ⟨-, -, -, -, -, -, -, -, e0, e1, -⟩ := idx3 t
  unfold iblk3
  rw [View.read_apply]
  show biasB V c _ = _
  congr 1
  funext a; apply Fin.ext
  match a with
  | ⟨0, _⟩ => show win3_4.index t (0 : Fin 2) * 1 + 1 * (0 : Fin 1).val = (0 : Fin 1).val; rw [e0]; rfl
  | ⟨1, _⟩ => show win3_4.index t (1 : Fin 2) * 128 + 1 * j.val = j.val; rw [e1]; omega

/-! ## The stored values over variables -/

/-- Rows read from a [10000,64] array at a row offset: row p of what is read is row off + p of the array. -/
theorem ld_row (X : Vec Ideal S10000x64 .bf16) (i : grid3.Coords) (p : Fin 200) (l : Fin 64) (r : Fin 10000)
    (hr : r.val = k3_off1 i (0 : Fin 2) + p.val) (h1 : k3_off1 i (1 : Fin 2) = 0) :
    View.ld X (Rect.unit (s := S10000x64) (k3_off1 i) S200x64.size (k3_off1_inb i)) (ValueIdx.ix2 p l) = X (ValueIdx.ix2 r l) := by
  show X ((Rect.unit (s := S10000x64) (k3_off1 i) S200x64.size (k3_off1_inb i)).idx (ValueIdx.ix2 p l)) = _
  congr 1
  funext a; apply Fin.ext
  match a with
  | ⟨0, _⟩ => show k3_off1 i (0 : Fin 2) + 1 * p.val = r.val; omega
  | ⟨1, _⟩ => show k3_off1 i (1 : Fin 2) + 1 * l.val = l.val; omega

/-- The first point's row block of the last layer at (p, j), from what its loaded blocks are entry by entry. -/
theorem full3_A (x0 : Vec Ideal S200x10000 .bf16) (x1 : Vec Ideal S10000x64 .f32) (x3 : Vec Ideal S64x128 .f32)
    (x4 : Vec Ideal S1x128 .f32) (p : Fin 200) (j : Fin 128)
    (A : Fin 10000 → EReal) (H : Fin 10000 → Fin 64 → EReal) (Wj : Fin 64 → EReal) (bj : EReal)
    (h0 : ∀ k, x0 (ValueIdx.ix2 p k) = A k) (h1 : ∀ k l, x1 (ValueIdx.ix2 k l) = H k l)
    (h3 : ∀ l, x3 (ValueIdx.ix2 l j) = Wj l) (h4 : x4 (ValueIdx.ix2 (0 : Fin 1) j) = bj) :
    k3_pay3 (F := Ideal) x0 (k3_pay1 (F := Ideal) x1 x3) x4 (ValueIdx.ix2 p j)
      = (∑ k : Fin 10000, A k * ∑ l : Fin 64, H k l * Wj l) + bj := by
  rw [PayIdx.k3_pay3_apply, h4]
  refine congrArg (fun s => s + bj) (Finset.sum_congr rfl fun k _ => ?_)
  rw [h0, PayIdx.k3_pay1_apply]
  exact congrArg (A k * ·) (Finset.sum_congr rfl fun l _ => by rw [h1, h3])

/-- A later point's row block at (p, j), the first scratch holding S entry by entry in column j. -/
theorem full3_B (x0 : Vec Ideal S200x10000 .bf16) (xs0 : Vec Ideal S10000x128 .bf16) (x4 : Vec Ideal S1x128 .f32)
    (p : Fin 200) (j : Fin 128) (A : Fin 10000 → EReal) (S : Fin 10000 → EReal) (bj : EReal)
    (h0 : ∀ k, x0 (ValueIdx.ix2 p k) = A k) (hs : ∀ k, xs0 (ValueIdx.ix2 k j) = S k)
    (h4 : x4 (ValueIdx.ix2 (0 : Fin 1) j) = bj) :
    k3_pay3 (F := Ideal) x0 xs0 x4 (ValueIdx.ix2 p j) = (∑ k : Fin 10000, A k * S k) + bj := by
  rw [PayIdx.k3_pay3_apply, h4]
  exact congrArg (fun s => s + bj) (Finset.sum_congr rfl fun k _ => by rw [h0, hs])

/-- The logistic of an inner product of two rows, from what the two operands are along those rows. -/
theorem logit (v14 : Vec Ideal S200x64 .bf16) (v15 : Vec Ideal S10000x64 .bf16) (p : Fin 200) (q : Fin 10000)
    (Sp Sq : Fin 64 → EReal) (h14 : ∀ l, v14 (ValueIdx.ix2 p l) = Sp l) (h15 : ∀ l, v15 (ValueIdx.ix2 q l) = Sq l) :
    k3_pay4 (F := Ideal) v14 v15 (ValueIdx.ix2 p q) = Ideal.logistic (∑ l : Fin 64, Sp l * Sq l) := by
  rw [PayIdx.k3_pay4_apply]
  exact congrArg Ideal.logistic (Finset.sum_congr rfl fun l _ => by rw [h14, h15])

/-! ## The two arrays the pass leaves -/

/-- The last layer  adj · (h₂ · W) + b  as an array. -/
abbrev G35 : S10000x128.Idx → EReal :=
  Cert.Spec.uncur2 (Cert.Spec.gc (Cert.Spec.cur2 (adjB V c)) (Cert.Spec.cur2 (hidB V c)) (Cert.Spec.cur2 (wtsB V c))
    (fun j => biasB V c (ValueIdx.ix2 (0 : Fin 1) j)))

/-- The logistic of  s · sᵀ  as an array. -/
abbrev G36 : S10000x10000.Idx → EReal :=
  Cert.Spec.uncur2 (fun i j => Ideal.logistic (∑ l : Fin 64, Cert.Spec.cur2 (strB V c) i l * Cert.Spec.cur2 (strB V c) j l))

/-- What the first point leaves in the first scratch, at (k, j): the projection  h₂ · W. -/
theorem P3_0_apply (k : Fin 10000) (j : Fin 128) :
    (P3_0 V c : S10000x128.Idx → EReal) (ValueIdx.ix2 k j)
      = ∑ l : Fin 64, hidB V c (ValueIdx.ix2 k l) * wtsB V c (ValueIdx.ix2 l j) := by
  unfold P3_0
  rw [sout3_A0 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first]
  refine (PayIdx.k3_pay1_apply (iblk3 V c 1 tz3) (iblk3 V c 3 tz3) k j).trans ?_
  exact Finset.sum_congr rfl fun l _ => by rw [blk3_1 V c tz3 k l, blk3_3 V c tz3 l j]

/-- What the first point leaves in the second scratch, at (k, l): the copy of  s. -/
theorem P3_1_apply (k : Fin 10000) (l : Fin 64) :
    (P3_1 V c : S10000x64.Idx → EReal) (ValueIdx.ix2 k l) = strB V c (ValueIdx.ix2 k l) := by
  unfold P3_1
  rw [sout3_A1 c (grid3.coords tz3) (ms3_0 tz3) (hs3_0 tz3) (ms3_1 tz3) (hs3_1 tz3) (ms3_2 tz3) (hs3_2 tz3) (ms3_3 tz3) (hs3_3 tz3) (ms3_4 tz3) (hs3_4 tz3) (ms3_5 tz3) (hs3_5 tz3) (ms3_6 tz3) (hs3_6 tz3) scM3_0 (Memref.isWhole_whole _) scM3_1 (Memref.isWhole_whole _) (iblk3 V c 0 tz3) (iblk3 V c 1 tz3) (iblk3 V c 2 tz3) (iblk3 V c 3 tz3) (iblk3 V c 4 tz3) hc3_first]
  exact (PayIdx.k3_pay2_apply (iblk3 V c 2 tz3) (ValueIdx.ix2 k l)).trans (blk3_2 V c tz3 k l)

/-- What the first output's staging buffer holds after the body at point t, at (p, j): entry (t·200 + p, j) of the
    last layer, at the first point and at every later one. -/
theorem outAt3_0_apply (t : Fin cfg3.N) (p : Fin 200) (j : Fin 128) (r : Fin 10000) (hr : r.val = t.val * 200 + p.val) :
    (outAt3_0 V c t : S200x128.Idx → EReal) (ValueIdx.ix2 p j) = G35 V c (ValueIdx.ix2 r j) := by
  by_cases h : t.val % 50 = 0
  · rw [outAt3_0_A V c t h, out3_A0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) ((hcond3 t).mpr h)]
    exact full3_A (iblk3 V c 0 t) (iblk3 V c 1 t) (iblk3 V c 3 t) (iblk3 V c 4 t) p j
      (fun k => adjB V c (ValueIdx.ix2 r k)) (fun k l => hidB V c (ValueIdx.ix2 k l))
      (fun l => wtsB V c (ValueIdx.ix2 l j)) (biasB V c (ValueIdx.ix2 (0 : Fin 1) j))
      (fun k => blk3_0 V c t p k r hr) (fun k l => blk3_1 V c t k l) (fun l => blk3_3 V c t l j) (blk3_4 V c t j)
  · rw [outAt3_0_B V c t h, out3_B0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (iblk3 V c 0 t) (iblk3 V c 1 t) (iblk3 V c 2 t) (iblk3 V c 3 t) (iblk3 V c 4 t) (P3_0 V c) (P3_1 V c) (fun hc => h ((hcond3 t).mp hc))]
    exact full3_B (iblk3 V c 0 t) (P3_0 V c) (iblk3 V c 4 t) p j
      (fun k => adjB V c (ValueIdx.ix2 r k))
      (fun k => ∑ l : Fin 64, hidB V c (ValueIdx.ix2 k l) * wtsB V c (ValueIdx.ix2 l j))
      (biasB V c (ValueIdx.ix2 (0 : Fin 1) j))
      (fun k => blk3_0 V c t p k r hr) (fun k => P3_0_apply V c k j) (blk3_4 V c t j)

/-- What point t writes back to output 0 is block t of the last layer. -/
theorem flushed3_5 (t : Fin cfg3.N) :
    (dat3 V c).flushed 5 t = ((cfg3.win 5).blk t).view.read (Elt Ideal) (G35 V c) := by
  have hN : cfg3.N = 50 := N_3
  have ht : t.val < 50 := lt_of_lt_of_eq t.isLt hN
  obtain ⟨-, -, -, -, -, -, -, -, -, -, e0, e1, -⟩ := idx3 t
  show (cfg3.win 5).cut (grid3.coords t) ((dat3 V c).after 5 t) = _
  rw [after3_5]
  funext y
  obtain ⟨p, j, rfl⟩ : ∃ (p : Fin 200) (j : Fin 128), y = ValueIdx.ix2 p j := ⟨y 0, y 1, ValueIdx.eq_ix2 y⟩
  rw [View.read_apply]
  have he : ((cfg3.win 5).blk t).view.emb (ValueIdx.ix2 p j)
      = ValueIdx.ix2 (⟨t.val * 200 + p.val, by have := p.isLt; omega⟩ : Fin 10000) j := by
    funext a; apply Fin.ext
    match a with
    | ⟨0, _⟩ => show win3_5.index t (0 : Fin 2) * 200 + 1 * p.val = t.val * 200 + p.val; rw [e0]; omega
    | ⟨1, _⟩ => show win3_5.index t (1 : Fin 2) * 128 + 1 * j.val = j.val; rw [e1]; omega
  rw [he]
  exact outAt3_0_apply V c t p j _ rfl

/-- An index of output 0's array is in point t's block iff each coordinate is in the block's range. -/
theorem mem_blk3_5 (t : Fin cfg3.N) (i : S10000x128.Idx) :
    i ∈ ((cfg3.win 5).blk t).view.set ↔ ∀ a : Fin 2, win3_5.index t a * S200x128.size a ≤ (i a).val ∧ (i a).val < win3_5.index t a * S200x128.size a + S200x128.size a := by
  show i ∈ ((View.whole main_v9_0).slice (win3_5.rect t)).set ↔ _
  rw [View.set_slice_whole, Rect.mem_set_unit]
  exact Iff.rfl

/-- Row r of output 0's array is written back by point r / 200. -/
theorem cover3_5 (i : S10000x128.Idx) :
    ∃ t : Fin cfg3.N, (cfg3.win 5).flush t = true ∧ i ∈ ((cfg3.win 5).blk t).view.set := by
  have hN : cfg3.N = 50 := N_3
  have h0 : (i 0).val < 10000 := (i 0).isLt
  have h1 : (i 1).val < 128 := (i 1).isLt
  obtain ⟨-, -, -, -, -, -, -, -, -, -, e0, e1, -⟩ := idx3 (⟨(i 0).val / 200, by rw [hN]; omega⟩ : Fin cfg3.N)
  refine ⟨⟨(i 0).val / 200, by rw [hN]; omega⟩, flush3_5 _, ?_⟩
  rw [mem_blk3_5]
  intro a
  match a with
  | ⟨0, _⟩ =>
    show win3_5.index _ (0 : Fin 2) * 200 ≤ (i 0).val ∧ (i 0).val < win3_5.index _ (0 : Fin 2) * 200 + 200
    rw [e0]; dsimp only; omega
  | ⟨1, _⟩ =>
    show win3_5.index _ (1 : Fin 2) * 128 ≤ (i 1).val ∧ (i 1).val < win3_5.index _ (1 : Fin 2) * 128 + 128
    rw [e1]; omega

/-- The array output 0 ends holding: the last layer. -/
theorem arr3_5 : (dat3 (F := Ideal) V c).arrAt 5 cfg3.N = G35 V c :=
  (dat3 V c).arrAt_eq_of_cover 5 (G35 V c) (fun t _ => flushed3_5 V c t) cover3_5

end Arrays

end Cert.KernelIdeal.Val3

end
-- ==== Proof.Val3b.lean ====
/-
  The fourth pass, second output, read as values.  At the first grid point the body copies the structure decoder's
  hidden layer  s  into a scratch; at every point it takes the 200 rows of that copy that belong to the point's
  row block, multiplies them with the transpose of the whole copy and stores the logistic function of the products.
  Over the extended reals the array the pass leaves is therefore  logistic(Σ_l s(i,l) · s(j,l))  at every (i, j):
  the specification's reconstructed adjacency.
-/
import proofs.«114016_g31997506355976_cont_9to1_2145_5_alg».proof.Proof.Dat3
import proofs.«114016_g31997506355976_cont_9to1_2145_5_alg».proof.Proof.PayIdx
import proofs.«114016_g31997506355976_cont_9to1_2145_5_alg».proof.Proof.Spec
import Idealize.ShloMosaic.Lib.Pipeline.Value
import Idealize.ShloMosaic.Lib.Tactic

set_option maxRecDepth 16384

noncomputable section

namespace Cert.KernelIdeal.Val3b

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat Cfg Window)

section Pieces
variable {F : FTy → Type} [FloatOps F]
variable (c : Dev nD) (i : grid3.Coords)
    (arg1 : Memref sig .tc .vmem S200x10000 .bf16) (harg1 : arg1.IsWhole) (arg2 : Memref sig .tc .vmem S10000x64 .f32) (harg2 : arg2.IsWhole) (arg3 : Memref sig .tc .vmem S10000x64 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S200x10000 .f32) (harg7 : arg7.IsWhole) (arg8 : Memref sig .tc .vmem S10000x128 .bf16) (harg8 : arg8.IsWhole) (arg9 : Memref sig .tc .vmem S10000x64 .bf16) (harg9 : arg9.IsWhole)
    (x0 : Vec F S200x10000 .bf16) (x1 : Vec F S10000x64 .f32) (x2 : Vec F S10000x64 .f32) (x3 : Vec F S64x128 .f32) (x4 : Vec F S1x128 .f32) (xs0 : Vec F S10000x128 .bf16) (xs1 : Vec F S10000x64 .bf16)

theorem hzb : (![0, 0] : Fin 2 → Nat) = fun _ => 0 := funext fun a => by fin_cases a <;> rfl

/-- The rows of a [10000,64] array that the point with coordinates i reads: 200 rows from the point's offset. -/
abbrev rowsb (X : Vec F S10000x64 .bf16) : Vec F S200x64 .bf16 :=
  View.ld X (Rect.unit (s := S10000x64) (k3_off1 i) S200x64.size (k3_off1_inb i))

/-- The first point leaves the copy of s in the second scratch. -/
theorem sout3_Ab (hc : cond3 i) :
    sout3_A_1 c i arg1 harg1 arg2 harg2 arg3 harg3 arg4 harg4 arg5 harg5 arg6 harg6 arg7 harg7 arg8 harg8 arg9 harg9 x0 x1 x2 x3 x4 hc = k3_pay2 x2 := by
  unfold sout3_A_1
  rw [View.read_writes_eq_canon _ _ _ (scover3_A_1 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S10000x64) hzb]
  simp only [View.readAt_eq_ld, harg3.read_unread, View.ld_unit_zero (S := S10000x64) hzb]

/-- The first point leaves in the second output the logistic of the products of its rows of the copy it has just
    stored with all the rows of that copy. -/
theorem out3_Ab (hc : cond3 i) :
    out3_A_1 c i arg1 harg1 arg2 harg2 arg3 harg3 arg4 harg4 arg5 harg5 arg6 harg6 arg7 harg7 arg8 harg8 arg9 harg9 x0 x1 x2 x3 x4 hc = k3_pay4 (rowsb i (k3_pay2 x2)) (k3_pay2 x2) := by
  unfold out3_A_1
  rw [View.read_writes_eq_canon _ _ _ (cover3_A_1 c i arg1 harg1 arg2 harg2 arg3 harg3 arg4 harg4 arg5 harg5 arg6 harg6 arg7 harg7 arg8 harg8 arg9 harg9 x0 x1 x2 x3 x4 hc)]
  unfold kernelRun3_A
  dsimp only
  sl_unfold_words
  rw [View.canon_unit_zero (S := S200x10000) hzb, View.readCov_unit_zero (S := S10000x64) _ hzb,
    View.readAt_writes_junk_eq_canon, View.canon_unit_zero (S := S10000x64) hzb]
  simp only [View.readAt_eq_ld, harg3.read_unread, View.ld_unit_zero (S := S10000x64) hzb]
  rfl

/-- A later point leaves the same of the scratch it is given. -/
theorem out3_Bb (hc : ¬cond3 i) :
    out3_B_1 c i arg1 harg1 arg2 harg2 arg3 harg3 arg4 harg4 arg5 harg5 arg6 harg6 arg7 harg7 arg8 harg8 arg9 harg9 x0 x1 x2 x3 x4 xs0 xs1 hc = k3_pay4 (rowsb i xs1) xs1 := by
  unfold out3_B_1
  rw [View.read_writes_eq_canon _ _ _ (cover3_B_1 c i arg1 harg1 arg2 harg2 arg3 harg3 arg4 harg4 arg5 harg5 arg6 harg6 arg7 harg7 arg8 harg8 arg9 harg9 x0 x1 x2 x3 x4 xs0 xs1 hc)]
  unfold kernelRun3_B
  dsimp only
  rw [View.canon_unit_zero (S := S200x10000) hzb]
  simp only [View.readAt_eq_ld, harg9.read_unread, View.ld_unit_zero (S := S10000x64) hzb]
end Pieces

/-! ## The array the pass leaves through its second output, over the extended reals -/

section Array
open Cert.Spec (cur1 cur2 uncur2)

variable (V : (c : Dev nD) → (b : Ref sig .tc) → Buf (Elt Ideal) ((c : Thread nD τ).loc b))

/-- The structure decoder's hidden layer as the pass finds it, as a function of an index into the extended reals. -/
abbrev aSb (c : Dev nD) : S10000x64.Idx → EReal := V c main_v8_1

/-- The printed index maps over the grid: the hidden layer's window stays at its whole array, the output moves down
    one row block per point, and the point's one coordinate is its position. -/
theorem idx3b : ∀ t : Fin cfg3.N,
    win3_2.index t (0 : Fin 2) = 0 ∧ win3_2.index t (1 : Fin 2) = 0
    ∧ win3_6.index t (0 : Fin 2) = t.val ∧ win3_6.index t (1 : Fin 2) = 0
    ∧ (grid3.coords t 0).val = t.val :=
  (by decide +kernel : ∀ t : Fin grid3.N,
    win3_2.index t (0 : Fin 2) = 0 ∧ win3_2.index t (1 : Fin 2) = 0
    ∧ win3_6.index t (0 : Fin 2) = t.val ∧ win3_6.index t (1 : Fin 2) = 0
    ∧ (grid3.coords t 0).val = t.val)

/-- The hidden layer's block at every point is the whole array. -/
theorem blk3_2b (c : Dev nD) (t : Fin cfg3.N) (k : Fin 10000) (l : Fin 64) :
    (iblk3 V c 2 t : Vec Ideal S10000x64 .f32) (ValueIdx.ix2 k l) = aSb V c (ValueIdx.ix2 k l) := by
  obtain ⟨e0, e1, -⟩ := idx3b t
  unfold iblk3
  rw [View.read_apply]
  show V c main_v8_1 _ = V c main_v8_1 _
  refine congrArg _ (funext fun a => Fin.ext ?_)
  match a with
  | ⟨0, _⟩ => show win3_2.index t 0 * 10000 + 1 * k.val = k.val; rw [e0]; omega
  | ⟨1, _⟩ => show win3_2.index t 1 * 64 + 1 * l.val = l.val; rw [e1]; omega

/-- The rows a point reads of a [10000,64] array are its rows 200·i … 200·i + 199. -/
theorem rowsb_apply (i : grid3.Coords) (X : Vec Ideal S10000x64 .bf16) (p : Fin 200) (l : Fin 64) (r : Fin 10000)
    (hr : r.val = 200 * (i 0).val + p.val) : rowsb i X (ValueIdx.ix2 p l) = X (ValueIdx.ix2 r l) := by
  show X _ = X _
  refine congrArg X (funext fun a => Fin.ext ?_)
  match a with
  | ⟨0, _⟩ =>
    show k3_off1 i 0 + 1 * p.val = r.val
    rw [k3_off1_eq i, hr]
    show 200 * (i 0).val + 1 * p.val = _
    omega
  | ⟨1, _⟩ =>
    show k3_off1 i 1 + 1 * l.val = l.val
    rw [k3_off1_eq i]
    show 0 + 1 * l.val = l.val
    omega

/-- The reconstructed adjacency the pass computes, as a function of the hidden layer it finds. -/
abbrev G3b (c : Dev nD) : S10000x10000.Idx → EReal :=
  uncur2 (fun i j => Ideal.logistic (∑ l : Fin 64, cur2 (aSb V c) i l * cur2 (aSb V c) j l))

/-- A row block computed from a scratch that holds the hidden layer is the reconstructed adjacency's rows. -/
theorem pay4_rowb (c : Dev nD) (t : Fin cfg3.N) (xs : Vec Ideal S10000x64 .bf16)
    (hxs : ∀ (k : Fin 10000) (l : Fin 64), xs (ValueIdx.ix2 k l) = aSb V c (ValueIdx.ix2 k l))
    (p : Fin 200) (q : Fin 10000) (r : Fin 10000) (hr : r.val = t.val * 200 + p.val) :
    k3_pay4 (F := Ideal) (rowsb (grid3.coords t) xs) xs (ValueIdx.ix2 p q) = G3b V c (ValueIdx.ix2 r q) := by
  obtain ⟨-, -, -, -, ec⟩ := idx3b t
  refine (PayIdx.k3_pay4_apply (rowsb (grid3.coords t) xs) xs p q).trans ?_
  show Ideal.logistic _ = Ideal.logistic (∑ l : Fin 64, aSb V c (ValueIdx.ix2 r l) * aSb V c (ValueIdx.ix2 q l))
  refine congrArg Ideal.logistic (Finset.sum_congr rfl fun l _ => ?_)
  rw [rowsb_apply (grid3.coords t) xs p l r (by rw [ec, hr]; omega), hxs r l, hxs q l]

/-- What the second output's staging buffer holds after the body at any point: the reconstructed adjacency's rows of
    that point's block. -/
theorem outAt3_1_applyb (c : Dev nD) (t : Fin cfg3.N) (p : Fin 200) (q : Fin 10000) (r : Fin 10000) (hr : r.val = t.val * 200 + p.val) :
    outAt3_1 V c t (ValueIdx.ix2 p q) = G3b V c (ValueIdx.ix2 r q) := by
  by_cases h0 : t.val % 50 = 0
  · rw [outAt3_1_A V c t h0,
      out3_Ab (F := Ideal) c (grid3.coords t) (ms3_0 t) (hs3_0 t) (ms3_1 t) (hs3_1 t) (ms3_2 t) (hs3_2 t) (ms3_3 t) (hs3_3 t)
        (ms3_4 t) (hs3_4 t) (ms3_5 t) (hs3_5 t) (ms3_6 t) (hs3_6 t) scM3_0 (Memref.isWhole_whole _) scM3_1 (Memref.isWhole_whole _)
        (iblk3 V c 0 t) (iblk3 V c 1 t) (iblk3 V c 2 t) (iblk3 V c 3 t) (iblk3 V c 4 t) ((hcond3 t).mpr h0)]
    exact pay4_rowb V c t _ (fun k l => (PayIdx.k3_pay2_apply (iblk3 V c 2 t) (ValueIdx.ix2 k l)).trans (blk3_2b V c t k l)) p q r hr
  · rw [outAt3_1_B V c t h0,
      out3_Bb (F := Ideal) c (grid3.coords t) (ms3_0 t) (hs3_0 t) (ms3_1 t) (hs3_1 t) (ms3_2 t) (hs3_2 t) (ms3_3 t) (hs3_3 t)
        (ms3_4 t) (hs3_4 t) (ms3_5 t) (hs3_5 t) (ms3_6 t) (hs3_6 t) scM3_0 (Memref.isWhole_whole _) scM3_1 (Memref.isWhole_whole _)
        (iblk3 V c 0 t) (iblk3 V c 1 t) (iblk3 V c 2 t) (iblk3 V c 3 t) (iblk3 V c 4 t) (P3_0 V c) (P3_1 V c)
        (fun hc => h0 ((hcond3 t).mp hc))]
    refine pay4_rowb V c t (P3_1 V c) (fun k l => ?_) p q r hr
    unfold P3_1
    rw [sout3_Ab (F := Ideal) c (grid3.coords tz3) (ms3_0 tz3) (hs3_0 tz3) (ms3_1 tz3) (hs3_1 tz3) (ms3_2 tz3) (hs3_2 tz3) (ms3_3 tz3) (hs3_3 tz3)
        (ms3_4 tz3) (hs3_4 tz3) (ms3_5 tz3) (hs3_5 tz3) (ms3_6 tz3) (hs3_6 tz3) scM3_0 (Memref.isWhole_whole _) scM3_1 (Memref.isWhole_whole _)
        (iblk3 V c 0 tz3) (iblk3 V c 1 tz3) (iblk3 V c 2 tz3) (iblk3 V c 3 tz3) (iblk3 V c 4 tz3) hc3_first]
    exact (PayIdx.k3_pay2_apply (iblk3 V c 2 tz3) (ValueIdx.ix2 k l)).trans (blk3_2b V c tz3 k l)

/-- What point t writes back through the second output is block t of the reconstructed adjacency. -/
theorem flushed3_6b (c : Dev nD) (t : Fin cfg3.N) :
    (dat3 (F := Ideal) V c).flushed 6 t = ((cfg3.win 6).blk t).view.read (Elt Ideal) (G3b V c) := by
  obtain ⟨-, -, e0, e1, -⟩ := idx3b t
  have hN : t.val < 50 := lt_of_lt_of_eq t.isLt (show cfg3.N = 50 from N_3)
  show (cfg3.win 6).cut (grid3.coords t) ((dat3 V c).after 6 t) = _
  rw [after3_6]
  funext y
  obtain ⟨p, q, rfl⟩ : ∃ (p : Fin 200) (q : Fin 10000), y = ValueIdx.ix2 p q := ⟨y 0, y 1, ValueIdx.eq_ix2 y⟩
  show outAt3_1 V c t (ValueIdx.ix2 p q) = G3b V c (((cfg3.win 6).blk t).view.emb (ValueIdx.ix2 p q))
  rw [outAt3_1_applyb V c t p q ⟨t.val * 200 + p.val, by have := p.isLt; omega⟩ rfl]
  refine congrArg (G3b V c) (funext fun a => Fin.ext ?_)
  match a with
  | ⟨0, _⟩ => show t.val * 200 + p.val = win3_6.index t 0 * 200 + 1 * p.val; rw [e0]; omega
  | ⟨1, _⟩ => show q.val = win3_6.index t 1 * 10000 + 1 * q.val; rw [e1]; omega

/-- An index of the second output's array is in point t's block iff each coordinate is in the block's range on its axis. -/
theorem mem_blk3_6b (t : Fin cfg3.N) (i : S10000x10000.Idx) :
    i ∈ ((cfg3.win 6).blk t).view.set
      ↔ ∀ a : Fin 2, win3_6.index t a * S200x10000.size a ≤ (i a).val ∧ (i a).val < win3_6.index t a * S200x10000.size a + S200x10000.size a := by
  show i ∈ ((View.whole main_v9_1).slice (win3_6.rect t)).set ↔ _
  rw [View.set_slice_whole, Rect.mem_set_unit]
  exact Iff.rfl

/-- The second array the pass leaves is the reconstructed adjacency  logistic(s · sᵀ)  of the hidden layer it finds. -/
theorem arr3_6 (c : Dev nD) :
    (dat3 (F := Ideal) V c).arrAt 6 cfg3.N
      = uncur2 (fun i j => Ideal.logistic (∑ l : Fin 64, cur2 (V c main_v8_1 : S10000x64.Idx → EReal) i l * cur2 (V c main_v8_1 : S10000x64.Idx → EReal) j l)) :=
  (dat3 (F := Ideal) V c).arrAt_eq_of_cover 6 (G3b V c) (fun t _ => flushed3_6b V c t) fun i => by
    have hi0 : ((i 0 : Fin 10000) : Nat) < 10000 := (i 0).isLt
    have hi1 : ((i 1 : Fin 10000) : Nat) < 10000 := (i 1).isLt
    have hN : cfg3.N = 50 := N_3
    refine ⟨⟨(i 0).val / 200, by rw [hN]; omega⟩, flush3_6 _, ?_⟩
    obtain ⟨-, -, e0, e1, -⟩ := idx3b ⟨(i 0).val / 200, by rw [hN]; omega⟩
    rw [mem_blk3_6b]
    intro a
    match a with
    | ⟨0, _⟩ =>
      show win3_6.index _ 0 * 200 ≤ (i 0).val ∧ (i 0).val < win3_6.index _ 0 * 200 + 200
      rw [e0]; dsimp only; omega
    | ⟨1, _⟩ =>
      show win3_6.index _ 1 * 10000 ≤ (i 1).val ∧ (i 1).val < win3_6.index _ 1 * 10000 + 10000
      rw [e1]; omega

end Array

end Cert.KernelIdeal.Val3b

end
-- ==== Proof.HostVals.lean ====
/-
  What the host operations before the first kernel leave in the arrays they write, read at one entry over the
  extended reals: a vector given a leading unit axis reads the vector; two matrices set side by side read the left
  one in the first 64 columns and the right one in the last 64; two vectors set end to end and then given a leading
  unit axis read the first vector in the first 64 places and the second in the last 64.
-/
import proofs.«114016_g31997506355976_cont_9to1_2145_5_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVals

open Cert.KernelIdeal Cert.KernelIdeal.Gen Idealize.ShloMosaic Idealize.ShloMosaic.ValueIdx Idealize.SL.Sem
open Idealize.ShloMosaic.StableHlo

variable (W : Valuation τ sig (Elt Ideal))

/-- The first encoder bias as a one-row matrix. -/
theorem host_v0 (j : Fin 64) :
    (StableHlo.after (hostOps0 (F := Ideal)) W (Proc.devRef (τ := τ) .tc main_v0) : S1x64.Idx → EReal) (ix2 (0 : Fin 1) j)
      = (W (Proc.devRef (τ := τ) .tc main_arg3) : S64.Idx → EReal) (ix1 j) := by
  have e : (StableHlo.after (hostOps0 (F := Ideal)) W (Proc.devRef (τ := τ) .tc main_v0) : S1x64.Idx → EReal)
      = shapeCast S1x64 (W (Proc.devRef (τ := τ) .tc main_arg3) : S64.Idx → EReal) shapeCasts_S64_S1x64 := by
    dsimp only [hostOps0]; after_results <;> rfl
  rw [e]
  exact shapeCast_a_1a_apply _ _ (0 : Fin 1) j

/-- The second encoder bias as a one-row matrix. -/
theorem host_v1 (j : Fin 64) :
    (StableHlo.after (hostOps0 (F := Ideal)) W (Proc.devRef (τ := τ) .tc main_v1) : S1x64.Idx → EReal) (ix2 (0 : Fin 1) j)
      = (W (Proc.devRef (τ := τ) .tc main_arg5) : S64.Idx → EReal) (ix1 j) := by
  have e : (StableHlo.after (hostOps0 (F := Ideal)) W (Proc.devRef (τ := τ) .tc main_v1) : S1x64.Idx → EReal)
      = shapeCast S1x64 (W (Proc.devRef (τ := τ) .tc main_arg5) : S64.Idx → EReal) shapeCasts_S64_S1x64 := by
    dsimp only [hostOps0]; after_results <;> rfl
  rw [e]
  exact shapeCast_a_1a_apply _ _ (0 : Fin 1) j

/-- The two [64,64] weight matrices side by side, as the host operations leave them. -/
theorem v2_eq :
    (StableHlo.after (hostOps0 (F := Ideal)) W (Proc.devRef (τ := τ) .tc main_v2) : S64x128.Idx → EReal)
      = concatenate S64x128 1 [⟨S64x64, (W (Proc.devRef (τ := τ) .tc main_arg6) : S64x64.Idx → EReal)⟩,
          ⟨S64x64, (W (Proc.devRef (τ := τ) .tc main_arg10) : S64x64.Idx → EReal)⟩] concatenates_S64x64_S64x64_S64x128_d1 := by
  dsimp only [hostOps0]; after_results <;> rfl

/-- Columns 0..63 of the side-by-side matrix are the left matrix. -/
theorem host_v2_lo (l j : Fin 64) :
    (StableHlo.after (hostOps0 (F := Ideal)) W (Proc.devRef (τ := τ) .tc main_v2) : S64x128.Idx → EReal)
        (ix2 l (⟨j.val, by omega⟩ : Fin 128))
      = (W (Proc.devRef (τ := τ) .tc main_arg6) : S64x64.Idx → EReal) (ix2 l j) := by
  rw [v2_eq]
  exact concatenate_pair_apply_left (s₁ := S64x64) (s₂ := S64x64) (1 : Fin S64x128.rank) _ _ _ (ix2 l (⟨j.val, by omega⟩ : Fin 128)) rfl (ix2 l j)
    (fun b => by match b with | ⟨0, _⟩ => rfl | ⟨1, _⟩ => rfl)

/-- Columns 64..127 of the side-by-side matrix are the right matrix. -/
theorem host_v2_hi (l j : Fin 64) :
    (StableHlo.after (hostOps0 (F := Ideal)) W (Proc.devRef (τ := τ) .tc main_v2) : S64x128.Idx → EReal)
        (ix2 l (⟨j.val + 64, by omega⟩ : Fin 128))
      = (W (Proc.devRef (τ := τ) .tc main_arg10) : S64x64.Idx → EReal) (ix2 l j) := by
  rw [v2_eq]
  exact concatenate_pair_apply_right (s₁ := S64x64) (s₂ := S64x64) (1 : Fin S64x128.rank) _ _ _ (ix2 l (⟨j.val + 64, by omega⟩ : Fin 128)) rfl rfl (ix2 l j)
    (fun b hb => by
      match b with
      | ⟨0, _⟩ => rfl
      | ⟨1, _⟩ => exact absurd rfl hb)
    rfl

/-- The two [64] bias vectors end to end, then as a one-row matrix, as the host operations leave them. -/
theorem v4_eq :
    (StableHlo.after (hostOps0 (F := Ideal)) W (Proc.devRef (τ := τ) .tc main_v4) : S1x128.Idx → EReal)
      = shapeCast S1x128 (concatenate S128 0 [⟨S64, (W (Proc.devRef (τ := τ) .tc main_arg7) : S64.Idx → EReal)⟩,
          ⟨S64, (W (Proc.devRef (τ := τ) .tc main_arg11) : S64.Idx → EReal)⟩] concatenates_S64_S64_S128_d0) shapeCasts_S128_S1x128 := by
  dsimp only [hostOps0]; after_results <;> rfl

/-- Places 0..63 of the joined bias row are the first vector. -/
theorem host_v4_lo (j : Fin 64) :
    (StableHlo.after (hostOps0 (F := Ideal)) W (Proc.devRef (τ := τ) .tc main_v4) : S1x128.Idx → EReal)
        (ix2 (0 : Fin 1) (⟨j.val, by omega⟩ : Fin 128))
      = (W (Proc.devRef (τ := τ) .tc main_arg7) : S64.Idx → EReal) (ix1 j) := by
  rw [v4_eq, shapeCast_a_1a_apply]
  exact concatenate_pair_apply_left (s₁ := S64) (s₂ := S64) (0 : Fin S128.rank) _ _ _ (ix1 (⟨j.val, by omega⟩ : Fin 128)) rfl (ix1 j)
    (fun b => by match b with | ⟨0, _⟩ => rfl)

/-- Places 64..127 of the joined bias row are the second vector. -/
theorem host_v4_hi (j : Fin 64) :
    (StableHlo.after (hostOps0 (F := Ideal)) W (Proc.devRef (τ := τ) .tc main_v4) : S1x128.Idx → EReal)
        (ix2 (0 : Fin 1) (⟨j.val + 64, by omega⟩ : Fin 128))
      = (W (Proc.devRef (τ := τ) .tc main_arg11) : S64.Idx → EReal) (ix1 j) := by
  rw [v4_eq, shapeCast_a_1a_apply]
  exact concatenate_pair_apply_right (s₁ := S64) (s₂ := S64) (0 : Fin S128.rank) _ _ _ (ix1 (⟨j.val + 64, by omega⟩ : Fin 128)) rfl rfl (ix1 j)
    (fun b hb => by match b with | ⟨0, _⟩ => exact absurd rfl hb)
    rfl

/-- The second decoder bias as a one-row matrix. -/
theorem host_v5 (j : Fin 128) :
    (StableHlo.after (hostOps0 (F := Ideal)) W (Proc.devRef (τ := τ) .tc main_v5) : S1x128.Idx → EReal) (ix2 (0 : Fin 1) j)
      = (W (Proc.devRef (τ := τ) .tc main_arg9) : S128.Idx → EReal) (ix1 j) := by
  have e : (StableHlo.after (hostOps0 (F := Ideal)) W (Proc.devRef (τ := τ) .tc main_v5) : S1x128.Idx → EReal)
      = shapeCast S1x128 (W (Proc.devRef (τ := τ) .tc main_arg9) : S128.Idx → EReal) shapeCasts_S128_S1x128 := by
    dsimp only [hostOps0]; after_results <;> rfl
  rw [e]
  exact shapeCast_a_1a_apply _ _ (0 : Fin 1) j

end Cert.KernelIdeal.HostVals

end
-- ==== Proof.RefSide.lean ====
/-
  The reference's three results, read entry by entry, are the specification's functions of the arguments.

  Each graph-convolution layer of the reference is five operations: the product h · W, the product adj · (h · W),
  two broadcasts of the bias, and the sum.  Read at the entry (p, q) they are the sum over k of adj(p,k) times the
  sum over l of h(k,l) · W(l,q), plus b(q): the specification's gc, the same sums in the same order.  The rectifier
  is the maximum with the constant zero.  The last result is 1 / (1 + exp(-(s · sᵀ)(p,q))), which is the logistic
  function of the entry of s · sᵀ, and the transpose only exchanges the two coordinates of s.
-/
import proofs.«114016_g31997506355976_cont_9to1_2145_5_alg».proof.Proof.Gen.ReferenceIdeal.Read
import proofs.«114016_g31997506355976_cont_9to1_2145_5_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert.Spec (cur1 cur2 uncur2)

/-! ### The first layer -/

theorem lidx_v0 (p : Fin 10000) (q : Fin 64) (k : Fin 128) : lidx_main_v0 (ValueIdx.ix2 p q) k = ValueIdx.ix2 p k :=
  funext fun a => Fin.ext (by match a with | ⟨0, _⟩ => rfl | ⟨1, _⟩ => rfl)
theorem ridx_v0 (p : Fin 10000) (q : Fin 64) (k : Fin 128) : ridx_main_v0 (ValueIdx.ix2 p q) k = ValueIdx.ix2 k q :=
  funext fun a => Fin.ext (by match a with | ⟨0, _⟩ => rfl | ⟨1, _⟩ => rfl)
theorem lidx_v1 (p : Fin 10000) (q : Fin 64) (k : Fin 10000) : lidx_main_v1 (ValueIdx.ix2 p q) k = ValueIdx.ix2 p k :=
  funext fun a => Fin.ext (by match a with | ⟨0, _⟩ => rfl | ⟨1, _⟩ => rfl)
theorem ridx_v1 (p : Fin 10000) (q : Fin 64) (k : Fin 10000) : ridx_main_v1 (ValueIdx.ix2 p q) k = ValueIdx.ix2 k q :=
  funext fun a => Fin.ext (by match a with | ⟨0, _⟩ => rfl | ⟨1, _⟩ => rfl)
theorem idx_v3 (p : Fin 10000) (q : Fin 64) : idx_main_v2 (idx_main_v3 (ValueIdx.ix2 p q)) = ValueIdx.ix1 q :=
  funext fun a => Fin.ext (by match a with | ⟨0, _⟩ => rfl)

/-- The first layer before the rectifier, at an entry. -/
theorem v4_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (p : Fin 10000) (q : Fin 64) :
    val_main_v4 (F := Ideal) x0 x1 x2 x3 (ValueIdx.ix2 p q)
      = Spec.gc (cur2 x1) (cur2 x0) (cur2 x2) (cur1 x3) p q := by
  rw [val_main_v4_apply, val_main_v1_apply, val_main_v3_apply, val_main_v2_apply]
  simp only [ridx_v1, lidx_v1, val_main_v0_apply, lidx_v0, ridx_v0, idx_v3, Ideal.addf_def,
    Spec.gc, Spec.cur2_apply, Spec.cur1_apply]

/-- The first hidden layer, at an entry. -/
theorem v5_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (p : Fin 10000) (q : Fin 64) :
    val_main_v5 (F := Ideal) x0 x1 x2 x3 (ValueIdx.ix2 p q)
      = Spec.hid (cur2 x0) (cur2 x1) (cur2 x2) (cur1 x3) p q := by
  rw [val_main_v5_apply, val_main_call0_v0_apply, val_main_call0_cst_apply, v4_at]
  simp only [Ideal.maximumf_def, Ideal.ofBits_def, Ideal.ofBits_zero_f32, Spec.hid, Spec.relu]

/-! ### The second layer: the embedding -/

theorem lidx_v6 (p : Fin 10000) (q : Fin 64) (k : Fin 64) : lidx_main_v6 (ValueIdx.ix2 p q) k = ValueIdx.ix2 p k :=
  funext fun a => Fin.ext (by match a with | ⟨0, _⟩ => rfl | ⟨1, _⟩ => rfl)
theorem ridx_v6 (p : Fin 10000) (q : Fin 64) (k : Fin 64) : ridx_main_v6 (ValueIdx.ix2 p q) k = ValueIdx.ix2 k q :=
  funext fun a => Fin.ext (by match a with | ⟨0, _⟩ => rfl | ⟨1, _⟩ => rfl)
theorem lidx_v7 (p : Fin 10000) (q : Fin 64) (k : Fin 10000) : lidx_main_v7 (ValueIdx.ix2 p q) k = ValueIdx.ix2 p k :=
  funext fun a => Fin.ext (by match a with | ⟨0, _⟩ => rfl | ⟨1, _⟩ => rfl)
theorem ridx_v7 (p : Fin 10000) (q : Fin 64) (k : Fin 10000) : ridx_main_v7 (ValueIdx.ix2 p q) k = ValueIdx.ix2 k q :=
  funext fun a => Fin.ext (by match a with | ⟨0, _⟩ => rfl | ⟨1, _⟩ => rfl)
theorem idx_v9 (p : Fin 10000) (q : Fin 64) : idx_main_v8 (idx_main_v9 (ValueIdx.ix2 p q)) = ValueIdx.ix1 q :=
  funext fun a => Fin.ext (by match a with | ⟨0, _⟩ => rfl)

/-- The embedding, at an entry. -/
theorem v10_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (p : Fin 10000) (q : Fin 64) :
    val_main_v10 (F := Ideal) x0 x1 x2 x3 x4 x5 (ValueIdx.ix2 p q)
      = Spec.emb (cur2 x0) (cur2 x1) (cur2 x2) (cur1 x3) (cur2 x4) (cur1 x5) p q := by
  rw [val_main_v10_apply, val_main_v7_apply, val_main_v9_apply, val_main_v8_apply]
  simp only [ridx_v7, lidx_v7, val_main_v6_apply, lidx_v6, ridx_v6, idx_v9, v5_at, Ideal.addf_def, Spec.emb,
    Spec.gc, Spec.cur2_apply, Spec.cur1_apply]

/-! ### The attribute decoder's first layer -/

theorem lidx_v11 (p : Fin 10000) (q : Fin 64) (k : Fin 64) : lidx_main_v11 (ValueIdx.ix2 p q) k = ValueIdx.ix2 p k :=
  funext fun a => Fin.ext (by match a with | ⟨0, _⟩ => rfl | ⟨1, _⟩ => rfl)
theorem ridx_v11 (p : Fin 10000) (q : Fin 64) (k : Fin 64) : ridx_main_v11 (ValueIdx.ix2 p q) k = ValueIdx.ix2 k q :=
  funext fun a => Fin.ext (by match a with | ⟨0, _⟩ => rfl | ⟨1, _⟩ => rfl)
theorem lidx_v12 (p : Fin 10000) (q : Fin 64) (k : Fin 10000) : lidx_main_v12 (ValueIdx.ix2 p q) k = ValueIdx.ix2 p k :=
  funext fun a => Fin.ext (by match a with | ⟨0, _⟩ => rfl | ⟨1, _⟩ => rfl)
theorem ridx_v12 (p : Fin 10000) (q : Fin 64) (k : Fin 10000) : ridx_main_v12 (ValueIdx.ix2 p q) k = ValueIdx.ix2 k q :=
  funext fun a => Fin.ext (by match a with | ⟨0, _⟩ => rfl | ⟨1, _⟩ => rfl)
theorem idx_v14 (p : Fin 10000) (q : Fin 64) : idx_main_v13 (idx_main_v14 (ValueIdx.ix2 p q)) = ValueIdx.ix1 q :=
  funext fun a => Fin.ext (by match a with | ⟨0, _⟩ => rfl)

/-- The attribute decoder's first layer before the rectifier, at an entry. -/
theorem v15_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (p : Fin 10000) (q : Fin 64) :
    val_main_v15 (F := Ideal) x0 x1 x2 x3 x4 x5 x6 x7 (ValueIdx.ix2 p q)
      = Spec.gc (cur2 x1) (Spec.emb (cur2 x0) (cur2 x1) (cur2 x2) (cur1 x3) (cur2 x4) (cur1 x5)) (cur2 x6) (cur1 x7) p q := by
  rw [val_main_v15_apply, val_main_v12_apply, val_main_v14_apply, val_main_v13_apply]
  simp only [ridx_v12, lidx_v12, val_main_v11_apply, lidx_v11, ridx_v11, idx_v14, v10_at, Ideal.addf_def,
    Spec.gc, Spec.cur2_apply, Spec.cur1_apply]

/-- The attribute decoder's hidden layer, at an entry. -/
theorem v16_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (p : Fin 10000) (q : Fin 64) :
    val_main_v16 (F := Ideal) x0 x1 x2 x3 x4 x5 x6 x7 (ValueIdx.ix2 p q)
      = Spec.hid2 (cur2 x0) (cur2 x1) (cur2 x2) (cur1 x3) (cur2 x4) (cur1 x5) (cur2 x6) (cur1 x7) p q := by
  rw [val_main_v16_apply, val_main_call1_v0_apply, val_main_call1_cst_apply, v15_at]
  simp only [Ideal.maximumf_def, Ideal.ofBits_def, Ideal.ofBits_zero_f32, Spec.hid2, Spec.relu]

/-! ### The attribute decoder's second layer -/

theorem lidx_v17 (p : Fin 10000) (q : Fin 128) (k : Fin 64) : lidx_main_v17 (ValueIdx.ix2 p q) k = ValueIdx.ix2 p k :=
  funext fun a => Fin.ext (by match a with | ⟨0, _⟩ => rfl | ⟨1, _⟩ => rfl)
theorem ridx_v17 (p : Fin 10000) (q : Fin 128) (k : Fin 64) : ridx_main_v17 (ValueIdx.ix2 p q) k = ValueIdx.ix2 k q :=
  funext fun a => Fin.ext (by match a with | ⟨0, _⟩ => rfl | ⟨1, _⟩ => rfl)
theorem lidx_v18 (p : Fin 10000) (q : Fin 128) (k : Fin 10000) : lidx_main_v18 (ValueIdx.ix2 p q) k = ValueIdx.ix2 p k :=
  funext fun a => Fin.ext (by match a with | ⟨0, _⟩ => rfl | ⟨1, _⟩ => rfl)
theorem ridx_v18 (p : Fin 10000) (q : Fin 128) (k : Fin 10000) : ridx_main_v18 (ValueIdx.ix2 p q) k = ValueIdx.ix2 k q :=
  funext fun a => Fin.ext (by match a with | ⟨0, _⟩ => rfl | ⟨1, _⟩ => rfl)
theorem idx_v20 (p : Fin 10000) (q : Fin 128) : idx_main_v19 (idx_main_v20 (ValueIdx.ix2 p q)) = ValueIdx.ix1 q :=
  funext fun a => Fin.ext (by match a with | ⟨0, _⟩ => rfl)

/-- The reconstructed attributes, at an entry. -/
theorem v21_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x128, .f32⟩ : BufTy).Contents (Elt Ideal)) (x9 : (⟨S128, .f32⟩ : BufTy).Contents (Elt Ideal))
    (p : Fin 10000) (q : Fin 128) :
    val_main_v21 (F := Ideal) x0 x1 x2 x3 x4 x5 x6 x7 x8 x9 (ValueIdx.ix2 p q)
      = Spec.xhat (cur2 x0) (cur2 x1) (cur2 x2) (cur1 x3) (cur2 x4) (cur1 x5) (cur2 x6) (cur1 x7) (cur2 x8) (cur1 x9) p q := by
  rw [val_main_v21_apply, val_main_v18_apply, val_main_v20_apply, val_main_v19_apply]
  simp only [ridx_v18, lidx_v18, val_main_v17_apply, lidx_v17, ridx_v17, idx_v20, v16_at, Ideal.addf_def, Spec.xhat,
    Spec.gc, Spec.cur2_apply, Spec.cur1_apply]

/-! ### The structure decoder's layer -/

theorem lidx_v22 (p : Fin 10000) (q : Fin 64) (k : Fin 64) : lidx_main_v22 (ValueIdx.ix2 p q) k = ValueIdx.ix2 p k :=
  funext fun a => Fin.ext (by match a with | ⟨0, _⟩ => rfl | ⟨1, _⟩ => rfl)
theorem ridx_v22 (p : Fin 10000) (q : Fin 64) (k : Fin 64) : ridx_main_v22 (ValueIdx.ix2 p q) k = ValueIdx.ix2 k q :=
  funext fun a => Fin.ext (by match a with | ⟨0, _⟩ => rfl | ⟨1, _⟩ => rfl)
theorem lidx_v23 (p : Fin 10000) (q : Fin 64) (k : Fin 10000) : lidx_main_v23 (ValueIdx.ix2 p q) k = ValueIdx.ix2 p k :=
  funext fun a => Fin.ext (by match a with | ⟨0, _⟩ => rfl | ⟨1, _⟩ => rfl)
theorem ridx_v23 (p : Fin 10000) (q : Fin 64) (k : Fin 10000) : ridx_main_v23 (ValueIdx.ix2 p q) k = ValueIdx.ix2 k q :=
  funext fun a => Fin.ext (by match a with | ⟨0, _⟩ => rfl | ⟨1, _⟩ => rfl)
theorem idx_v25 (p : Fin 10000) (q : Fin 64) : idx_main_v24 (idx_main_v25 (ValueIdx.ix2 p q)) = ValueIdx.ix1 q :=
  funext fun a => Fin.ext (by match a with | ⟨0, _⟩ => rfl)

/-- The structure decoder's layer before the rectifier, at an entry. -/
theorem v26_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x10 : (⟨S64x64, .f32⟩ : BufTy).Contents (Elt Ideal)) (x11 : (⟨S64, .f32⟩ : BufTy).Contents (Elt Ideal))
    (p : Fin 10000) (q : Fin 64) :
    val_main_v26 (F := Ideal) x0 x1 x2 x3 x4 x5 x10 x11 (ValueIdx.ix2 p q)
      = Spec.gc (cur2 x1) (Spec.emb (cur2 x0) (cur2 x1) (cur2 x2) (cur1 x3) (cur2 x4) (cur1 x5)) (cur2 x10) (cur1 x11) p q := by
  rw [val_main_v26_apply, val_main_v23_apply, val_main_v25_apply, val_main_v24_apply]
  simp only [ridx_v23, lidx_v23, val_main_v22_apply, lidx_v22, ridx_v22, idx_v25, v10_at, Ideal.addf_def,
    Spec.gc, Spec.cur2_apply, Spec.cur1_apply]

/-- The structure decoder's hidden layer, at an entry. -/
theorem v27_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x10 : (⟨S64x64, .f32⟩ : BufTy).Contents (Elt Ideal)) (x11 : (⟨S64, .f32⟩ : BufTy).Contents (Elt Ideal))
    (p : Fin 10000) (q : Fin 64) :
    val_main_v27 (F := Ideal) x0 x1 x2 x3 x4 x5 x10 x11 (ValueIdx.ix2 p q)
      = Spec.str (cur2 x0) (cur2 x1) (cur2 x2) (cur1 x3) (cur2 x4) (cur1 x5) (cur2 x10) (cur1 x11) p q := by
  rw [val_main_v27_apply, val_main_call2_v0_apply, val_main_call2_cst_apply, v26_at]
  simp only [Ideal.maximumf_def, Ideal.ofBits_def, Ideal.ofBits_zero_f32, Spec.str, Spec.relu]

/-! ### The reconstructed adjacency -/

theorem lidx_v29 (p q : Fin 10000) (k : Fin 64) : lidx_main_v29 (ValueIdx.ix2 p q) k = ValueIdx.ix2 p k :=
  funext fun a => Fin.ext (by match a with | ⟨0, _⟩ => rfl | ⟨1, _⟩ => rfl)
theorem ridx_v29 (p q : Fin 10000) (k : Fin 64) : ridx_main_v29 (ValueIdx.ix2 p q) k = ValueIdx.ix2 k q :=
  funext fun a => Fin.ext (by match a with | ⟨0, _⟩ => rfl | ⟨1, _⟩ => rfl)
theorem idx_v28 (k : Fin 64) (q : Fin 10000) : idx_main_v28 (ValueIdx.ix2 k q) = ValueIdx.ix2 q k :=
  funext fun a => Fin.ext (by match a with | ⟨0, _⟩ => rfl | ⟨1, _⟩ => rfl)

/-- The reconstructed adjacency, at an entry: one over one plus the exponential of minus the entry of s · sᵀ. -/
theorem v35_at
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x10 : (⟨S64x64, .f32⟩ : BufTy).Contents (Elt Ideal)) (x11 : (⟨S64, .f32⟩ : BufTy).Contents (Elt Ideal))
    (p q : Fin 10000) :
    val_main_v35 (F := Ideal) x0 x1 x2 x3 x4 x5 x10 x11 (ValueIdx.ix2 p q)
      = Spec.ahat (cur2 x0) (cur2 x1) (cur2 x2) (cur1 x3) (cur2 x4) (cur1 x5) (cur2 x10) (cur1 x11) p q := by
  rw [val_main_v35_apply, val_main_v34_apply, val_main_cst_0_apply, val_main_v33_apply, val_main_v32_apply, val_main_cst_apply,
    val_main_v31_apply, val_main_v30_apply, val_main_v29_apply]
  simp only [lidx_v29, ridx_v29, val_main_v28_apply, idx_v28, v27_at, Ideal.hostDivf_def, Ideal.ofBits_def, Ideal.ofBits_one_f32,
    Ideal.addf_def, Ideal.hostUnary_exp_def, Ideal.hostNegf_def, Ideal.negf_def, Spec.ahat, Ideal.logistic]

/-! ### The three results as whole arrays -/

/-- The third result is the embedding. -/
theorem z_eq
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v10 (F := Ideal) x0 x1 x2 x3 x4 x5
      = uncur2 (Spec.emb (cur2 x0) (cur2 x1) (cur2 x2) (cur1 x3) (cur2 x4) (cur1 x5)) := by
  funext i
  obtain ⟨p, q, rfl⟩ : ∃ p q, i = ValueIdx.ix2 p q := ⟨i 0, i 1, ValueIdx.eq_ix2 i⟩
  rw [v10_at, Spec.uncur2_ix2]

/-- The second result is the reconstructed attributes. -/
theorem xhat_eq
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x128, .f32⟩ : BufTy).Contents (Elt Ideal)) (x9 : (⟨S128, .f32⟩ : BufTy).Contents (Elt Ideal)) :
    val_main_v21 (F := Ideal) x0 x1 x2 x3 x4 x5 x6 x7 x8 x9
      = uncur2 (Spec.xhat (cur2 x0) (cur2 x1) (cur2 x2) (cur1 x3) (cur2 x4) (cur1 x5) (cur2 x6) (cur1 x7) (cur2 x8) (cur1 x9)) := by
  funext i
  obtain ⟨p, q, rfl⟩ : ∃ p q, i = ValueIdx.ix2 p q := ⟨i 0, i 1, ValueIdx.eq_ix2 i⟩
  rw [v21_at, Spec.uncur2_ix2]

/-- The first result is the reconstructed adjacency. -/
theorem ahat_eq
    (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x10 : (⟨S64x64, .f32⟩ : BufTy).Contents (Elt Ideal)) (x11 : (⟨S64, .f32⟩ : BufTy).Contents (Elt Ideal)) :
    val_main_v35 (F := Ideal) x0 x1 x2 x3 x4 x5 x10 x11
      = uncur2 (Spec.ahat (cur2 x0) (cur2 x1) (cur2 x2) (cur1 x3) (cur2 x4) (cur1 x5) (cur2 x10) (cur1 x11)) := by
  funext i
  obtain ⟨p, q, rfl⟩ : ∃ p q, i = ValueIdx.ix2 p q := ⟨i 0, i 1, ValueIdx.eq_ix2 i⟩
  rw [v35_at, Spec.uncur2_ix2]

end Cert.ReferenceIdeal.RefValue

end
-- ==== Proof.Bridge.lean ====
/-
  The bridge: what the kernel's run leaves in its three result buffers, pass by pass, is the specification's
  functions of the launch arguments — and so is what the reference computes.  Each pass's output arrays are the
  specification's layer of the arrays the pass finds; what a pass finds is either a launch argument (no earlier pass
  and no host operation writes it), a row or a side-by-side table the host stretch laid out from launch arguments, or an
  earlier pass's output.  Composing the four passes gives the embedding, the reconstructed attributes and the
  reconstructed adjacency; the reference's generated run gives the same three functions of arguments that agree.
-/
import proofs.«114016_g31997506355976_cont_9to1_2145_5_alg».proof.Defs
import proofs.«114016_g31997506355976_cont_9to1_2145_5_alg».proof.Proof.Gen.KernelIdeal
import proofs.«114016_g31997506355976_cont_9to1_2145_5_alg».proof.Proof.Gen.ReferenceIdeal
import proofs.«114016_g31997506355976_cont_9to1_2145_5_alg».proof.Proof.Gen.Pre_finite_inputs
import proofs.«114016_g31997506355976_cont_9to1_2145_5_alg».proof.Proof.Frames
import proofs.«114016_g31997506355976_cont_9to1_2145_5_alg».proof.Proof.Val0
import proofs.«114016_g31997506355976_cont_9to1_2145_5_alg».proof.Proof.Val1
import proofs.«114016_g31997506355976_cont_9to1_2145_5_alg».proof.Proof.Val2
import proofs.«114016_g31997506355976_cont_9to1_2145_5_alg».proof.Proof.Val3
import proofs.«114016_g31997506355976_cont_9to1_2145_5_alg».proof.Proof.Val3b
import proofs.«114016_g31997506355976_cont_9to1_2145_5_alg».proof.Proof.HostVals
import proofs.«114016_g31997506355976_cont_9to1_2145_5_alg».proof.Proof.RefSide
import proofs.«114016_g31997506355976_cont_9to1_2145_5_alg».proof.Proof.Spec

set_option maxRecDepth 16384

noncomputable section

namespace Cert.KernelIdeal.Bridge

open Cert.KernelIdeal Cert.KernelIdeal.Gen Cert.KernelIdeal.Hand Cert.KernelIdeal.HostVals
open Idealize.ShloMosaic Idealize.ShloMosaic.TcCoe Idealize.SL.Sem
open Cert.Spec (cur1 cur2 uncur2)
open Idealize.ShloMosaic.ValueIdx (ix1 ix2)

theorem cur2_uncur2 {a b : ℕ} (f : Fin a → Fin b → EReal) : cur2 (uncur2 f) = f := rfl

variable (m : (ℓ : Loc nD τ sig) → Buf (Elt Ideal) ℓ) (ρ : Dev nD → PrngReg) (c : Dev nD)

/-! ## The arguments' launch contents, as arrays of extended reals -/

abbrev mX : S10000x128.Idx → EReal := m ((c.tc : Thread nD τ).loc main_arg0)
abbrev mAdj : S10000x10000.Idx → EReal := m ((c.tc : Thread nD τ).loc main_arg1)
abbrev mW1 : S128x64.Idx → EReal := m ((c.tc : Thread nD τ).loc main_arg2)
abbrev mb1 : S64.Idx → EReal := m ((c.tc : Thread nD τ).loc main_arg3)
abbrev mW2 : S64x64.Idx → EReal := m ((c.tc : Thread nD τ).loc main_arg4)
abbrev mb2 : S64.Idx → EReal := m ((c.tc : Thread nD τ).loc main_arg5)
abbrev mWa1 : S64x64.Idx → EReal := m ((c.tc : Thread nD τ).loc main_arg6)
abbrev mba1 : S64.Idx → EReal := m ((c.tc : Thread nD τ).loc main_arg7)
abbrev mWa2 : S64x128.Idx → EReal := m ((c.tc : Thread nD τ).loc main_arg8)
abbrev mba2 : S128.Idx → EReal := m ((c.tc : Thread nD τ).loc main_arg9)
abbrev mWs : S64x64.Idx → EReal := m ((c.tc : Thread nD τ).loc main_arg10)
abbrev mbs : S64.Idx → EReal := m ((c.tc : Thread nD τ).loc main_arg11)

/-! ## The specification's layers at those arguments -/

def sHid : Fin 10000 → Fin 64 → EReal := Spec.hid (cur2 (mX m c)) (cur2 (mAdj m c)) (cur2 (mW1 m c)) (cur1 (mb1 m c))
def sEmb : Fin 10000 → Fin 64 → EReal := Spec.emb (cur2 (mX m c)) (cur2 (mAdj m c)) (cur2 (mW1 m c)) (cur1 (mb1 m c)) (cur2 (mW2 m c)) (cur1 (mb2 m c))
def sHid2 : Fin 10000 → Fin 64 → EReal := Spec.hid2 (cur2 (mX m c)) (cur2 (mAdj m c)) (cur2 (mW1 m c)) (cur1 (mb1 m c)) (cur2 (mW2 m c)) (cur1 (mb2 m c)) (cur2 (mWa1 m c)) (cur1 (mba1 m c))
def sXhat : Fin 10000 → Fin 128 → EReal := Spec.xhat (cur2 (mX m c)) (cur2 (mAdj m c)) (cur2 (mW1 m c)) (cur1 (mb1 m c)) (cur2 (mW2 m c)) (cur1 (mb2 m c)) (cur2 (mWa1 m c)) (cur1 (mba1 m c)) (cur2 (mWa2 m c)) (cur1 (mba2 m c))
def sStr : Fin 10000 → Fin 64 → EReal := Spec.str (cur2 (mX m c)) (cur2 (mAdj m c)) (cur2 (mW1 m c)) (cur1 (mb1 m c)) (cur2 (mW2 m c)) (cur1 (mb2 m c)) (cur2 (mWs m c)) (cur1 (mbs m c))
def sAhat : Fin 10000 → Fin 10000 → EReal := Spec.ahat (cur2 (mX m c)) (cur2 (mAdj m c)) (cur2 (mW1 m c)) (cur1 (mb1 m c)) (cur2 (mW2 m c)) (cur1 (mb2 m c)) (cur2 (mWs m c)) (cur1 (mbs m c))

/-! ## What each pass finds -/

/-- A buffer the host stretch does not write: the first pass finds its launch contents. -/
theorem V1_arg (r : Ref sig .tc) (hh : r ∉ hostOps0_W) : V1 m ρ c r = m ((c : Thread nD τ).loc r) := W1_of m ρ c r hh

/-- The bias rows and the side-by-side decoder weights the host stretch lays out, read at an index. -/
theorem brow0 : (fun j : Fin 64 => (V1 m ρ c main_v0 : S1x64.Idx → EReal) (ix2 (0 : Fin 1) j)) = cur1 (mb1 m c) :=
  funext fun j => host_v0 (W0 m ρ c) j
theorem brow1 : (fun j : Fin 64 => (V1 m ρ c main_v1 : S1x64.Idx → EReal) (ix2 (0 : Fin 1) j)) = cur1 (mb2 m c) :=
  funext fun j => host_v1 (W0 m ρ c) j
theorem brow5 : (fun j : Fin 128 => (V1 m ρ c main_v5 : S1x128.Idx → EReal) (ix2 (0 : Fin 1) j)) = cur1 (mba2 m c) :=
  funext fun j => host_v5 (W0 m ρ c) j
theorem wcat_lo : (fun (l : Fin 64) (j : Fin 64) => (V1 m ρ c main_v2 : S64x128.Idx → EReal) (ix2 l (⟨j.val, by omega⟩ : Fin 128))) = cur2 (mWa1 m c) :=
  funext fun l => funext fun j => host_v2_lo (W0 m ρ c) l j
theorem wcat_hi : (fun (l : Fin 64) (j : Fin 64) => (V1 m ρ c main_v2 : S64x128.Idx → EReal) (ix2 l (⟨j.val + 64, by omega⟩ : Fin 128))) = cur2 (mWs m c) :=
  funext fun l => funext fun j => host_v2_hi (W0 m ρ c) l j
theorem bcat_lo : (fun j : Fin 64 => (V1 m ρ c main_v4 : S1x128.Idx → EReal) (ix2 (0 : Fin 1) (⟨j.val, by omega⟩ : Fin 128))) = cur1 (mba1 m c) :=
  funext fun j => host_v4_lo (W0 m ρ c) j
theorem bcat_hi : (fun j : Fin 64 => (V1 m ρ c main_v4 : S1x128.Idx → EReal) (ix2 (0 : Fin 1) (⟨j.val + 64, by omega⟩ : Fin 128))) = cur1 (mbs m c) :=
  funext fun j => host_v4_hi (W0 m ρ c) j

/-! ## Pass by pass -/

/-- After the first pass: the hidden layer, and the adjacency re-encoded (the same array at the extended reals). -/
theorem st0_h : (V2 m ρ c main_v6_0 : S10000x64.Idx → EReal) = uncur2 (sHid m c) := by
  have e : (W2 m ρ c (Proc.devRef .tc main_v6_0) : S10000x64.Idx → EReal) = uncur2 (Spec.relu (Spec.gc (cur2 (V1 m ρ c main_arg1 : S10000x10000.Idx → EReal)) (cur2 (V1 m ρ c main_arg0 : S10000x128.Idx → EReal)) (cur2 (V1 m ρ c main_arg2 : S128x64.Idx → EReal)) (fun j : Fin 64 => (V1 m ρ c main_v0 : S1x64.Idx → EReal) (ix2 (0 : Fin 1) j)))) :=
    (W2_arr m ρ c 4).trans (Val0.arr0_4 (V1 m ρ) c)
  rw [V1_arg m ρ c main_arg1 (by decide), V1_arg m ρ c main_arg0 (by decide), V1_arg m ρ c main_arg2 (by decide), brow0] at e
  exact e
theorem st0_a : (V2 m ρ c main_v6_1 : S10000x10000.Idx → EReal) = mAdj m c := by
  have e : (W2 m ρ c (Proc.devRef .tc main_v6_1) : S10000x10000.Idx → EReal) = (V1 m ρ c main_arg1 : S10000x10000.Idx → EReal) :=
    (W2_arr m ρ c 5).trans (Val0.arr0_5 (V1 m ρ) c)
  rw [V1_arg m ρ c main_arg1 (by decide)] at e
  exact e

/-- The second pass finds them, the second encoder weights and bias. -/
theorem V2_arg4 : V2 m ρ c main_arg4 = m ((c : Thread nD τ).loc main_arg4) :=
  (W2_keep m ρ c main_arg4 (by decide)).trans (W1_of m ρ c main_arg4 (by decide))
theorem V2_v1 : V2 m ρ c main_v1 = V1 m ρ c main_v1 := W2_keep m ρ c main_v1 (by decide)

/-- After the second pass: the embedding. -/
theorem st1 : (V3 m ρ c main_v7 : S10000x64.Idx → EReal) = uncur2 (sEmb m c) := by
  have e : (W3 m ρ c (Proc.devRef .tc main_v7) : S10000x64.Idx → EReal) = uncur2 (Spec.gc (cur2 (V2 m ρ c main_v6_1 : S10000x10000.Idx → EReal)) (cur2 (V2 m ρ c main_v6_0 : S10000x64.Idx → EReal)) (cur2 (V2 m ρ c main_arg4 : S64x64.Idx → EReal)) (fun j : Fin 64 => (V2 m ρ c main_v1 : S1x64.Idx → EReal) (ix2 (0 : Fin 1) j))) :=
    (W3_arr m ρ c 4).trans (Val1.arr1_4 (V2 m ρ) c)
  rw [st0_a, st0_h, V2_arg4, V2_v1, brow1, cur2_uncur2] at e
  exact e

/-- The third pass finds the adjacency, the embedding and the laid-out decoder weights and biases. -/
theorem V3_v6_1 : (V3 m ρ c main_v6_1 : S10000x10000.Idx → EReal) = mAdj m c :=
  (W3_keep m ρ c main_v6_1 (by decide)).trans (st0_a m ρ c)
theorem V3_v2 : V3 m ρ c main_v2 = V1 m ρ c main_v2 :=
  (W3_keep m ρ c main_v2 (by decide)).trans (W2_keep m ρ c main_v2 (by decide))
theorem V3_v4 : V3 m ρ c main_v4 = V1 m ρ c main_v4 :=
  (W3_keep m ρ c main_v4 (by decide)).trans (W2_keep m ρ c main_v4 (by decide))

/-- After the third pass: the two decoder branches' hidden layers. -/
theorem st2_h : (V4 m ρ c main_v8_0 : S10000x64.Idx → EReal) = uncur2 (sHid2 m c) := by
  have e : (W4 m ρ c (Proc.devRef .tc main_v8_0) : S10000x64.Idx → EReal) = uncur2 (Spec.relu (Spec.gc (cur2 (V3 m ρ c main_v6_1 : S10000x10000.Idx → EReal)) (cur2 (V3 m ρ c main_v7 : S10000x64.Idx → EReal)) (fun (l : Fin 64) (j : Fin 64) => (V3 m ρ c main_v2 : S64x128.Idx → EReal) (ix2 l (⟨j.val, by omega⟩ : Fin 128))) (fun j : Fin 64 => (V3 m ρ c main_v4 : S1x128.Idx → EReal) (ix2 (0 : Fin 1) (⟨j.val, by omega⟩ : Fin 128))))) :=
    (W4_arr m ρ c 4).trans (Val2.arr2_4 (V3 m ρ) c)
  rw [V3_v6_1, st1, V3_v2, V3_v4, wcat_lo, bcat_lo, cur2_uncur2] at e
  exact e
theorem st2_s : (V4 m ρ c main_v8_1 : S10000x64.Idx → EReal) = uncur2 (sStr m c) := by
  have e : (W4 m ρ c (Proc.devRef .tc main_v8_1) : S10000x64.Idx → EReal) = uncur2 (Spec.relu (Spec.gc (cur2 (V3 m ρ c main_v6_1 : S10000x10000.Idx → EReal)) (cur2 (V3 m ρ c main_v7 : S10000x64.Idx → EReal)) (fun (l : Fin 64) (j : Fin 64) => (V3 m ρ c main_v2 : S64x128.Idx → EReal) (ix2 l (⟨j.val + 64, by omega⟩ : Fin 128))) (fun j : Fin 64 => (V3 m ρ c main_v4 : S1x128.Idx → EReal) (ix2 (0 : Fin 1) (⟨j.val + 64, by omega⟩ : Fin 128))))) :=
    (W4_arr m ρ c 5).trans (Val2.arr2_5 (V3 m ρ) c)
  rw [V3_v6_1, st1, V3_v2, V3_v4, wcat_hi, bcat_hi, cur2_uncur2] at e
  exact e

/-- The fourth pass finds the adjacency, both hidden layers, the last decoder weights and bias. -/
theorem V4_v6_1 : (V4 m ρ c main_v6_1 : S10000x10000.Idx → EReal) = mAdj m c :=
  (W4_keep m ρ c main_v6_1 (by decide)).trans (V3_v6_1 m ρ c)
theorem V4_arg8 : V4 m ρ c main_arg8 = m ((c : Thread nD τ).loc main_arg8) :=
  (W4_keep m ρ c main_arg8 (by decide)).trans ((W3_keep m ρ c main_arg8 (by decide)).trans ((W2_keep m ρ c main_arg8 (by decide)).trans (W1_of m ρ c main_arg8 (by decide))))
theorem V4_v5 : V4 m ρ c main_v5 = V1 m ρ c main_v5 :=
  (W4_keep m ρ c main_v5 (by decide)).trans ((W3_keep m ρ c main_v5 (by decide)).trans (W2_keep m ρ c main_v5 (by decide)))

/-- The three results. -/
theorem res_xhat : (W5 m ρ c (Proc.devRef .tc main_v9_0) : S10000x128.Idx → EReal) = uncur2 (sXhat m c) := by
  have e : (W5 m ρ c (Proc.devRef .tc main_v9_0) : S10000x128.Idx → EReal) = uncur2 (Spec.gc (cur2 (V4 m ρ c main_v6_1 : S10000x10000.Idx → EReal)) (cur2 (V4 m ρ c main_v8_0 : S10000x64.Idx → EReal)) (cur2 (V4 m ρ c main_arg8 : S64x128.Idx → EReal)) (fun j : Fin 128 => (V4 m ρ c main_v5 : S1x128.Idx → EReal) (ix2 (0 : Fin 1) j))) :=
    (W5_arr m ρ c 5).trans (Val3.arr3_5 (V4 m ρ) c)
  rw [V4_v6_1, st2_h, V4_arg8, V4_v5, brow5, cur2_uncur2] at e
  exact e
theorem res_ahat : (W5 m ρ c (Proc.devRef .tc main_v9_1) : S10000x10000.Idx → EReal) = uncur2 (sAhat m c) := by
  have e : (W5 m ρ c (Proc.devRef .tc main_v9_1) : S10000x10000.Idx → EReal) = uncur2 (fun i j => Ideal.logistic (∑ l : Fin 64, cur2 (V4 m ρ c main_v8_1 : S10000x64.Idx → EReal) i l * cur2 (V4 m ρ c main_v8_1 : S10000x64.Idx → EReal) j l)) :=
    (W5_arr m ρ c 6).trans (Val3b.arr3_6 (V4 m ρ) c)
  rw [st2_s, cur2_uncur2] at e
  exact e
theorem res_z : (W5 m ρ c (Proc.devRef .tc main_v7) : S10000x64.Idx → EReal) = uncur2 (sEmb m c) :=
  (W5_keep m ρ c main_v7 (by decide)).trans ((W4_keep m ρ c main_v7 (by decide)).trans (st1 m ρ c))

/-! ## The two programs end with equal results -/

/-- At the extended reals the kernel's run ends with the three results at the specification's functions of its
    arguments (the run of its four passes, read pass by pass) and the reference's generated run ends with them at the same
    functions of arguments that agree: equal results, entry by entry; the arguments unchanged on both sides. -/
theorem algebraic : Cert.algebraic_KernelIdeal_ReferenceIdeal := by
  intro m ρ m' ρ' _ hagree
  refine ⟨fun c => uncur2 (sAhat m c), fun c => uncur2 (sXhat m c), fun c => uncur2 (sEmb m c), ?_, ?_⟩
  · exact (θ_run Cert.KernelIdeal.defs _ _).mono (fun r h c => ⟨
      (h c _ (mem_uc main_v9_1 (by decide))).trans (res_ahat m ρ c),
      (h c _ (mem_uc main_v9_0 (by decide))).trans (res_xhat m ρ c),
      (h c _ (mem_uc main_v7 (by decide))).trans (res_z m ρ c),
      (h c _ (mem_uc main_arg0 (by decide))).trans (W5_of m ρ c main_arg0 (by decide) (by decide) (by decide) (by decide) (by decide)),
      (h c _ (mem_uc main_arg1 (by decide))).trans (W5_of m ρ c main_arg1 (by decide) (by decide) (by decide) (by decide) (by decide)),
      (h c _ (mem_uc main_arg2 (by decide))).trans (W5_of m ρ c main_arg2 (by decide) (by decide) (by decide) (by decide) (by decide)),
      (h c _ (mem_uc main_arg3 (by decide))).trans (W5_of m ρ c main_arg3 (by decide) (by decide) (by decide) (by decide) (by decide)),
      (h c _ (mem_uc main_arg4 (by decide))).trans (W5_of m ρ c main_arg4 (by decide) (by decide) (by decide) (by decide) (by decide)),
      (h c _ (mem_uc main_arg5 (by decide))).trans (W5_of m ρ c main_arg5 (by decide) (by decide) (by decide) (by decide) (by decide)),
      (h c _ (mem_uc main_arg6 (by decide))).trans (W5_of m ρ c main_arg6 (by decide) (by decide) (by decide) (by decide) (by decide)),
      (h c _ (mem_uc main_arg7 (by decide))).trans (W5_of m ρ c main_arg7 (by decide) (by decide) (by decide) (by decide) (by decide)),
      (h c _ (mem_uc main_arg8 (by decide))).trans (W5_of m ρ c main_arg8 (by decide) (by decide) (by decide) (by decide) (by decide)),
      (h c _ (mem_uc main_arg9 (by decide))).trans (W5_of m ρ c main_arg9 (by decide) (by decide) (by decide) (by decide) (by decide)),
      (h c _ (mem_uc main_arg10 (by decide))).trans (W5_of m ρ c main_arg10 (by decide) (by decide) (by decide) (by decide) (by decide)),
      (h c _ (mem_uc main_arg11 (by decide))).trans (W5_of m ρ c main_arg11 (by decide) (by decide) (by decide) (by decide) (by decide))⟩) (run_all m ρ)
  · refine (θ_run Cert.ReferenceIdeal.defs _ _).mono (fun _ h c => ⟨?_, ?_, ?_, (h c).2.2.2⟩) (Cert.ReferenceIdeal.Value.run (F := Ideal) m' ρ')
    · obtain ⟨e0, e1, e2, e3, e4, e5, e6, e7, e8, e9, e10, e11⟩ := hagree c
      refine (h c).1.trans ((Cert.ReferenceIdeal.Read.val_main_v35_eq _ _ _ _ _ _ _ _).trans ((Cert.ReferenceIdeal.RefValue.ahat_eq _ _ _ _ _ _ _ _).trans ?_))
      rw [e0, e1, e2, e3, e4, e5, e10, e11]; rfl
    · obtain ⟨e0, e1, e2, e3, e4, e5, e6, e7, e8, e9, e10, e11⟩ := hagree c
      refine (h c).2.1.trans ((Cert.ReferenceIdeal.Read.val_main_v21_eq _ _ _ _ _ _ _ _ _ _).trans ((Cert.ReferenceIdeal.RefValue.xhat_eq _ _ _ _ _ _ _ _ _ _).trans ?_))
      rw [e0, e1, e2, e3, e4, e5, e6, e7, e8, e9]; rfl
    · obtain ⟨e0, e1, e2, e3, e4, e5, e6, e7, e8, e9, e10, e11⟩ := hagree c
      refine (h c).2.2.1.trans ((Cert.ReferenceIdeal.Read.val_main_v10_eq _ _ _ _ _ _).trans ((Cert.ReferenceIdeal.RefValue.z_eq _ _ _ _ _ _).trans ?_))
      rw [e0, e1, e2, e3, e4, e5]; rfl

end Cert.KernelIdeal.Bridge

end
-- ==== Proof.lean ====
/-
  The certificate.  Both printings of the kernel (word-level and idealized) are the same four streaming passes over row
  blocks of the adjacency, each pass computing its small projection once into a scratch at the first grid point; their
  frames come from one run of the whole program that ends with every unscoped buffer at a named boundary contents.
  The reference's frame is its generated run with the results dropped.  The idealization rewrote nothing, so
  `preserves` is trivial.  At the extended reals the kernel's three results and the reference's are the same
  functions of the arguments, entry by entry: the same sums in the same order, a change of float format being the
  identity and the logistic function one function on both sides.
-/
import proofs.«114016_g31997506355976_cont_9to1_2145_5_alg».proof.Defs
import proofs.«114016_g31997506355976_cont_9to1_2145_5_alg».proof.Proof.Gen.Kernel
import proofs.«114016_g31997506355976_cont_9to1_2145_5_alg».proof.Proof.Gen.KernelIdeal
import proofs.«114016_g31997506355976_cont_9to1_2145_5_alg».proof.Proof.Gen.ReferenceIdeal
import proofs.«114016_g31997506355976_cont_9to1_2145_5_alg».proof.Proof.Gen.Pre_finite_inputs
import proofs.«114016_g31997506355976_cont_9to1_2145_5_alg».proof.Proof.Gen.ReferenceIdeal.Run
import proofs.«114016_g31997506355976_cont_9to1_2145_5_alg».proof.Proof.KFrames
import proofs.«114016_g31997506355976_cont_9to1_2145_5_alg».proof.Proof.Frames
import proofs.«114016_g31997506355976_cont_9to1_2145_5_alg».proof.Proof.Bridge
import Idealize.ShloMosaic.Adequacy
import Idealize.ShloMosaic.Init

noncomputable section

namespace Cert.Proof

open Idealize.ShloMosaic Idealize.SL.Sem

/-- The word-level kernel's frame: the run of its four passes, read at the argument arrays. -/
theorem frame_k : Cert.frame_Kernel := fun m ρ _ => Cert.Kernel.Hand.frame m ρ
/-- The idealized kernel's frame: the same run at the extended reals. -/
theorem frame_ki : Cert.frame_KernelIdeal := fun m ρ _ => Cert.KernelIdeal.Hand.frame m ρ
/-- The reference's frame: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)
/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.KernelIdeal.Bridge.algebraic⟩

end Cert.Proof

end
